-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v132)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S600000 : Shape := ⟨1, ![600000]⟩
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg24 : FVec F S128 .f32) (main_arg25 : FVec F S128x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg24
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg25
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  main_v98

def fn_part4 {F : FTy → Type} [FloatOps F] (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg22
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg23
  let main_cst_32 : FVec F S_ .f32 := constant S_ .f32 0x7F800000#32
  fn_part5 (F := F) main_arg24 main_arg25 main_v83 main_v84 main_cst_32

def fn_part3 {F : FTy → Type} [FloatOps F] (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg20 main_arg21 main_arg22 main_arg23 main_arg24 main_arg25 main_v63 main_v67

def fn_part2 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_arg20 main_arg21 main_arg22 main_arg23 main_arg24 main_arg25 main_v48 main_v49 main_v50

def fn_part1 {F : FTy → Type} [FloatOps F] (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_v33

def fn {F : FTy → Type} [FloatOps F] (main_arg0 : IVec S1000000 32) (main_arg1 : IVec S1000000 32) (main_arg2 : IVec S1000000 32) (main_arg3 : IVec S1000000 32) (main_arg4 : IVec S600000 32) (main_arg5 : IVec S600000 32) (main_arg6 : FVec F S50000x128 .f32) (main_arg7 : FVec F S20000x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) : IVec S_ 1 :=
  let main_v0 : FVec F S50000x128 .f32 := Host.absf main_arg6
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg7
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S1000000 : Shape := ⟨1, ![1000000]⟩
abbrev S600000 : Shape := ⟨1, ![600000]⟩
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S_ : Shape := ⟨0, ![]⟩
abbrev S20000 : Shape := ⟨1, ![20000]⟩
abbrev S1000000x1 : Shape := ⟨2, ![1000000, 1]⟩
abbrev S20000x1 : Shape := ⟨2, ![20000, 1]⟩
abbrev S50000 : Shape := ⟨1, ![50000]⟩
abbrev S50000x1 : Shape := ⟨2, ![50000, 1]⟩
abbrev S600000x1 : Shape := ⟨2, ![600000, 1]⟩
abbrev S1000000x128 : Shape := ⟨2, ![1000000, 128]⟩
abbrev S1x128 : Shape := ⟨2, ![1, 128]⟩
abbrev S5000x128 : Shape := ⟨2, ![5000, 128]⟩
abbrev S5000x1 : Shape := ⟨2, ![5000, 1]⟩
abbrev S600000x128 : Shape := ⟨2, ![600000, 128]⟩

abbrev nBuf : Space → Nat
  | .hbm => 189
  | .vmem => 54
  | .smem => 0
  | _ => 0

abbrev hbmTy0_0 (i : Nat) : BufTy := match i % 128 with
  | 0 => ⟨S1000000, .i32⟩
  | 1 => ⟨S1000000, .i32⟩
  | 2 => ⟨S1000000, .i32⟩
  | 3 => ⟨S1000000, .i32⟩
  | 4 => ⟨S600000, .i32⟩
  | 5 => ⟨S600000, .i32⟩
  | 6 => ⟨S50000x128, .f32⟩
  | 7 => ⟨S20000x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S_, .f32⟩
  | 27 => ⟨S1000000, .f32⟩
  | 28 => ⟨S_, .f32⟩
  | 29 => ⟨S20000, .f32⟩
  | 30 => ⟨S1000000x1, .i32⟩
  | 31 => ⟨S20000, .f32⟩
  | 32 => ⟨S_, .f32⟩
  | 33 => ⟨S20000, .f32⟩
  | 34 => ⟨S20000, .f32⟩
  | 35 => ⟨S_, .f32⟩
  | 36 => ⟨S20000, .f32⟩
  | 37 => ⟨S20000, .f32⟩
  | 38 => ⟨S20000x1, .f32⟩
  | 39 => ⟨S_, .f32⟩
  | 40 => ⟨S1000000, .f32⟩
  | 41 => ⟨S_, .f32⟩
  | 42 => ⟨S50000, .f32⟩
  | 43 => ⟨S1000000x1, .i32⟩
  | 44 => ⟨S50000, .f32⟩
  | 45 => ⟨S_, .f32⟩
  | 46 => ⟨S50000, .f32⟩
  | 47 => ⟨S50000, .f32⟩
  | 48 => ⟨S_, .f32⟩
  | 49 => ⟨S50000, .f32⟩
  | 50 => ⟨S50000, .f32⟩
  | 51 => ⟨S50000x1, .f32⟩
  | 52 => ⟨S_, .f32⟩
  | 53 => ⟨S600000, .f32⟩
  | 54 => ⟨S_, .f32⟩
  | 55 => ⟨S50000, .f32⟩
  | 56 => ⟨S600000x1, .i32⟩
  | 57 => ⟨S50000, .f32⟩
  | 58 => ⟨S_, .f32⟩
  | 59 => ⟨S50000, .f32⟩
  | 60 => ⟨S50000, .f32⟩
  | 61 => ⟨S_, .f32⟩
  | 62 => ⟨S50000, .f32⟩
  | 63 => ⟨S50000, .f32⟩
  | 64 => ⟨S50000x1, .f32⟩
  | 65 => ⟨S50000x128, .bf16⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x128, .bf16⟩
  | 75 => ⟨S1000000x128, .f32⟩
  | 76 => ⟨S_, .f32⟩
  | 77 => ⟨S20000x128, .f32⟩
  | 78 => ⟨S1000000x1, .i32⟩
  | 79 => ⟨S20000x128, .f32⟩
  | 80 => ⟨S128x128, .f32⟩
  | 81 => ⟨S128x128, .bf16⟩
  | 82 => ⟨S128x128, .f32⟩
  | 83 => ⟨S128x128, .bf16⟩
  | 84 => ⟨S1x128, .f32⟩
  | 85 => ⟨S20000x128, .f32⟩
  | 86 => ⟨S20000x128, .bf16⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x128, .bf16⟩
  | 96 => ⟨S1000000x128, .f32⟩
  | 97 => ⟨S_, .f32⟩
  | 98 => ⟨S50000x128, .f32⟩
  | 99 => ⟨S1000000x1, .i32⟩
  | 100 => ⟨S50000x128, .f32⟩
  | 101 => ⟨S50000x128, .bf16⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .bf16⟩
  | 111 => ⟨S600000x128, .f32⟩
  | 112 => ⟨S_, .f32⟩
  | 113 => ⟨S50000x128, .f32⟩
  | 114 => ⟨S600000x1, .i32⟩
  | 115 => ⟨S50000x128, .f32⟩
  | 116 => ⟨S128x128, .f32⟩
  | 117 => ⟨S128x128, .bf16⟩
  | 118 => ⟨S128x128, .f32⟩
  | 119 => ⟨S128x128, .bf16⟩
  | 120 => ⟨S128x128, .f32⟩
  | 121 => ⟨S128x128, .f32⟩
  | 122 => ⟨S128x128, .f32⟩
  | 123 => ⟨S128x128, .bf16⟩
  | 124 => ⟨S128, .f32⟩
  | 125 => ⟨S1x128, .f32⟩
  | 126 => ⟨S50000x128, .f32⟩
  | 127 => ⟨S50000x128, .bf16⟩
  | _ => ⟨S1000000, .i32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x128, .bf16⟩
  | 9 => ⟨S1000000x128, .f32⟩
  | 10 => ⟨S_, .f32⟩
  | 11 => ⟨S20000x128, .f32⟩
  | 12 => ⟨S1000000x1, .i32⟩
  | 13 => ⟨S20000x128, .f32⟩
  | 14 => ⟨S128x128, .f32⟩
  | 15 => ⟨S128x128, .bf16⟩
  | 16 => ⟨S128x128, .f32⟩
  | 17 => ⟨S128x128, .bf16⟩
  | 18 => ⟨S1x128, .f32⟩
  | 19 => ⟨S20000x128, .f32⟩
  | 20 => ⟨S20000x128, .bf16⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x128, .bf16⟩
  | 30 => ⟨S1000000x128, .f32⟩
  | 31 => ⟨S_, .f32⟩
  | 32 => ⟨S50000x128, .f32⟩
  | 33 => ⟨S1000000x1, .i32⟩
  | 34 => ⟨S50000x128, .f32⟩
  | 35 => ⟨S50000x128, .bf16⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .bf16⟩
  | 45 => ⟨S600000x128, .f32⟩
  | 46 => ⟨S_, .f32⟩
  | 47 => ⟨S50000x128, .f32⟩
  | 48 => ⟨S600000x1, .i32⟩
  | 49 => ⟨S50000x128, .f32⟩
  | 50 => ⟨S128x128, .f32⟩
  | 51 => ⟨S128x128, .bf16⟩
  | 52 => ⟨S128x128, .f32⟩
  | 53 => ⟨S128x128, .bf16⟩
  | 54 => ⟨S128x128, .f32⟩
  | 55 => ⟨S128x128, .f32⟩
  | 56 => ⟨S128x128, .f32⟩
  | 57 => ⟨S128x128, .bf16⟩
  | 58 => ⟨S128, .f32⟩
  | 59 => ⟨S1x128, .f32⟩
  | 60 => ⟨S50000x128, .f32⟩
  | _ => ⟨S1000000, .i32⟩

abbrev hbmTy (i : Nat) : BufTy := match i / 128 with
  | 0 => hbmTy0_0 i
  | 1 => hbmTy0_1 i
  | _ => ⟨S1000000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S5000x128, .f32⟩
  | .local _ .vmem, ⟨6, _⟩ => ⟨S5000x128, .f32⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .bf16⟩
  | .local _ .vmem, ⟨21, _⟩ => ⟨S5000x128, .f32⟩
  | .local _ .vmem, ⟨22, _⟩ => ⟨S5000x128, .f32⟩
  | .local _ .vmem, ⟨23, _⟩ => ⟨S128x128, .bf16⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128x128, .bf16⟩
  | .local _ .vmem, ⟨32, _⟩ => ⟨S5000x128, .f32⟩
  | .local _ .vmem, ⟨33, _⟩ => ⟨S5000x128, .f32⟩
  | .local _ .vmem, ⟨34, _⟩ => ⟨S128x128, .bf16⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S128x128, .bf16⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S128x128, .bf16⟩
  | .local _ .vmem, ⟨48, _⟩ => ⟨S5000x128, .f32⟩
  | .local _ .vmem, ⟨49, _⟩ => ⟨S5000x128, .f32⟩
  | .local _ .vmem, ⟨50, _⟩ => ⟨S128x128, .bf16⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_3 : Ref sig .tc := ⟨.hbm, 39, rfl⟩
abbrev main_v9 : Ref sig .tc := ⟨.hbm, 40, rfl⟩
abbrev main_cst_4 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_5 : Ref sig .tc := ⟨.hbm, 45, rfl⟩
abbrev main_v13 : Ref sig .tc := ⟨.hbm, 46, rfl⟩
abbrev main_v14 : Ref sig .tc := ⟨.hbm, 47, rfl⟩
abbrev main_cst_6 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_7 : Ref sig .tc := ⟨.hbm, 52, rfl⟩
abbrev main_v18 : Ref sig .tc := ⟨.hbm, 53, rfl⟩
abbrev main_cst_8 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_9 : Ref sig .tc := ⟨.hbm, 58, rfl⟩
abbrev main_v22 : Ref sig .tc := ⟨.hbm, 59, rfl⟩
abbrev main_v23 : Ref sig .tc := ⟨.hbm, 60, rfl⟩
abbrev main_cst_10 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_c : Ref sig .tc := ⟨.hbm, 66, rfl⟩
abbrev main_v28 : Ref sig .tc := ⟨.hbm, 67, rfl⟩
abbrev main_v29 : Ref sig .tc := ⟨.hbm, 68, rfl⟩
abbrev main_c_11 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_12 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_c_13 : Ref sig .tc := ⟨.hbm, 87, rfl⟩
abbrev main_v46 : Ref sig .tc := ⟨.hbm, 88, rfl⟩
abbrev main_v47 : Ref sig .tc := ⟨.hbm, 89, rfl⟩
abbrev main_c_14 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_15 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_16 : Ref sig .tc := ⟨.hbm, 102, rfl⟩
abbrev main_v58 : Ref sig .tc := ⟨.hbm, 103, rfl⟩
abbrev main_v59 : Ref sig .tc := ⟨.hbm, 104, rfl⟩
abbrev main_c_17 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_18 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_19 : Ref sig .tc := ⟨.hbm, 128, rfl⟩
abbrev main_v81 : Ref sig .tc := ⟨.hbm, 129, rfl⟩
abbrev main_v82 : Ref sig .tc := ⟨.hbm, 130, rfl⟩
abbrev main_c_20 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_21 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_22 : Ref sig .tc := ⟨.hbm, 149, rfl⟩
abbrev main_v99 : Ref sig .tc := ⟨.hbm, 150, rfl⟩
abbrev main_v100 : Ref sig .tc := ⟨.hbm, 151, rfl⟩
abbrev main_c_23 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_24 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_25 : Ref sig .tc := ⟨.hbm, 164, rfl⟩
abbrev main_v111 : Ref sig .tc := ⟨.hbm, 165, rfl⟩
abbrev main_v112 : Ref sig .tc := ⟨.hbm, 166, rfl⟩
abbrev main_c_26 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_27 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg4_1 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg9_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem8_0 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem6_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem3_1 : DmaSem sig := 44
abbrev cc3_sem4_0 : DmaSem sig := 45
abbrev cc3_sem4_1 : DmaSem sig := 46
abbrev cc3_sem5_0 : DmaSem sig := 47
abbrev cc3_sem6_0 : DmaSem sig := 48
abbrev cc3_sem6_1 : DmaSem sig := 49
abbrev cc3_sem7_0 : DmaSem sig := 50
abbrev cc3_sem8_0 : DmaSem sig := 51
abbrev cc3_sem9_0 : DmaSem sig := 52
abbrev cc3_sem9_1 : DmaSem sig := 53

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S128x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S1000000 : S_.BroadcastsInDim S1000000 (![] : Fin 0 → Fin S1000000.rank)
  bcast_S_S20000 : S_.BroadcastsInDim S20000 (![] : Fin 0 → Fin S20000.rank)
  bcast_S1000000_S1000000x1_0 : S1000000.BroadcastsInDim S1000000x1 (![0] : Fin 1 → Fin S1000000x1.rank)
  shapeCasts_S20000_S20000x1 : S20000.ShapeCasts S20000x1
  bcast_S_S50000 : S_.BroadcastsInDim S50000 (![] : Fin 0 → Fin S50000.rank)
  shapeCasts_S50000_S50000x1 : S50000.ShapeCasts S50000x1
  bcast_S_S600000 : S_.BroadcastsInDim S600000 (![] : Fin 0 → Fin S600000.rank)
  bcast_S600000_S600000x1_0 : S600000.BroadcastsInDim S600000x1 (![0] : Fin 1 → Fin S600000x1.rank)
  bitsLt_bf16_f32 : FTy.bits .bf16 < FTy.bits .f32
  bcast_S_S20000x128 : S_.BroadcastsInDim S20000x128 (![] : Fin 0 → Fin S20000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  scatter_S20000_S1000000x1_S1000000_n_0_0_1_wf : ScatterDims.WF S20000 S1000000x1 S1000000 [] [0] [0] 1
  scatter_S50000_S1000000x1_S1000000_n_0_0_1_wf : ScatterDims.WF S50000 S1000000x1 S1000000 [] [0] [0] 1
  scatter_S50000_S600000x1_S600000_n_0_0_1_wf : ScatterDims.WF S50000 S600000x1 S600000 [] [0] [0] 1
  gather_S50000x128_S1000000x1_S1000000x128_1_0_n_n_0_1_1128_wf : GatherDims.WF S50000x128 S1000000x1 S1000000x128 [1] [0] [] [0] [] 1 ![1, 128]
  scatter_S20000x128_S1000000x1_S1000000x128_1_0_0_1_wf : ScatterDims.WF S20000x128 S1000000x1 S1000000x128 [1] [0] [0] 1
  dot_S5000x128_S128x128_S5000x128_1_0_0_1_n_n_wf : DotDims.WF S5000x128 S128x128 S5000x128 [1] [0] [0] [1] [] []
  gather_S20000x128_S1000000x1_S1000000x128_1_0_n_n_0_1_1128_wf : GatherDims.WF S20000x128 S1000000x1 S1000000x128 [1] [0] [] [0] [] 1 ![1, 128]
  scatter_S50000x128_S1000000x1_S1000000x128_1_0_0_1_wf : ScatterDims.WF S50000x128 S1000000x1 S1000000x128 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S20000x128.size a
  hwx0_0 : ∀ i : grid0.Coords, EltTy.bits .f32 = 32 ∨ (Rect.block (s := S20000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S20000x1.size a
  hwx0_1 : ∀ i : grid0.Coords, EltTy.bits .f32 = 32 ∨ (Rect.block (s := S20000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S20000x128.size a
  hwx0_3 : ∀ i : grid0.Coords, EltTy.bits .f32 = 32 ∨ (Rect.block (s := S20000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S20000x128.size a
  hwx0_6 : ∀ i : grid0.Coords, EltTy.bits .f32 = 32 ∨ (Rect.block (s := S20000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S20000x128.size a
  hwx2_0 : ∀ i : grid2.Coords, EltTy.bits .f32 = 32 ∨ (Rect.block (s := S20000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S20000x1.size a
  hwx2_1 : ∀ i : grid2.Coords, EltTy.bits .f32 = 32 ∨ (Rect.block (s := S20000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S20000x128.size a
  hwx2_3 : ∀ i : grid2.Coords, EltTy.bits .f32 = 32 ∨ (Rect.block (s := S20000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S20000x128.size a
  hwx2_6 : ∀ i : grid2.Coords, EltTy.bits .f32 = 32 ∨ (Rect.block (s := S20000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .f32 = 32 ∨ (Rect.block (s := S50000x1) S5000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .bf16 = 32 ∨ (Rect.block (s := S128x128) S128x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)

variable [Facts₀]

def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v70) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v72) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S5000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v76) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v78) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v79) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v91) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v93) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v95) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v96) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v97) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v109) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v123) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v121) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v26) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v125) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S5000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v129) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v131) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v132) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S1000000 : Shape := ⟨1, ![1000000]⟩
abbrev S600000 : Shape := ⟨1, ![600000]⟩
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S20000 : Shape := ⟨1, ![20000]⟩
abbrev S20000x1 : Shape := ⟨2, ![20000, 1]⟩
abbrev S1x128 : Shape := ⟨2, ![1, 128]⟩
abbrev S50000 : Shape := ⟨1, ![50000]⟩
abbrev S50000x1 : Shape := ⟨2, ![50000, 1]⟩
abbrev S600000x1 : Shape := ⟨2, ![600000, 1]⟩
abbrev S600000x128 : Shape := ⟨2, ![600000, 128]⟩

abbrev nBuf : Space → Nat
  | .hbm => 232
  | .vmem => 0
  | .smem => 0
  | _ => 0

abbrev hbmTy0_0 (i : Nat) : BufTy := match i % 128 with
  | 0 => ⟨S1000000, .i32⟩
  | 1 => ⟨S1000000, .i32⟩
  | 2 => ⟨S1000000, .i32⟩
  | 3 => ⟨S1000000, .i32⟩
  | 4 => ⟨S600000, .i32⟩
  | 5 => ⟨S600000, .i32⟩
  | 6 => ⟨S50000x128, .f32⟩
  | 7 => ⟨S20000x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x128, .f32⟩
  | 35 => ⟨S_, .f32⟩
  | 36 => ⟨S20000x128, .f32⟩
  | 37 => ⟨S1000000x1, .i32⟩
  | 38 => ⟨S20000x128, .f32⟩
  | 39 => ⟨S_, .f32⟩
  | 40 => ⟨S1000000, .f32⟩
  | 41 => ⟨S_, .f32⟩
  | 42 => ⟨S20000, .f32⟩
  | 43 => ⟨S1000000x1, .i32⟩
  | 44 => ⟨S20000, .f32⟩
  | 45 => ⟨S_, .f32⟩
  | 46 => ⟨S20000, .f32⟩
  | 47 => ⟨S20000, .f32⟩
  | 48 => ⟨S20000x1, .f32⟩
  | 49 => ⟨S20000x128, .f32⟩
  | 50 => ⟨S20000x128, .f32⟩
  | 51 => ⟨S128x128, .f32⟩
  | 52 => ⟨S20000x128, .f32⟩
  | 53 => ⟨S1x128, .f32⟩
  | 54 => ⟨S20000x128, .f32⟩
  | 55 => ⟨S20000x128, .f32⟩
  | 56 => ⟨S128x128, .f32⟩
  | 57 => ⟨S20000x128, .f32⟩
  | 58 => ⟨S20000x128, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000x128, .f32⟩
  | 68 => ⟨S_, .f32⟩
  | 69 => ⟨S50000x128, .f32⟩
  | 70 => ⟨S1000000x1, .i32⟩
  | 71 => ⟨S50000x128, .f32⟩
  | 72 => ⟨S_, .f32⟩
  | 73 => ⟨S1000000, .f32⟩
  | 74 => ⟨S_, .f32⟩
  | 75 => ⟨S50000, .f32⟩
  | 76 => ⟨S1000000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S128x128, .f32⟩
  | 85 => ⟨S50000x128, .f32⟩
  | 86 => ⟨S1x128, .f32⟩
  | 87 => ⟨S50000x128, .f32⟩
  | 88 => ⟨S50000x128, .f32⟩
  | 89 => ⟨S128x128, .f32⟩
  | 90 => ⟨S50000x128, .f32⟩
  | 91 => ⟨S50000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .f32⟩
  | 102 => ⟨S50000x128, .f32⟩
  | 103 => ⟨S600000x1, .i32⟩
  | 104 => ⟨S50000x128, .f32⟩
  | 105 => ⟨S_, .f32⟩
  | 106 => ⟨S600000, .f32⟩
  | 107 => ⟨S_, .f32⟩
  | 108 => ⟨S50000, .f32⟩
  | 109 => ⟨S600000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S128x128, .f32⟩
  | 118 => ⟨S50000x128, .f32⟩
  | 119 => ⟨S1x128, .f32⟩
  | 120 => ⟨S50000x128, .f32⟩
  | 121 => ⟨S50000x128, .f32⟩
  | 122 => ⟨S128x128, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S1000000, .i32⟩

abbrev hbmTy0_1 (i : Nat) : BufTy := match i % 128 with
  | 0 => ⟨S50000x128, .f32⟩
  | 1 => ⟨S_, .f32⟩
  | 2 => ⟨S20000x128, .f32⟩
  | 3 => ⟨S20000x128, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x128, .f32⟩
  | 13 => ⟨S_, .f32⟩
  | 14 => ⟨S20000x128, .f32⟩
  | 15 => ⟨S1000000x1, .i32⟩
  | 16 => ⟨S20000x128, .f32⟩
  | 17 => ⟨S_, .f32⟩
  | 18 => ⟨S1000000, .f32⟩
  | 19 => ⟨S_, .f32⟩
  | 20 => ⟨S20000, .f32⟩
  | 21 => ⟨S1000000x1, .i32⟩
  | 22 => ⟨S20000, .f32⟩
  | 23 => ⟨S_, .f32⟩
  | 24 => ⟨S20000, .f32⟩
  | 25 => ⟨S20000, .f32⟩
  | 26 => ⟨S20000x1, .f32⟩
  | 27 => ⟨S20000x128, .f32⟩
  | 28 => ⟨S20000x128, .f32⟩
  | 29 => ⟨S128x128, .f32⟩
  | 30 => ⟨S20000x128, .f32⟩
  | 31 => ⟨S1x128, .f32⟩
  | 32 => ⟨S20000x128, .f32⟩
  | 33 => ⟨S20000x128, .f32⟩
  | 34 => ⟨S128x128, .f32⟩
  | 35 => ⟨S20000x128, .f32⟩
  | 36 => ⟨S20000x128, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x128, .f32⟩
  | 46 => ⟨S_, .f32⟩
  | 47 => ⟨S50000x128, .f32⟩
  | 48 => ⟨S1000000x1, .i32⟩
  | 49 => ⟨S50000x128, .f32⟩
  | 50 => ⟨S_, .f32⟩
  | 51 => ⟨S1000000, .f32⟩
  | 52 => ⟨S_, .f32⟩
  | 53 => ⟨S50000, .f32⟩
  | 54 => ⟨S1000000x1, .i32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S128x128, .f32⟩
  | 63 => ⟨S50000x128, .f32⟩
  | 64 => ⟨S1x128, .f32⟩
  | 65 => ⟨S50000x128, .f32⟩
  | 66 => ⟨S50000x128, .f32⟩
  | 67 => ⟨S128x128, .f32⟩
  | 68 => ⟨S50000x128, .f32⟩
  | 69 => ⟨S50000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S_, .f32⟩
  | 84 => ⟨S600000, .f32⟩
  | 85 => ⟨S_, .f32⟩
  | 86 => ⟨S50000, .f32⟩
  | 87 => ⟨S600000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S128x128, .f32⟩
  | 96 => ⟨S50000x128, .f32⟩
  | 97 => ⟨S1x128, .f32⟩
  | 98 => ⟨S50000x128, .f32⟩
  | 99 => ⟨S50000x128, .f32⟩
  | 100 => ⟨S128x128, .f32⟩
  | 101 => ⟨S50000x128, .f32⟩
  | 102 => ⟨S50000x128, .f32⟩
  | 103 => ⟨S50000x128, .f32⟩
  | _ => ⟨S1000000, .i32⟩

abbrev hbmTy (i : Nat) : BufTy := match i / 128 with
  | 0 => hbmTy0_0 i
  | 1 => hbmTy0_1 i
  | _ => ⟨S1000000, .i32⟩

abbrev bufTy : (tb : Table) → Fin (tcTables nBuf tb) → BufTy
  | .hbm, ⟨i, _⟩ => hbmTy i
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_4 : Ref sig .tc := ⟨.hbm, 59, rfl⟩
abbrev main_v27 : Ref sig .tc := ⟨.hbm, 60, rfl⟩
abbrev main_v28 : Ref sig .tc := ⟨.hbm, 61, rfl⟩
abbrev main_c_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_7 : Ref sig .tc := ⟨.hbm, 72, rfl⟩
abbrev main_v37 : Ref sig .tc := ⟨.hbm, 73, rfl⟩
abbrev main_cst_8 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_9 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_10 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_cst_14 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_15 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_call0_cst : Ref sig .tc := ⟨.hbm, 126, rfl⟩
abbrev main_call0_v0 : Ref sig .tc := ⟨.hbm, 127, rfl⟩
abbrev main_v82 : Ref sig .tc := ⟨.hbm, 128, rfl⟩
abbrev main_call1_cst : Ref sig .tc := ⟨.hbm, 129, rfl⟩
abbrev main_call1_v0 : Ref sig .tc := ⟨.hbm, 130, rfl⟩
abbrev main_v83 : Ref sig .tc := ⟨.hbm, 131, rfl⟩
abbrev main_c_16 : Ref sig .tc := ⟨.hbm, 132, rfl⟩
abbrev main_v84 : Ref sig .tc := ⟨.hbm, 133, rfl⟩
abbrev main_v85 : Ref sig .tc := ⟨.hbm, 134, rfl⟩
abbrev main_c_17 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_18 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_19 : Ref sig .tc := ⟨.hbm, 145, rfl⟩
abbrev main_v94 : Ref sig .tc := ⟨.hbm, 146, rfl⟩
abbrev main_cst_20 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_21 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_c_22 : Ref sig .tc := ⟨.hbm, 165, rfl⟩
abbrev main_v111 : Ref sig .tc := ⟨.hbm, 166, rfl⟩
abbrev main_v112 : Ref sig .tc := ⟨.hbm, 167, rfl⟩
abbrev main_c_23 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_24 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_25 : Ref sig .tc := ⟨.hbm, 178, rfl⟩
abbrev main_v121 : Ref sig .tc := ⟨.hbm, 179, rfl⟩
abbrev main_cst_26 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_27 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_c_28 : Ref sig .tc := ⟨.hbm, 198, rfl⟩
abbrev main_v138 : Ref sig .tc := ⟨.hbm, 199, rfl⟩
abbrev main_v139 : Ref sig .tc := ⟨.hbm, 200, rfl⟩
abbrev main_c_29 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_30 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_cst_31 : Ref sig .tc := ⟨.hbm, 211, rfl⟩
abbrev main_v148 : Ref sig .tc := ⟨.hbm, 212, rfl⟩
abbrev main_cst_32 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_cst_33 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  gather_S50000x128_S1000000x1_S1000000x128_1_0_n_n_0_1_1128_wf : GatherDims.WF S50000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S20000x128_S128x128_S20000x128_1_0_0_1_n_n_wf : DotDims.WF S20000x128 S128x128 S20000x128 [1] [0] [0] [1] [] []
  gather_S20000x128_S1000000x1_S1000000x128_1_0_n_n_0_1_1128_wf : GatherDims.WF S20000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

class Facts : Prop extends Facts₀ where

variable [Facts]
-- ==== Proof.KernelRun.lean ====
/-
  The idealized kernel's run with its two results named.

  The program is eight segments: a stretch of host operations, then a pipelined region, four times over. The
  buffer contents at each boundary are a fold from the launch memory: after a host stretch, the stretch's
  operations applied; after a region, the region's arrays at what its write-backs leave and every other buffer
  as entered. Every weakly fair execution ends with every unscoped buffer at the last boundary's contents, so in
  particular the two result buffers are what the fold gives them there, and the arguments are as launched.
-/
import proofs.«150412_j11682311045362_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the gene result and the trait result at the
    last boundary's contents and every argument array as launched. -/
theorem run_named : θ_run defs (onTc (τ := τ) (main (F := F))) ⟨m, fun _ => 0, ρ⟩ (fun r => ∀ c : Dev nD,
      r.2.mem ((c.tc : Thread nD τ).loc main_v132) = W8 m ρ c (Proc.devRef .tc main_v132)
      ∧ r.2.mem ((c.tc : Thread nD τ).loc main_v97) = W8 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v132 (by decide)),
       h c _ (mem_uc main_v97 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c)⟩)

end Cert.KernelIdeal.RunValue

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«150412_j11682311045362_2_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«150412_j11682311045362_2_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«150412_j11682311045362_2_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.LibColumnBroadcast.lean ====
/-
  A column spread along the columns of a matrix, read at an index, for any extents: an `[a, 1]` array
  broadcast to `[a, b]` holds, at `(p, c)`, the column's entry `p` whatever `c` is.
-/
import Idealize.ShloMosaic.Lib.ValueIdx
import Idealize.ShloMosaic.Lib.Pipeline.Value

noncomputable section

namespace Cert.Layout

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibScaledRows.lean ====
/-
  Rows scaled by a column: the two dense steps of a degree-normalised graph convolution, for any extents.

  Write `x` for an `[R, K]` array of extended reals and `n` for a column `[R, 1]`. `scale x n` multiplies row `r`
  of `x` by `n (r, 0)`. The projection step is `scaledProd x n w = (scale x n) · w` for a `[K, N]` matrix `w`; the
  combination step is `scaledPlus x n b = scale x n + b` with the length-`N` vector `b` added to every row, and
  `scaledPlusMax` is the same floored at a constant. Each is one whole-array function, entry by entry.

  Three things are proved about them, all for arbitrary extents and with no finiteness assumption (only
  rewriting of the same sums and products, never distributivity):
  * the vector unit's spelling (the column spread along the rows by a broadcast, the bias as a one-row array spread
    down the rows, the product on the matrix unit accumulating into zero, narrowing casts being the identity on the
    extended reals) computes them;
  * the host's spelling (`broadcast_in_dim` for the column and for the bias, `dot_general` for the product) computes
    them;
  * they act on each row by itself, so a block that holds rows `o, o + 1, …` of taller operands holds the same rows of
    the taller result.
-/
import Idealize.ShloMosaic.Lib.ValueIdx
import Idealize.ShloMosaic.Lib.Pipeline.Value
import Idealize.ShloMosaic.PureOps.Ideal.Laws
import proofs.«150412_j11682311045362_2_alg».proof.Proof.LibRowBlocks
import proofs.«150412_j11682311045362_2_alg».proof.Proof.LibRowBias
import proofs.«150412_j11682311045362_2_alg».proof.Proof.LibColumnBroadcast
import proofs.«150412_j11682311045362_2_alg».proof.Proof.LibHostColumn
import proofs.«150412_j11682311045362_2_alg».proof.Proof.LibHostRow

noncomputable section

namespace Cert.ScaledRows

open Idealize.ShloMosaic Idealize.ShloMosaic.ValueIdx
open Cert.MatProduct (rowOf colOf prod eq_row_col)
open Cert.Bridge (RowsAt)

/-! ## The functions -/

/-- Row `r` of `x` multiplied by entry `r` of the column `n`. -/
def scale {R K : ℕ} (x : (⟨2, ![R, K]⟩ : Shape).Idx → EReal) (n : (⟨2, ![R, 1]⟩ : Shape).Idx → EReal) :
    (⟨2, ![R, K]⟩ : Shape).Idx → EReal :=
  fun y => x y * n (ix2 (rowOf y) (0 : Fin 1))

/-- The rows of `x` scaled by `n`, then multiplied by the matrix `w` on the right. -/
def scaledProd {R K N : ℕ} (x : (⟨2, ![R, K]⟩ : Shape).Idx → EReal) (n : (⟨2, ![R, 1]⟩ : Shape).Idx → EReal)
    (w : (⟨2, ![K, N]⟩ : Shape).Idx → EReal) : (⟨2, ![R, N]⟩ : Shape).Idx → EReal :=
  prod (scale x n) w

/-- The rows of `x` scaled by `n`, plus the vector `b` added to every row. -/
def scaledPlus {R N : ℕ} (x : (⟨2, ![R, N]⟩ : Shape).Idx → EReal) (n : (⟨2, ![R, 1]⟩ : Shape).Idx → EReal)
    (b : (⟨1, ![N]⟩ : Shape).Idx → EReal) : (⟨2, ![R, N]⟩ : Shape).Idx → EReal :=
  fun y => x y * n (ix2 (rowOf y) (0 : Fin 1)) + b (ix1 (colOf y))

/-- The same floored at `z`, entry by entry. -/
def scaledPlusMax {R N : ℕ} (x : (⟨2, ![R, N]⟩ : Shape).Idx → EReal) (n : (⟨2, ![R, 1]⟩ : Shape).Idx → EReal)
    (b : (⟨1, ![N]⟩ : Shape).Idx → EReal) (z : EReal) : (⟨2, ![R, N]⟩ : Shape).Idx → EReal :=
  fun y => max (scaledPlus x n b y) z

/-- A one-row array read as a vector: entry `c` is the row's entry `(0, c)`. -/
def rowVec {α : Type} {N : ℕ} (b1 : (⟨2, ![1, N]⟩ : Shape).Idx → α) : (⟨1, ![N]⟩ : Shape).Idx → α :=
  fun i => b1 (ix2 (0 : Fin 1) (i 0))

/-- A vector regarded as one row by a cast, read back as a vector, is the vector. -/
theorem rowVec_shapeCast {α : Type} {N : ℕ} (b : (⟨1, ![N]⟩ : Shape).Idx → α)
    (h : (⟨1, ![N]⟩ : Shape).ShapeCasts ⟨2, ![1, N]⟩) : rowVec (shapeCast ⟨2, ![1, N]⟩ b h) = b :=
  funext fun i => (Cert.RowBias.vecRow_apply b h (i 0)).trans (congrArg b (eq_ix1 i).symm)

theorem rowOf_ix2 {M N : ℕ} (p : Fin M) (j : Fin N) : rowOf (ix2 p j) = p := rfl
theorem colOf_ix2 {M N : ℕ} (p : Fin M) (j : Fin N) : colOf (ix2 p j) = j := rfl

/-! ## The vector unit's spelling -/

/-- A column spread along the rows by the vector unit reads, at `y`, the column's entry in `y`'s row. -/
theorem spreadCol_apply {M K : ℕ} (n : (⟨2, ![M, 1]⟩ : Shape).Idx → EReal)
    (hb : (⟨2, ![M, 1]⟩ : Shape).Broadcasts ⟨2, ![M, K]⟩) (y : (⟨2, ![M, K]⟩ : Shape).Idx) :
    broadcastTo ⟨2, ![M, K]⟩ n hb y = n (ix2 (rowOf y) (0 : Fin 1)) := by
  rw [eq_row_col y]
  exact Cert.Layout.broadcastTo_a1_ab_apply n hb (rowOf y) (colOf y)

/-- `x * spread n`, through the identity cast the lowering leaves on the column. -/
theorem vec_scale {M K : ℕ} (x : FVec Ideal ⟨2, ![M, K]⟩ .f32) (n : FVec Ideal ⟨2, ![M, 1]⟩ .f32)
    (hc : (⟨2, ![M, 1]⟩ : Shape).ShapeCasts ⟨2, ![M, 1]⟩) (hb : (⟨2, ![M, 1]⟩ : Shape).Broadcasts ⟨2, ![M, K]⟩) :
    mulf x (broadcastTo ⟨2, ![M, K]⟩ (shapeCast ⟨2, ![M, 1]⟩ n hc) hb) = scale x n := by
  rw [shapeCast_self]
  funext y
  rw [mulf_apply, spreadCol_apply]
  rfl

/-- The projection step on the matrix unit: both operands narrowed (the identity on the extended reals), the
    accumulator zero. -/
theorem mxu_scaledProd {M K N : ℕ} (x : FVec Ideal ⟨2, ![M, K]⟩ .f32) (n : FVec Ideal ⟨2, ![M, 1]⟩ .f32)
    (w : FVec Ideal ⟨2, ![K, N]⟩ .f32)
    (hc : (⟨2, ![M, 1]⟩ : Shape).ShapeCasts ⟨2, ![M, 1]⟩) (hb : (⟨2, ![M, 1]⟩ : Shape).Broadcasts ⟨2, ![M, K]⟩)
    (hlt : FTy.bf16.bits < FTy.f32.bits) :
    matmul (DotDims.plain M K N) none
        (truncf .bf16 (mulf x (broadcastTo ⟨2, ![M, K]⟩ (shapeCast ⟨2, ![M, 1]⟩ n hc) hb)) hlt) (truncf .bf16 w hlt)
        (constant (F := Ideal) ⟨2, ![M, N]⟩ .f32 0x00000000#32)
      = scaledProd x n w := by
  rw [vec_scale]
  exact Cert.MatProduct.matmul_zero_eq_prod none _ _

/-- The same with the identity cast the lowering leaves on the first operand when it was itself loaded from a result. -/
theorem mxu_scaledProd_cast {M K N : ℕ} (x : FVec Ideal ⟨2, ![M, K]⟩ .f32) (n : FVec Ideal ⟨2, ![M, 1]⟩ .f32)
    (w : FVec Ideal ⟨2, ![K, N]⟩ .f32) (h0 : (⟨2, ![M, K]⟩ : Shape).ShapeCasts ⟨2, ![M, K]⟩)
    (hc : (⟨2, ![M, 1]⟩ : Shape).ShapeCasts ⟨2, ![M, 1]⟩) (hb : (⟨2, ![M, 1]⟩ : Shape).Broadcasts ⟨2, ![M, K]⟩)
    (hlt : FTy.bf16.bits < FTy.f32.bits) :
    matmul (DotDims.plain M K N) none
        (truncf .bf16 (mulf (shapeCast ⟨2, ![M, K]⟩ x h0) (broadcastTo ⟨2, ![M, K]⟩ (shapeCast ⟨2, ![M, 1]⟩ n hc) hb)) hlt)
        (truncf .bf16 w hlt) (constant (F := Ideal) ⟨2, ![M, N]⟩ .f32 0x00000000#32)
      = scaledProd x n w := by
  rw [shapeCast_self x h0]
  exact mxu_scaledProd x n w hc hb hlt

/-- The combination step on the vector unit, the bias given as a one-row array read from the vector `b`. -/
theorem vec_scaledPlus {M N : ℕ} (x : FVec Ideal ⟨2, ![M, N]⟩ .f32) (n : FVec Ideal ⟨2, ![M, 1]⟩ .f32)
    (b1 : FVec Ideal ⟨2, ![1, N]⟩ .f32) (b : (⟨1, ![N]⟩ : Shape).Idx → EReal)
    (hrow : ∀ c : Fin N, b1 (ix2 (0 : Fin 1) c) = b (ix1 c))
    (h0 : (⟨2, ![M, N]⟩ : Shape).ShapeCasts ⟨2, ![M, N]⟩)
    (hc : (⟨2, ![M, 1]⟩ : Shape).ShapeCasts ⟨2, ![M, 1]⟩) (hb : (⟨2, ![M, 1]⟩ : Shape).Broadcasts ⟨2, ![M, N]⟩)
    (h1 : (⟨2, ![1, N]⟩ : Shape).ShapeCasts ⟨2, ![1, N]⟩) (hb1 : (⟨2, ![1, N]⟩ : Shape).Broadcasts ⟨2, ![M, N]⟩) :
    addf (mulf (shapeCast ⟨2, ![M, N]⟩ x h0) (broadcastTo ⟨2, ![M, N]⟩ (shapeCast ⟨2, ![M, 1]⟩ n hc) hb))
        (broadcastTo ⟨2, ![M, N]⟩ (shapeCast ⟨2, ![1, N]⟩ b1 h1) hb1)
      = scaledPlus x n b := by
  rw [shapeCast_self, shapeCast_self, shapeCast_self]
  funext y
  rw [addf_apply, mulf_apply, spreadCol_apply, Cert.RowBias.spreadRow_apply, hrow]
  rfl

/-- The same floored at a splat of `z`. -/
theorem vec_scaledPlusMax {M N : ℕ} (x : FVec Ideal ⟨2, ![M, N]⟩ .f32) (n : FVec Ideal ⟨2, ![M, 1]⟩ .f32)
    (b1 : FVec Ideal ⟨2, ![1, N]⟩ .f32) (b : (⟨1, ![N]⟩ : Shape).Idx → EReal)
    (hrow : ∀ c : Fin N, b1 (ix2 (0 : Fin 1) c) = b (ix1 c))
    (h0 : (⟨2, ![M, N]⟩ : Shape).ShapeCasts ⟨2, ![M, N]⟩)
    (hc : (⟨2, ![M, 1]⟩ : Shape).ShapeCasts ⟨2, ![M, 1]⟩) (hb : (⟨2, ![M, 1]⟩ : Shape).Broadcasts ⟨2, ![M, N]⟩)
    (h1 : (⟨2, ![1, N]⟩ : Shape).ShapeCasts ⟨2, ![1, N]⟩) (hb1 : (⟨2, ![1, N]⟩ : Shape).Broadcasts ⟨2, ![M, N]⟩)
    (z : Ideal .f32) :
    maximumf (addf (mulf (shapeCast ⟨2, ![M, N]⟩ x h0) (broadcastTo ⟨2, ![M, N]⟩ (shapeCast ⟨2, ![M, 1]⟩ n hc) hb))
        (broadcastTo ⟨2, ![M, N]⟩ (shapeCast ⟨2, ![1, N]⟩ b1 h1) hb1)) (broadcast ⟨2, ![M, N]⟩ z)
      = scaledPlusMax x n b z := by
  rw [vec_scaledPlus x n b1 b hrow]
  funext y
  rw [maximumf_apply, broadcast_apply]
  rfl

/-! ## The host's spelling -/

/-- A column spread along the rows by the host reads, at `y`, the column's entry in `y`'s row. -/
theorem hostSpreadCol_apply {R K : ℕ} (n : (⟨2, ![R, 1]⟩ : Shape).Idx → EReal)
    (h : (⟨2, ![R, 1]⟩ : Shape).BroadcastsInDim ⟨2, ![R, K]⟩ (![0, 1] : Fin 2 → Fin 2)) (y : (⟨2, ![R, K]⟩ : Shape).Idx) :
    broadcastInDim ⟨2, ![R, K]⟩ ![0, 1] h n y = n (ix2 (rowOf y) (0 : Fin 1)) := by
  rw [eq_row_col y]
  exact Cert.LibHostColumn.spread_apply n h (rowOf y) (colOf y)

/-- The host's `x * spread n`. -/
theorem host_scale {R K : ℕ} (x : FVec Ideal ⟨2, ![R, K]⟩ .f32) (n : FVec Ideal ⟨2, ![R, 1]⟩ .f32)
    (h : (⟨2, ![R, 1]⟩ : Shape).BroadcastsInDim ⟨2, ![R, K]⟩ (![0, 1] : Fin 2 → Fin 2)) :
    mulf x (broadcastInDim ⟨2, ![R, K]⟩ ![0, 1] h n) = scale x n := by
  funext y
  rw [mulf_apply, hostSpreadCol_apply]
  rfl

/-- The host's projection step. -/
theorem host_scaledProd {R K N : ℕ} (x : FVec Ideal ⟨2, ![R, K]⟩ .f32) (n : FVec Ideal ⟨2, ![R, 1]⟩ .f32)
    (w : FVec Ideal ⟨2, ![K, N]⟩ .f32)
    (h : (⟨2, ![R, 1]⟩ : Shape).BroadcastsInDim ⟨2, ![R, K]⟩ (![0, 1] : Fin 2 → Fin 2)) :
    Host.dotGeneral (DotDims.plain R K N) none (mulf x (broadcastInDim ⟨2, ![R, K]⟩ ![0, 1] h n)) w = scaledProd x n w := by
  rw [host_scale]
  exact Cert.MatProduct.dotGeneral_eq_prod none .single _ _

/-- The host's combination step: the bias vector regarded as one row, the row repeated down the rows. -/
theorem host_scaledPlus {R N : ℕ} (x : FVec Ideal ⟨2, ![R, N]⟩ .f32) (n : FVec Ideal ⟨2, ![R, 1]⟩ .f32)
    (b : FVec Ideal ⟨1, ![N]⟩ .f32)
    (h : (⟨2, ![R, 1]⟩ : Shape).BroadcastsInDim ⟨2, ![R, N]⟩ (![0, 1] : Fin 2 → Fin 2))
    (hr : (⟨1, ![N]⟩ : Shape).BroadcastsInDim ⟨2, ![1, N]⟩ (![1] : Fin 1 → Fin 2))
    (hrs : (⟨2, ![1, N]⟩ : Shape).BroadcastsInDim ⟨2, ![R, N]⟩ (![0, 1] : Fin 2 → Fin 2)) :
    addf (mulf x (broadcastInDim ⟨2, ![R, N]⟩ ![0, 1] h n))
        (broadcastInDim ⟨2, ![R, N]⟩ ![0, 1] hrs (broadcastInDim ⟨2, ![1, N]⟩ ![1] hr b))
      = scaledPlus x n b := by
  funext y
  rw [addf_apply, mulf_apply, hostSpreadCol_apply]
  rw [eq_row_col y, Cert.LibHostRow.rows_apply, Cert.LibHostRow.row_apply]
  rfl

/-- The host's floored combination step: the floor a scalar spread over the array. -/
theorem host_scaledPlusMax {R N : ℕ} (x : FVec Ideal ⟨2, ![R, N]⟩ .f32) (n : FVec Ideal ⟨2, ![R, 1]⟩ .f32)
    (b : FVec Ideal ⟨1, ![N]⟩ .f32)
    (h : (⟨2, ![R, 1]⟩ : Shape).BroadcastsInDim ⟨2, ![R, N]⟩ (![0, 1] : Fin 2 → Fin 2))
    (hr : (⟨1, ![N]⟩ : Shape).BroadcastsInDim ⟨2, ![1, N]⟩ (![1] : Fin 1 → Fin 2))
    (hrs : (⟨2, ![1, N]⟩ : Shape).BroadcastsInDim ⟨2, ![R, N]⟩ (![0, 1] : Fin 2 → Fin 2))
    (hz : (⟨0, ![]⟩ : Shape).BroadcastsInDim ⟨2, ![R, N]⟩ (![] : Fin 0 → Fin 2)) (z : FVec Ideal ⟨0, ![]⟩ .f32) :
    maximumf (addf (mulf x (broadcastInDim ⟨2, ![R, N]⟩ ![0, 1] h n))
        (broadcastInDim ⟨2, ![R, N]⟩ ![0, 1] hrs (broadcastInDim ⟨2, ![1, N]⟩ ![1] hr b)))
        (broadcastInDim ⟨2, ![R, N]⟩ ![] hz z)
      = scaledPlusMax x n b (z ix0) := by
  rw [host_scaledPlus]
  funext y
  rw [maximumf_apply, Cert.LibHostRow.scalar_apply]
  rfl

/-! ## Each step acts on every row by itself -/

variable {M R K N : ℕ} {o : ℕ}

/-- Scaling keeps the relation, when the block's column holds the same rows of the taller column. -/
theorem rowsAt_scale {x : (⟨2, ![M, K]⟩ : Shape).Idx → EReal} {a : (⟨2, ![R, K]⟩ : Shape).Idx → EReal}
    {n : (⟨2, ![M, 1]⟩ : Shape).Idx → EReal} {a1 : (⟨2, ![R, 1]⟩ : Shape).Idx → EReal}
    (hx : RowsAt o x a) (hn : RowsAt o n a1) : RowsAt o (scale x n) (scale a a1) :=
  fun p r j e => by
    show x (ix2 p j) * n (ix2 p (0 : Fin 1)) = a (ix2 r j) * a1 (ix2 r (0 : Fin 1))
    rw [hx p r j e, hn p r 0 e]

/-- The projection step keeps the relation. -/
theorem rowsAt_scaledProd {x : (⟨2, ![M, K]⟩ : Shape).Idx → EReal} {a : (⟨2, ![R, K]⟩ : Shape).Idx → EReal}
    {n : (⟨2, ![M, 1]⟩ : Shape).Idx → EReal} {a1 : (⟨2, ![R, 1]⟩ : Shape).Idx → EReal}
    (hx : RowsAt o x a) (hn : RowsAt o n a1) (w : (⟨2, ![K, N]⟩ : Shape).Idx → EReal) :
    RowsAt o (scaledProd x n w) (scaledProd a a1 w) :=
  (rowsAt_scale hx hn).prod w

/-- The combination step keeps the relation. -/
theorem rowsAt_scaledPlus {x : (⟨2, ![M, N]⟩ : Shape).Idx → EReal} {a : (⟨2, ![R, N]⟩ : Shape).Idx → EReal}
    {n : (⟨2, ![M, 1]⟩ : Shape).Idx → EReal} {a1 : (⟨2, ![R, 1]⟩ : Shape).Idx → EReal}
    (hx : RowsAt o x a) (hn : RowsAt o n a1) (b : (⟨1, ![N]⟩ : Shape).Idx → EReal) :
    RowsAt o (scaledPlus x n b) (scaledPlus a a1 b) :=
  fun p r j e => by
    show x (ix2 p j) * n (ix2 p (0 : Fin 1)) + b (ix1 j) = a (ix2 r j) * a1 (ix2 r (0 : Fin 1)) + b (ix1 j)
    rw [hx p r j e, hn p r 0 e]

/-- The floored combination step keeps the relation. -/
theorem rowsAt_scaledPlusMax {x : (⟨2, ![M, N]⟩ : Shape).Idx → EReal} {a : (⟨2, ![R, N]⟩ : Shape).Idx → EReal}
    {n : (⟨2, ![M, 1]⟩ : Shape).Idx → EReal} {a1 : (⟨2, ![R, 1]⟩ : Shape).Idx → EReal}
    (hx : RowsAt o x a) (hn : RowsAt o n a1) (b : (⟨1, ![N]⟩ : Shape).Idx → EReal) (z : EReal) :
    RowsAt o (scaledPlusMax x n b z) (scaledPlusMax a a1 b z) :=
  fun p r j e => congrArg (fun v => max v z) (rowsAt_scaledPlus hx hn b p r j e)

/-- Related arrays read at any two indices with related rows and one column: the block at `y`, the taller array at
    an index `i` whose row is `o` plus `y`'s row and whose column is `y`'s. -/
theorem rowsAt_read {α : Type} {hk : (⟨2, ![M, N]⟩ : Shape).Idx → α} {hr : (⟨2, ![R, N]⟩ : Shape).Idx → α}
    (h : RowsAt o hk hr) (y : (⟨2, ![M, N]⟩ : Shape).Idx) (i : (⟨2, ![R, N]⟩ : Shape).Idx)
    (h0 : (i 0).val = o + (y 0).val) (h1 : (i 1).val = (y 1).val) : hk y = hr i := by
  have hc : colOf i = colOf y := Fin.ext h1
  calc hk y = hk (ix2 (rowOf y) (colOf y)) := congrArg hk (eq_row_col y)
    _ = hr (ix2 (rowOf i) (colOf y)) := h (rowOf y) (rowOf i) (colOf y) h0
    _ = hr (ix2 (rowOf i) (colOf i)) := by rw [hc]
    _ = hr i := (congrArg hr (eq_row_col i)).symm

end Cert.ScaledRows

end
-- ==== Proof.Layer.lean ====
/-
  One layer's update of a destination row, as whole-array functions on the extended reals, for any extents.

  A destination node's new row is: for each incoming relation, the sum of its neighbours' rows scaled by the
  reciprocal of its clipped neighbour count and multiplied by that relation's weight matrix; plus the node's own
  row multiplied by the root weight matrix; plus a bias row. `comb2` is that with one incoming relation, `comb3` with
  two. `floor0` floors every entry at zero. Every step acts on each row by itself, so a block holding rows
  o, o + 1, … of taller operands holds the same rows of the taller result.
-/
import proofs.«150412_j11682311045362_2_alg».proof.Proof.LibScaledRows

noncomputable section

namespace Cert.Hetero

open Idealize.ShloMosaic Idealize.ShloMosaic.ValueIdx
open Cert.MatProduct (rowOf colOf prod eq_row_col)
open Cert.ScaledRows (scale scaledProd)
open Cert.Bridge (RowsAt)

/-- The extended real the zero word of a 32-bit float denotes. -/
def z0 : EReal := Ideal.ofBits .f32 0x00000000#32

/-- One incoming relation: neighbour sums `s` scaled by the column `n` times `wl`, plus own rows `x` times `wr`, plus
    the one-row bias `b`. -/
def comb2 {R K N : ℕ} (s : (⟨2, ![R, K]⟩ : Shape).Idx → EReal) (n : (⟨2, ![R, 1]⟩ : Shape).Idx → EReal)
    (wl : (⟨2, ![K, N]⟩ : Shape).Idx → EReal) (x : (⟨2, ![R, K]⟩ : Shape).Idx → EReal)
    (wr : (⟨2, ![K, N]⟩ : Shape).Idx → EReal) (b : (⟨2, ![1, N]⟩ : Shape).Idx → EReal) :
    (⟨2, ![R, N]⟩ : Shape).Idx → EReal :=
  fun y => (scaledProd s n wl y + prod x wr y) + b (ix2 (0 : Fin 1) (colOf y))

/-- Two incoming relations sharing the root term and the bias. -/
def comb3 {R K N : ℕ} (s0 : (⟨2, ![R, K]⟩ : Shape).Idx → EReal) (n0 : (⟨2, ![R, 1]⟩ : Shape).Idx → EReal)
    (wl0 : (⟨2, ![K, N]⟩ : Shape).Idx → EReal) (s1 : (⟨2, ![R, K]⟩ : Shape).Idx → EReal)
    (n1 : (⟨2, ![R, 1]⟩ : Shape).Idx → EReal) (wl1 : (⟨2, ![K, N]⟩ : Shape).Idx → EReal)
    (x : (⟨2, ![R, K]⟩ : Shape).Idx → EReal) (wr : (⟨2, ![K, N]⟩ : Shape).Idx → EReal)
    (b : (⟨2, ![1, N]⟩ : Shape).Idx → EReal) : (⟨2, ![R, N]⟩ : Shape).Idx → EReal :=
  fun y => ((scaledProd s0 n0 wl0 y + scaledProd s1 n1 wl1 y) + prod x wr y) + b (ix2 (0 : Fin 1) (colOf y))

/-- Every entry floored at zero. -/
def floor0 {S : Shape} (a : S.Idx → EReal) : S.Idx → EReal := fun y => max (a y) z0

variable {M R K N : ℕ} {o : ℕ}

/-- A one-row array spread down the rows is the same in a block and in the taller array. -/
theorem rowsAt_bias (b : (⟨2, ![1, N]⟩ : Shape).Idx → EReal) :
    RowsAt (M := M) (R := R) o (fun y : (⟨2, ![M, N]⟩ : Shape).Idx => b (ix2 (0 : Fin 1) (colOf y)))
      (fun y : (⟨2, ![R, N]⟩ : Shape).Idx => b (ix2 (0 : Fin 1) (colOf y))) :=
  fun _ _ _ _ => rfl

theorem rowsAt_comb2 {s : (⟨2, ![M, K]⟩ : Shape).Idx → EReal} {s' : (⟨2, ![R, K]⟩ : Shape).Idx → EReal}
    {n : (⟨2, ![M, 1]⟩ : Shape).Idx → EReal} {n' : (⟨2, ![R, 1]⟩ : Shape).Idx → EReal}
    {x : (⟨2, ![M, K]⟩ : Shape).Idx → EReal} {x' : (⟨2, ![R, K]⟩ : Shape).Idx → EReal}
    (hs : RowsAt o s s') (hn : RowsAt o n n') (hx : RowsAt o x x')
    (wl wr : (⟨2, ![K, N]⟩ : Shape).Idx → EReal) (b : (⟨2, ![1, N]⟩ : Shape).Idx → EReal) :
    RowsAt o (comb2 s n wl x wr b) (comb2 s' n' wl x' wr b) :=
  RowsAt.map₃ (fun u v t : EReal => (u + v) + t) (Cert.ScaledRows.rowsAt_scaledProd hs hn wl) (hx.prod wr) (rowsAt_bias b)

theorem rowsAt_comb3 {s0 : (⟨2, ![M, K]⟩ : Shape).Idx → EReal} {s0' : (⟨2, ![R, K]⟩ : Shape).Idx → EReal}
    {n0 : (⟨2, ![M, 1]⟩ : Shape).Idx → EReal} {n0' : (⟨2, ![R, 1]⟩ : Shape).Idx → EReal}
    {s1 : (⟨2, ![M, K]⟩ : Shape).Idx → EReal} {s1' : (⟨2, ![R, K]⟩ : Shape).Idx → EReal}
    {n1 : (⟨2, ![M, 1]⟩ : Shape).Idx → EReal} {n1' : (⟨2, ![R, 1]⟩ : Shape).Idx → EReal}
    {x : (⟨2, ![M, K]⟩ : Shape).Idx → EReal} {x' : (⟨2, ![R, K]⟩ : Shape).Idx → EReal}
    (hs0 : RowsAt o s0 s0') (hn0 : RowsAt o n0 n0') (hs1 : RowsAt o s1 s1') (hn1 : RowsAt o n1 n1')
    (hx : RowsAt o x x') (wl0 wl1 wr : (⟨2, ![K, N]⟩ : Shape).Idx → EReal) (b : (⟨2, ![1, N]⟩ : Shape).Idx → EReal) :
    RowsAt o (comb3 s0 n0 wl0 s1 n1 wl1 x wr b) (comb3 s0' n0' wl0 s1' n1' wl1 x' wr b) :=
  RowsAt.map₂ (fun u t : EReal => u + t)
    (RowsAt.map₃ (fun u v t : EReal => (u + v) + t) (Cert.ScaledRows.rowsAt_scaledProd hs0 hn0 wl0)
      (Cert.ScaledRows.rowsAt_scaledProd hs1 hn1 wl1) (hx.prod wr))
    (rowsAt_bias b)

theorem rowsAt_floor0 {a : (⟨2, ![M, N]⟩ : Shape).Idx → EReal} {a' : (⟨2, ![R, N]⟩ : Shape).Idx → EReal}
    (h : RowsAt o a a') : RowsAt o (floor0 a) (floor0 a') :=
  RowsAt.map (fun u : EReal => max u z0) h

end Cert.Hetero

end
-- ==== Proof.LibRecipClip.lean ====
/-
  A mean taken by a reciprocal of a clipped count, on the extended reals.

  For a count d clipped below at one, c = max(1, d), the product a * (1 / c) and the quotient a / c agree for EVERY
  extended real a (the infinities included) and every extended real d: c >= 1 is not zero, and off zero the quotient
  is by definition the product with the inverse. The one is the f32 word 0x3F800000 read as an extended real. No
  finiteness of a or of d is needed.
-/
import Idealize.ShloMosaic.PureOps.Ideal
import Idealize.ShloMosaic.PureOps.Ideal.Laws
import Idealize.ShloMosaic.Lib.IdealHost

noncomputable section

namespace Cert.LibRecipClip

open Idealize.ShloMosaic

/-- A value clipped below at one is not zero. -/
theorem clip_ne_zero (d : EReal) : max (Ideal.ofBits .f32 0x3F800000#32) d ≠ 0 := by
  rw [Ideal.ofBits_one_f32]
  exact ne_of_gt (lt_of_lt_of_le zero_lt_one (le_max_left _ _))

/-- The reciprocal of a value clipped below at one is its inverse. -/
theorem recip_clip (d : EReal) :
    Ideal.div (Ideal.ofBits .f32 0x3F800000#32) (max (Ideal.ofBits .f32 0x3F800000#32) d)
      = (max (Ideal.ofBits .f32 0x3F800000#32) d)⁻¹ := by
  unfold Ideal.div
  rw [if_neg (clip_ne_zero d), Ideal.ofBits_one_f32, one_mul]

/-- Multiplying by the reciprocal of a clipped value is dividing by it, for every extended real numerator. -/
theorem mul_recip_clip (a d : EReal) :
    a * Ideal.div (Ideal.ofBits .f32 0x3F800000#32) (max (Ideal.ofBits .f32 0x3F800000#32) d)
      = Ideal.div a (max (Ideal.ofBits .f32 0x3F800000#32) d) := by
  rw [recip_clip]
  unfold Ideal.div
  rw [if_neg (clip_ne_zero d)]

end Cert.LibRecipClip

end
-- ==== Proof.LibIndicator.lean ====
/-
  The positivity mask of a real sum: general lemmas at the ideal values.

  A finite sum of real numbers is a real number. For a real s and a real k > 0, the quotient (0 + s) / k is positive
  exactly when s is, so the comparison "(0 + s) / k > 0", converted from one bit to a float, is the 0/1 indicator of
  s > 0. The f32 patterns 0x3F800000, 0x40800000, 0x41800000 and 0x42800000 are the reals 1, 4,
  16 and 64.
-/
import Idealize.ShloMosaic.PureOps.Ideal.Laws
import Idealize.ShloMosaic.Lib.IdealHost

noncomputable section

namespace Cert.LibBlocks

open Idealize.ShloMosaic
open scoped BigOperators

/-- A finite sum of reals, taken in the extended reals, is a real. -/
theorem exists_real_sum {ι : Type} (f : ι → EReal) :
    ∀ s : Finset ι, (∀ i ∈ s, ∃ r : ℝ, f i = (r : EReal)) → ∃ r : ℝ, ∑ i ∈ s, f i = (r : EReal) := by
  classical
  intro s
  refine Finset.induction_on s (fun _ => ⟨0, by simp⟩) ?_
  intro a s ha ih hf
  obtain ⟨r1, h1⟩ := hf a (Finset.mem_insert_self a s)
  obtain ⟨r2, h2⟩ := ih (fun i hi => hf i (Finset.mem_insert_of_mem hi))
  exact ⟨r1 + r2, by rw [Finset.sum_insert ha, h1, h2, EReal.coe_add]⟩

/-- A double sum of reals over two finite ranges is a real. -/
theorem exists_real_sum2 {m n : ℕ} (f : Fin m → Fin n → EReal) (hf : ∀ a b, ∃ r : ℝ, f a b = (r : EReal)) :
    ∃ r : ℝ, ∑ a : Fin m, ∑ b : Fin n, f a b = (r : EReal) :=
  exists_real_sum _ _ fun a _ => exists_real_sum _ _ fun b _ => hf a b

/-- The f32 pattern 0x3F800000 is the real one. -/
theorem ofBits_one_f32_real : Ideal.ofBits .f32 0x3F800000#32 = ((1 : ℝ) : EReal) := by
  rw [Ideal.ofBits_one_f32, EReal.coe_one]

/-- The f32 pattern 0x40800000 is the real four. -/
theorem ofBits_four_f32 : Ideal.ofBits .f32 0x40800000#32 = ((4 : ℝ) : EReal) := by
  simp [Ideal.ofBits, Ideal.ieee, -EReal.coe_mul]; norm_num

/-- The f32 pattern 0x41800000 is the real sixteen. -/
theorem ofBits_sixteen_f32 : Ideal.ofBits .f32 0x41800000#32 = ((16 : ℝ) : EReal) := by
  simp [Ideal.ofBits, Ideal.ieee, -EReal.coe_mul]; norm_num

/-- The f32 pattern 0x42800000 is the real sixty-four. -/
theorem ofBits_sixtyfour_f32 : Ideal.ofBits .f32 0x42800000#32 = ((64 : ℝ) : EReal) := by
  simp [Ideal.ofBits, Ideal.ieee, -EReal.coe_mul]; norm_num

/-- For a real s and a real k > 0: "(0 + s) / k > 0" as a float is the indicator of s > 0. -/
theorem mask_real (s k : ℝ) (hk : 0 < k) :
    (FloatOps.uitofp (F := Ideal) .f32
        (FloatOps.cmpf (F := Ideal) (φ := .f32) .ogt
          (FloatOps.hostDivf (F := Ideal) (φ := .f32) ((0 : EReal) + (s : EReal)) ((k : ℝ) : EReal)) (0 : EReal)) : EReal)
      = if (0 : EReal) < (s : EReal) then 1 else 0 := by
  show (((Ideal.cmp .ogt (Ideal.div ((0 : EReal) + (s : EReal)) ((k : ℝ) : EReal)) (0 : EReal)).toNat : ℝ) : EReal) = _
  rw [zero_add, Ideal.div_coe hk.ne', ← EReal.coe_mul]
  have hiff : (0 : EReal) < ((s * (1 / k) : ℝ) : EReal) ↔ (0 : EReal) < (s : EReal) := by
    rw [EReal.coe_pos, EReal.coe_pos]
    exact mul_pos_iff_of_pos_right (one_div_pos.2 hk)
  unfold Ideal.cmp
  by_cases hs : (0 : EReal) < (s : EReal)
  · rw [if_pos hs]
    have h1 : decide ((0 : EReal) < ((s * (1 / k) : ℝ) : EReal)) = true := decide_eq_true (hiff.2 hs)
    have h2 : (BitVec.ofBool true).toNat = 1 := rfl
    simp only [h1, h2]
    norm_num
  · rw [if_neg hs]
    have h1 : decide ((0 : EReal) < ((s * (1 / k) : ℝ) : EReal)) = false := decide_eq_false (fun h => hs (hiff.1 h))
    simp only [h1]
    norm_num

end Cert.LibBlocks

end
-- ==== Proof.Algebra.lean ====
/-
  The algebra joining the two spellings of one layer, on the extended reals.

  The kernel scales a row of neighbour sums by the reciprocal of the clipped neighbour count, 1 / max(cnt, 1), and
  multiplies by the weight matrix; the reference divides the row by max(cnt, 1) and multiplies by the same matrix. For
  every extended real numerator these agree: the clipped count is at least one, so not zero, and off zero the
  quotient is the product with the inverse.

  For a destination type with two incoming relations the kernel adds the two root weight matrices first and
  multiplies the node's own row once, x · (A + B), and adds the two biases first; the reference multiplies twice and
  adds, x · A + x · B. Regrouping a sum is free in a commutative monoid; x (a + b) = x a + x b is NOT free on the extended
  reals (at x = +inf, a = 1, b = -1 the left side is 0 and the right side is -inf): it holds when x, a, b are real
  numbers, which is where finiteness of the inputs, and of the first layer's output, is used.
-/
import proofs.«150412_j11682311045362_2_alg».proof.Proof.Layer
import proofs.«150412_j11682311045362_2_alg».proof.Proof.LibRecipClip
import proofs.«150412_j11682311045362_2_alg».proof.Proof.LibIndicator

noncomputable section

namespace Cert.Hetero

open Idealize.ShloMosaic Idealize.ShloMosaic.ValueIdx
open Cert.MatProduct (rowOf colOf prod eq_row_col)
open Cert.ScaledRows (scale scaledProd)

/-! ## Real entries -/

/-- An extended real that is a real number. -/
def IsReal (a : EReal) : Prop := ∃ v : ℝ, a = (v : EReal)

theorem IsReal.add {a b : EReal} (ha : IsReal a) (hb : IsReal b) : IsReal (a + b) := by
  obtain ⟨u, rfl⟩ := ha; obtain ⟨v, rfl⟩ := hb; exact ⟨u + v, (EReal.coe_add u v).symm⟩

theorem IsReal.mul {a b : EReal} (ha : IsReal a) (hb : IsReal b) : IsReal (a * b) := by
  obtain ⟨u, rfl⟩ := ha; obtain ⟨v, rfl⟩ := hb; exact ⟨u * v, (EReal.coe_mul u v).symm⟩

theorem IsReal.max {a b : EReal} (ha : IsReal a) (hb : IsReal b) : IsReal (max a b) := by
  rcases max_choice a b with h | h <;> rw [h] <;> assumption

theorem IsReal.sum {ι : Type} (s : Finset ι) (f : ι → EReal) (h : ∀ i ∈ s, IsReal (f i)) : IsReal (∑ i ∈ s, f i) :=
  Cert.LibBlocks.exists_real_sum f s h

theorem isReal_zero : IsReal (0 : EReal) := ⟨0, rfl⟩

theorem isReal_z0 : IsReal z0 := ⟨0, by unfold z0; rw [Ideal.ofBits_zero_f32]; rfl⟩

/-- The word of one. -/
def one32 : EReal := Ideal.ofBits .f32 0x3F800000#32

theorem one32_eq : one32 = ((1 : ℝ) : EReal) := Cert.LibBlocks.ofBits_one_f32_real

/-- The reciprocal of a count clipped below at one is a real number, whatever the count. -/
theorem isReal_recip_clip (d : EReal) : IsReal (Ideal.div one32 (max d one32)) := by
  unfold one32
  rw [max_comm, Cert.LibRecipClip.recip_clip, Cert.LibBlocks.ofBits_one_f32_real]
  have h1 : ((1 : ℝ) : EReal) ≤ max ((1 : ℝ) : EReal) d := le_max_left _ _
  induction hm : max ((1 : ℝ) : EReal) d using EReal.rec with
  | bot => rw [hm] at h1; exact absurd (le_bot_iff.mp h1) (EReal.coe_ne_bot 1)
  | coe r => exact ⟨r⁻¹, (EReal.coe_inv r).symm⟩
  | top => exact ⟨0, by simp⟩

/-! ## Distributivity where everything is real -/

theorem mul_add_real {x a b : EReal} (hx : IsReal x) (ha : IsReal a) (hb : IsReal b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A product with a sum of two real matrices, the left factor real, is the sum of the two products. -/
theorem prod_add_right {R K N : ℕ} (x : (⟨2, ![R, K]⟩ : Shape).Idx → EReal)
    (wa wb : (⟨2, ![K, N]⟩ : Shape).Idx → EReal)
    (hx : ∀ i, IsReal (x i)) (ha : ∀ i, IsReal (wa i)) (hb : ∀ i, IsReal (wb i)) (y : (⟨2, ![R, N]⟩ : Shape).Idx) :
    prod x (fun i => wa i + wb i) y = prod x wa y + prod x wb y := by
  show (∑ k : Fin K, x (ix2 (rowOf y) k) * (wa (ix2 k (colOf y)) + wb (ix2 k (colOf y))))
      = (∑ k : Fin K, x (ix2 (rowOf y) k) * wa (ix2 k (colOf y))) + ∑ k : Fin K, x (ix2 (rowOf y) k) * wb (ix2 k (colOf y))
  rw [← Finset.sum_add_distrib]
  exact Finset.sum_congr rfl fun k _ => mul_add_real (hx _) (ha _) (hb _)

/-- A product of real matrices has real entries. -/
theorem isReal_prod {R K N : ℕ} (x : (⟨2, ![R, K]⟩ : Shape).Idx → EReal) (w : (⟨2, ![K, N]⟩ : Shape).Idx → EReal)
    (hx : ∀ i, IsReal (x i)) (hw : ∀ i, IsReal (w i)) (y : (⟨2, ![R, N]⟩ : Shape).Idx) : IsReal (prod x w y) :=
  IsReal.sum _ _ fun k _ => (hx _).mul (hw _)

/-! ## One relation's row, as the reference spells it -/

/-- Row by row: the neighbour sums divided by the clipped count, times the transposed weight matrix, plus the bias,
    plus the node's own row times the transposed root matrix. -/
def sageRow {R K N : ℕ} (S : (⟨2, ![R, K]⟩ : Shape).Idx → EReal) (mx : (⟨1, ![R]⟩ : Shape).Idx → EReal)
    (Wl : (⟨2, ![N, K]⟩ : Shape).Idx → EReal) (bl : (⟨1, ![N]⟩ : Shape).Idx → EReal)
    (xd : (⟨2, ![R, K]⟩ : Shape).Idx → EReal) (Wr : (⟨2, ![N, K]⟩ : Shape).Idx → EReal) :
    (⟨2, ![R, N]⟩ : Shape).Idx → EReal :=
  fun y => ((∑ k : Fin K, Ideal.div (S (ix2 (rowOf y) k)) (mx (ix1 (rowOf y))) * Wl (ix2 (colOf y) k)) + bl (ix1 (colOf y)))
    + ∑ k : Fin K, xd (ix2 (rowOf y) k) * Wr (ix2 (colOf y) k)

variable {R K N : ℕ}

/-- The scaled product is the divided product: the column holds the reciprocal of the clipped count, the matrix is
    the transposed weight. -/
theorem scaledProd_eq_div (s : (⟨2, ![R, K]⟩ : Shape).Idx → EReal) (n : (⟨2, ![R, 1]⟩ : Shape).Idx → EReal)
    (wl : (⟨2, ![K, N]⟩ : Shape).Idx → EReal) (cnt : (⟨1, ![R]⟩ : Shape).Idx → EReal)
    (Wl : (⟨2, ![N, K]⟩ : Shape).Idx → EReal)
    (hn : ∀ r : Fin R, n (ix2 r (0 : Fin 1)) = Ideal.div one32 (max (cnt (ix1 r)) one32))
    (hwl : ∀ (k : Fin K) (c : Fin N), wl (ix2 k c) = Wl (ix2 c k)) (y : (⟨2, ![R, N]⟩ : Shape).Idx) :
    scaledProd s n wl y
      = ∑ k : Fin K, Ideal.div (s (ix2 (rowOf y) k)) (max (cnt (ix1 (rowOf y))) one32) * Wl (ix2 (colOf y) k) := by
  show (∑ k : Fin K, (s (ix2 (rowOf y) k) * n (ix2 (rowOf (ix2 (rowOf y) k)) (0 : Fin 1))) * wl (ix2 k (colOf y))) = _
  refine Finset.sum_congr rfl fun k _ => ?_
  rw [Cert.ScaledRows.rowOf_ix2, hn, hwl]
  unfold one32
  rw [max_comm, Cert.LibRecipClip.mul_recip_clip]

/-- One incoming relation: the kernel's row is the reference's. No finiteness. -/
theorem comb2_eq_sageRow (s : (⟨2, ![R, K]⟩ : Shape).Idx → EReal) (n : (⟨2, ![R, 1]⟩ : Shape).Idx → EReal)
    (wl : (⟨2, ![K, N]⟩ : Shape).Idx → EReal) (x : (⟨2, ![R, K]⟩ : Shape).Idx → EReal)
    (wr : (⟨2, ![K, N]⟩ : Shape).Idx → EReal) (b : (⟨2, ![1, N]⟩ : Shape).Idx → EReal)
    (cnt : (⟨1, ![R]⟩ : Shape).Idx → EReal) (Wl Wr : (⟨2, ![N, K]⟩ : Shape).Idx → EReal)
    (bl : (⟨1, ![N]⟩ : Shape).Idx → EReal)
    (hn : ∀ r : Fin R, n (ix2 r (0 : Fin 1)) = Ideal.div one32 (max (cnt (ix1 r)) one32))
    (hwl : ∀ (k : Fin K) (c : Fin N), wl (ix2 k c) = Wl (ix2 c k))
    (hwr : ∀ (k : Fin K) (c : Fin N), wr (ix2 k c) = Wr (ix2 c k))
    (hb : ∀ c : Fin N, b (ix2 (0 : Fin 1) c) = bl (ix1 c)) :
    comb2 s n wl x wr b = sageRow s (fun i => max (cnt i) one32) Wl bl x Wr := by
  funext y
  show (scaledProd s n wl y + prod x wr y) + b (ix2 (0 : Fin 1) (colOf y)) = _
  rw [scaledProd_eq_div s n wl cnt Wl hn hwl y, hb]
  have hp : prod x wr y = ∑ k : Fin K, x (ix2 (rowOf y) k) * Wr (ix2 (colOf y) k) := by
    show (∑ k : Fin K, x (ix2 (rowOf y) k) * wr (ix2 k (colOf y))) = _
    exact Finset.sum_congr rfl fun k _ => by rw [hwr k (colOf y)]
  rw [hp]
  exact add_right_comm _ _ _

/-- Two incoming relations sharing the root term: the kernel's row is the sum of the reference's two rows, when the
    node's own rows and the two root matrices are real. -/
theorem comb3_eq_sageRow_add (s0 : (⟨2, ![R, K]⟩ : Shape).Idx → EReal) (n0 : (⟨2, ![R, 1]⟩ : Shape).Idx → EReal)
    (wl0 : (⟨2, ![K, N]⟩ : Shape).Idx → EReal) (s1 : (⟨2, ![R, K]⟩ : Shape).Idx → EReal)
    (n1 : (⟨2, ![R, 1]⟩ : Shape).Idx → EReal) (wl1 : (⟨2, ![K, N]⟩ : Shape).Idx → EReal)
    (x : (⟨2, ![R, K]⟩ : Shape).Idx → EReal) (wr : (⟨2, ![K, N]⟩ : Shape).Idx → EReal)
    (b : (⟨2, ![1, N]⟩ : Shape).Idx → EReal)
    (cnt0 cnt1 : (⟨1, ![R]⟩ : Shape).Idx → EReal) (Wl0 Wr0 Wl1 Wr1 : (⟨2, ![N, K]⟩ : Shape).Idx → EReal)
    (bl0 bl1 : (⟨1, ![N]⟩ : Shape).Idx → EReal)
    (hn0 : ∀ r : Fin R, n0 (ix2 r (0 : Fin 1)) = Ideal.div one32 (max (cnt0 (ix1 r)) one32))
    (hn1 : ∀ r : Fin R, n1 (ix2 r (0 : Fin 1)) = Ideal.div one32 (max (cnt1 (ix1 r)) one32))
    (hwl0 : ∀ (k : Fin K) (c : Fin N), wl0 (ix2 k c) = Wl0 (ix2 c k))
    (hwl1 : ∀ (k : Fin K) (c : Fin N), wl1 (ix2 k c) = Wl1 (ix2 c k))
    (hwr : ∀ (k : Fin K) (c : Fin N), wr (ix2 k c) = Wr0 (ix2 c k) + Wr1 (ix2 c k))
    (hb : ∀ c : Fin N, b (ix2 (0 : Fin 1) c) = bl0 (ix1 c) + bl1 (ix1 c))
    (hx : ∀ i, IsReal (x i)) (hr0 : ∀ i, IsReal (Wr0 i)) (hr1 : ∀ i, IsReal (Wr1 i)) :
    comb3 s0 n0 wl0 s1 n1 wl1 x wr b
      = fun y => sageRow s0 (fun i => max (cnt0 i) one32) Wl0 bl0 x Wr0 y + sageRow s1 (fun i => max (cnt1 i) one32) Wl1 bl1 x Wr1 y := by
  funext y
  show ((scaledProd s0 n0 wl0 y + scaledProd s1 n1 wl1 y) + prod x wr y) + b (ix2 (0 : Fin 1) (colOf y)) = _
  rw [scaledProd_eq_div s0 n0 wl0 cnt0 Wl0 hn0 hwl0 y, scaledProd_eq_div s1 n1 wl1 cnt1 Wl1 hn1 hwl1 y, hb]
  have hp : prod x wr y = (∑ k : Fin K, x (ix2 (rowOf y) k) * Wr0 (ix2 (colOf y) k)) + ∑ k : Fin K, x (ix2 (rowOf y) k) * Wr1 (ix2 (colOf y) k) := by
    show (∑ k : Fin K, x (ix2 (rowOf y) k) * wr (ix2 k (colOf y))) = _
    rw [← Finset.sum_add_distrib]
    exact Finset.sum_congr rfl fun k _ => by rw [hwr k (colOf y)]; exact mul_add_real (hx _) (hr0 _) (hr1 _)
  rw [hp]
  show _ = ((_ + _) + _) + ((_ + _) + _)
  abel

end Cert.Hetero

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.KerPieces.lean ====
/-
  The host-side pieces of the kernel program, named.

  Per relation: the neighbour sums (rows of a table gathered at the source row numbers, negative numbers wrapped,
  added into the destination rows) and the neighbour counts (ones added into the destination entries). Per
  destination type: the reciprocal of the count clipped below at one, as a column. A weight matrix transposed, a bias
  vector regarded as one row. Each is read at an index where the layer algebra needs it.
-/
import proofs.«150412_j11682311045362_2_alg».proof.KernelIdeal
import proofs.«150412_j11682311045362_2_alg».proof.Proof.Gen.KernelIdeal
import proofs.«150412_j11682311045362_2_alg».proof.Proof.Algebra
import Idealize.ShloMosaic.Lib.ValueLayout
import Idealize.ShloMosaic.Lib.Pipeline.Value
import proofs.«150412_j11682311045362_2_alg».proof.Proof.LibLayout

noncomputable section

namespace Cert.Hetero.Ker

open Cert.KernelIdeal Cert.KernelIdeal.Facts₀ Idealize.ShloMosaic Idealize.ShloMosaic.ValueIdx

abbrev F32 (S : Shape) := (⟨S, .f32⟩ : BufTy).Contents (Elt Ideal)
abbrev I32 (S : Shape) := (⟨S, .i32⟩ : BufTy).Contents (Elt Ideal)

/-- Neighbour sums, gene table into trait rows. -/
def aggGT (x : F32 S50000x128) (s d : I32 S1000000) : F32 S20000x128 :=
  Host.scatterAdd scatter_S20000x128_S1000000x1_S1000000x128_1_0_0_1 (broadcastInDim S20000x128 ![] bcast_S_S20000x128 (constant (F := Ideal) S_ .f32 0x00000000#32)) (broadcastInDim S1000000x1 ![0] bcast_S1000000_S1000000x1_0 d) (Host.gather gather_S50000x128_S1000000x1_S1000000x128_1_0_n_n_0_1_1128 x (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 50000#32))) s)))
/-- Neighbour sums, trait table into gene rows. -/
def aggTG (x : F32 S20000x128) (s d : I32 S1000000) : F32 S50000x128 :=
  Host.scatterAdd scatter_S50000x128_S1000000x1_S1000000x128_1_0_0_1 (broadcastInDim S50000x128 ![] bcast_S_S50000x128 (constant (F := Ideal) S_ .f32 0x00000000#32)) (broadcastInDim S1000000x1 ![0] bcast_S1000000_S1000000x1_0 d) (Host.gather gather_S20000x128_S1000000x1_S1000000x128_1_0_n_n_0_1_1128 x (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 20000#32))) s)))
/-- Neighbour sums, gene table into gene rows. -/
def aggGG (x : F32 S50000x128) (s d : I32 S600000) : F32 S50000x128 :=
  Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 d) (Host.gather gather_S50000x128_S600000x1_S600000x128_1_0_n_n_0_1_1128 x (broadcastInDim S600000x1 ![0] bcast_S600000_S600000x1_0 (select (cmpi .slt s (broadcastInDim S600000 ![] bcast_S_S600000 (constantI S_ 32 0#32))) (addi s (broadcastInDim S600000 ![] bcast_S_S600000 (constantI S_ 32 50000#32))) s)))
/-- Neighbour counts of the trait rows. -/
def cntT (d : I32 S1000000) : F32 S20000 :=
  Host.scatterAdd scatter_S20000_S1000000x1_S1000000_n_0_0_1 (broadcastInDim S20000 ![] bcast_S_S20000 (constant (F := Ideal) S_ .f32 0x00000000#32)) (broadcastInDim S1000000x1 ![0] bcast_S1000000_S1000000x1_0 d) (broadcastInDim S1000000 ![] bcast_S_S1000000 (constant (F := Ideal) S_ .f32 0x3F800000#32))
/-- Neighbour counts of the gene rows, trait neighbours. -/
def cntG1 (d : I32 S1000000) : F32 S50000 :=
  Host.scatterAdd scatter_S50000_S1000000x1_S1000000_n_0_0_1 (broadcastInDim S50000 ![] bcast_S_S50000 (constant (F := Ideal) S_ .f32 0x00000000#32)) (broadcastInDim S1000000x1 ![0] bcast_S1000000_S1000000x1_0 d) (broadcastInDim S1000000 ![] bcast_S_S1000000 (constant (F := Ideal) S_ .f32 0x3F800000#32))
/-- Neighbour counts of the gene rows, gene neighbours. -/
def cntG2 (d : I32 S600000) : F32 S50000 :=
  Host.scatterAdd scatter_S50000_S600000x1_S600000_n_0_0_1 (broadcastInDim S50000 ![] bcast_S_S50000 (constant (F := Ideal) S_ .f32 0x00000000#32)) (broadcastInDim S600000x1 ![0] bcast_S600000_S600000x1_0 d) (broadcastInDim S600000 ![] bcast_S_S600000 (constant (F := Ideal) S_ .f32 0x3F800000#32))
/-- The reciprocal of the clipped count as a column, trait rows. -/
def invT (k : F32 S20000) : F32 S20000x1 :=
  fun i => shapeCast S20000x1 (Host.divf (broadcastInDim S20000 ![] bcast_S_S20000 (constant (F := Ideal) S_ .f32 0x3F800000#32)) (maximumf k (broadcastInDim S20000 ![] bcast_S_S20000 (constant (F := Ideal) S_ .f32 0x3F800000#32)))) shapeCasts_S20000_S20000x1 i
/-- The reciprocal of the clipped count as a column, gene rows. -/
def invG (k : F32 S50000) : F32 S50000x1 :=
  fun i => shapeCast S50000x1 (Host.divf (broadcastInDim S50000 ![] bcast_S_S50000 (constant (F := Ideal) S_ .f32 0x3F800000#32)) (maximumf k (broadcastInDim S50000 ![] bcast_S_S50000 (constant (F := Ideal) S_ .f32 0x3F800000#32)))) shapeCasts_S50000_S50000x1 i
/-- A weight matrix transposed. -/
def tr (W : F32 S128x128) : F32 S128x128 := transpose S128x128 [1, 0] W transposes_S128x128_S128x128_1_0
/-- A bias vector regarded as one row. -/
def row (b : F32 S128) : F32 S1x128 := fun i => shapeCast S1x128 b shapeCasts_S128_S1x128 i

/-! ## The pieces read at an index -/

open Cert.Hetero (one32 IsReal z0)

/-- The vector of ones reads one everywhere. -/
theorem ones_apply {t : Shape} (h : (⟨0, ![]⟩ : Shape).BroadcastsInDim t (![] : Fin 0 → Fin t.rank)) (j : t.Idx) :
    broadcastInDim t ![] h (constant (F := Ideal) S_ .f32 0x3F800000#32) j = one32 :=
  Cert.LibHostRow.scalar_apply _ h j

/-- The vector of zeros reads the zero word everywhere. -/
theorem zeros_apply {t : Shape} (h : (⟨0, ![]⟩ : Shape).BroadcastsInDim t (![] : Fin 0 → Fin t.rank)) (j : t.Idx) :
    broadcastInDim t ![] h (constant (F := Ideal) S_ .f32 0x00000000#32) j = z0 :=
  Cert.LibHostRow.scalar_apply _ h j

theorem invT_apply (k : F32 S20000) (r : Fin 20000) :
    invT k (ix2 r (0 : Fin 1)) = Ideal.div one32 (max (k (ix1 r)) one32) := by
  unfold invT
  rw [Cert.LibLayout.shapeCast_a_a1_apply]
  show Ideal.div (broadcastInDim S20000 ![] bcast_S_S20000 (constant (F := Ideal) S_ .f32 0x3F800000#32) (ix1 r))
      (max (k (ix1 r)) (broadcastInDim S20000 ![] bcast_S_S20000 (constant (F := Ideal) S_ .f32 0x3F800000#32) (ix1 r))) = _
  rw [ones_apply]

theorem invG_apply (k : F32 S50000) (r : Fin 50000) :
    invG k (ix2 r (0 : Fin 1)) = Ideal.div one32 (max (k (ix1 r)) one32) := by
  unfold invG
  rw [Cert.LibLayout.shapeCast_a_a1_apply]
  show Ideal.div (broadcastInDim S50000 ![] bcast_S_S50000 (constant (F := Ideal) S_ .f32 0x3F800000#32) (ix1 r))
      (max (k (ix1 r)) (broadcastInDim S50000 ![] bcast_S_S50000 (constant (F := Ideal) S_ .f32 0x3F800000#32) (ix1 r))) = _
  rw [ones_apply]

/-- The transposed matrix reads, at (k, c), the matrix at (c, k). -/
theorem tr_apply (W : F32 S128x128) (k c : Fin 128) : tr W (ix2 k c) = W (ix2 c k) :=
  transpose_ix2_apply W _ k c

/-- The one-row form of a vector reads, at (0, c), the vector at c. -/
theorem row_apply (b : F32 S128) (c : Fin 128) : row b (ix2 (0 : Fin 1) c) = b (ix1 c) :=
  congrFun (Cert.ScaledRows.rowVec_shapeCast b shapeCasts_S128_S1x128) (ix1 c)

theorem addf_tr_apply (A B : F32 S128x128) (k c : Fin 128) :
    addf (F := Ideal) (φ := .f32) (tr A) (tr B) (ix2 k c) = A (ix2 c k) + B (ix2 c k) := by
  show tr A (ix2 k c) + tr B (ix2 k c) = _
  rw [tr_apply, tr_apply]

theorem row_addf_apply (a b : F32 S128) (c : Fin 128) :
    row (addf (F := Ideal) (φ := .f32) a b) (ix2 (0 : Fin 1) c) = a (ix1 c) + b (ix1 c) := by
  rw [row_apply]; rfl

end Cert.Hetero.Ker

end
-- ==== Proof.RefTerm.lean ====
/-
  The reference program's two results as a composition of named pieces.

  One relation's aggregate is the sum, into each destination row, of the source rows its edges name: the source table
  gathered at the edges' source numbers (a negative number wrapped once by the table's height) and added into a zero
  table at the edges' destination numbers. Its clipped count is the number of edges into each destination, at least
  one. One relation's dense step divides the aggregate's rows by the clipped count, multiplies by the transposed
  neighbour weights, adds the bias to every row and adds the destination's own rows times the transposed root weights.
  A layer sums the dense steps of the relations that share a destination type; the first layer's results are floored
  at zero before the second layer reads them. Each piece is spelt exactly as the program spells it, so the two results
  are these compositions by unfolding alone.
-/
import proofs.«150412_j11682311045362_2_alg».proof.Proof.Gen.ReferenceIdeal
import proofs.«150412_j11682311045362_2_alg».proof.Proof.Gen.ReferenceIdeal.Run
import Idealize.ShloMosaic.PureOps.Ideal

noncomputable section

namespace Cert.Hetero.Ref

open Cert.ReferenceIdeal Cert.ReferenceIdeal.Gen Idealize.ShloMosaic Idealize.ShloMosaic.TcCoe Idealize.SL.Sem Idealize.ShloMosaic.StableHlo

/-! ## One relation's aggregate and clipped count -/

/-- Relation GT's aggregate: gene rows summed into trait rows. -/
def aggGT (x : FVec Ideal S50000x128 .f32) (src dst : IVec S1000000 32) : FVec Ideal S20000x128 .f32 :=
  Host.scatterAdd scatter_S20000x128_S1000000x1_S1000000x128_1_0_0_1
    (broadcastInDim S20000x128 ![] bcast_S_S20000x128 (constant (F := Ideal) S_ .f32 0x00000000#32))
    (broadcastInDim S1000000x1 ![0] bcast_S1000000_S1000000x1_0 dst)
    (Host.gather gather_S50000x128_S1000000x1_S1000000x128_1_0_n_n_0_1_1128 x
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 50000#32))) src)))

/-- Relation GT's clipped count: the number of edges into each destination, at least one. -/
def mxGT (dst : IVec S1000000 32) : FVec Ideal S20000 .f32 :=
  maximumf
    (Host.scatterAdd scatter_S20000_S1000000x1_S1000000_n_0_0_1
      (broadcastInDim S20000 ![] bcast_S_S20000 (constant (F := Ideal) S_ .f32 0x00000000#32))
      (broadcastInDim S1000000x1 ![0] bcast_S1000000_S1000000x1_0 dst)
      (broadcastInDim S1000000 ![] bcast_S_S1000000 (constant (F := Ideal) S_ .f32 0x3F800000#32)))
    (broadcastInDim S20000 ![] bcast_S_S20000 (constant (F := Ideal) S_ .f32 0x3F800000#32))

/-- Relation TG's aggregate: trait rows summed into gene rows. -/
def aggTG (x : FVec Ideal S20000x128 .f32) (src dst : IVec S1000000 32) : FVec Ideal S50000x128 .f32 :=
  Host.scatterAdd scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 dst)
    (Host.gather gather_S20000x128_S1000000x1_S1000000x128_1_0_n_n_0_1_1128 x
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 20000#32))) src)))

/-- Relation TG's clipped count: the number of edges into each destination, at least one. -/
def mxTG (dst : IVec S1000000 32) : FVec Ideal S50000 .f32 :=
  maximumf
    (Host.scatterAdd scatter_S50000_S1000000x1_S1000000_n_0_0_1
      (broadcastInDim S50000 ![] bcast_S_S50000 (constant (F := Ideal) S_ .f32 0x00000000#32))
      (broadcastInDim S1000000x1 ![0] bcast_S1000000_S1000000x1_0 dst)
      (broadcastInDim S1000000 ![] bcast_S_S1000000 (constant (F := Ideal) S_ .f32 0x3F800000#32)))
    (broadcastInDim S50000 ![] bcast_S_S50000 (constant (F := Ideal) S_ .f32 0x3F800000#32))

/-- Relation GG's aggregate: gene rows summed into gene rows. -/
def aggGG (x : FVec Ideal S50000x128 .f32) (src dst : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- Relation GG's clipped count: the number of edges into each destination, at least one. -/
def mxGG (dst : IVec S600000 32) : FVec Ideal S50000 .f32 :=
  maximumf
    (Host.scatterAdd scatter_S50000_S600000x1_S600000_n_0_0_1
      (broadcastInDim S50000 ![] bcast_S_S50000 (constant (F := Ideal) S_ .f32 0x00000000#32))
      (broadcastInDim S600000x1 ![0] bcast_S600000_S600000x1_0 dst)
      (broadcastInDim S600000 ![] bcast_S_S600000 (constant (F := Ideal) S_ .f32 0x3F800000#32)))
    (broadcastInDim S50000 ![] bcast_S_S50000 (constant (F := Ideal) S_ .f32 0x3F800000#32))

/-! ## One relation's dense step, and the floor -/

/-- The dense step into 20000 destination rows. -/
def denseT (s : FVec Ideal S20000x128 .f32) (mx : FVec Ideal S20000 .f32) (wl : FVec Ideal S128x128 .f32)
    (bl : FVec Ideal S128 .f32) (xd : FVec Ideal S20000x128 .f32) (wr : FVec Ideal S128x128 .f32) : FVec Ideal S20000x128 .f32 :=
  addf
    (addf
      (Host.dotGeneral dot_S20000x128_S128x128_S20000x128_1_0_0_1_n_n none
        (Host.divf s (broadcastInDim S20000x128 ![0, 1] bcast_S20000x1_S20000x128_0_1 (broadcastInDim S20000x1 ![0] bcast_S20000_S20000x1_0 mx)))
        (transpose S128x128 [1, 0] wl transposes_S128x128_S128x128_1_0))
      (broadcastInDim S20000x128 ![0, 1] bcast_S1x128_S20000x128_0_1 (broadcastInDim S1x128 ![1] bcast_S128_S1x128_1 bl)))
    (Host.dotGeneral dot_S20000x128_S128x128_S20000x128_1_0_0_1_n_n none xd
      (transpose S128x128 [1, 0] wr transposes_S128x128_S128x128_1_0))

/-- Every entry floored at zero. -/
def floorT (a : FVec Ideal S20000x128 .f32) : FVec Ideal S20000x128 .f32 :=
  maximumf a (broadcastInDim S20000x128 ![] bcast_S_S20000x128 (constant (F := Ideal) S_ .f32 0x00000000#32))

/-- The dense step into 50000 destination rows. -/
def denseG (s : FVec Ideal S50000x128 .f32) (mx : FVec Ideal S50000 .f32) (wl : FVec Ideal S128x128 .f32)
    (bl : FVec Ideal S128 .f32) (xd : FVec Ideal S50000x128 .f32) (wr : FVec Ideal S128x128 .f32) : FVec Ideal S50000x128 .f32 :=
  addf
    (addf
      (Host.dotGeneral dot_S50000x128_S128x128_S50000x128_1_0_0_1_n_n none
        (Host.divf s (broadcastInDim S50000x128 ![0, 1] bcast_S50000x1_S50000x128_0_1 (broadcastInDim S50000x1 ![0] bcast_S50000_S50000x1_0 mx)))
        (transpose S128x128 [1, 0] wl transposes_S128x128_S128x128_1_0))
      (broadcastInDim S50000x128 ![0, 1] bcast_S1x128_S50000x128_0_1 (broadcastInDim S1x128 ![1] bcast_S128_S1x128_1 bl)))
    (Host.dotGeneral dot_S50000x128_S128x128_S50000x128_1_0_0_1_n_n none xd
      (transpose S128x128 [1, 0] wr transposes_S128x128_S128x128_1_0))

/-- Every entry floored at zero. -/
def floorG (a : FVec Ideal S50000x128 .f32) : FVec Ideal S50000x128 .f32 :=
  maximumf a (broadcastInDim S50000x128 ![] bcast_S_S50000x128 (constant (F := Ideal) S_ .f32 0x00000000#32))

/-! ## The two layers over a memory -/

variable (m : (ℓ : Loc nD τ sig) → Buf (Elt Ideal) ℓ) (c : Dev nD)

/-- The first layer's trait rows, before the floor. -/
def h1T : FVec Ideal S20000x128 .f32 :=
  denseT (aggGT (m ((c.tc : Thread nD τ).loc main_arg6)) (m ((c.tc : Thread nD τ).loc main_arg0)) (m ((c.tc : Thread nD τ).loc main_arg1))) (mxGT (m ((c.tc : Thread nD τ).loc main_arg1))) (m ((c.tc : Thread nD τ).loc main_arg8)) (m ((c.tc : Thread nD τ).loc main_arg9)) (m ((c.tc : Thread nD τ).loc main_arg7)) (m ((c.tc : Thread nD τ).loc main_arg10))

/-- The first layer's gene rows, before the floor. -/
def h1G : FVec Ideal S50000x128 .f32 :=
  addf
    (denseG (aggTG (m ((c.tc : Thread nD τ).loc main_arg7)) (m ((c.tc : Thread nD τ).loc main_arg2)) (m ((c.tc : Thread nD τ).loc main_arg3))) (mxTG (m ((c.tc : Thread nD τ).loc main_arg3))) (m ((c.tc : Thread nD τ).loc main_arg11)) (m ((c.tc : Thread nD τ).loc main_arg12)) (m ((c.tc : Thread nD τ).loc main_arg6)) (m ((c.tc : Thread nD τ).loc main_arg13)))
    (denseG (aggGG (m ((c.tc : Thread nD τ).loc main_arg6)) (m ((c.tc : Thread nD τ).loc main_arg4)) (m ((c.tc : Thread nD τ).loc main_arg5))) (mxGG (m ((c.tc : Thread nD τ).loc main_arg5))) (m ((c.tc : Thread nD τ).loc main_arg14)) (m ((c.tc : Thread nD τ).loc main_arg15)) (m ((c.tc : Thread nD τ).loc main_arg6)) (m ((c.tc : Thread nD τ).loc main_arg16)))

/-- The second layer's trait rows. -/
def outT : FVec Ideal S20000x128 .f32 :=
  denseT (aggGT (floorG (h1G m c)) (m ((c.tc : Thread nD τ).loc main_arg0)) (m ((c.tc : Thread nD τ).loc main_arg1))) (mxGT (m ((c.tc : Thread nD τ).loc main_arg1))) (m ((c.tc : Thread nD τ).loc main_arg17)) (m ((c.tc : Thread nD τ).loc main_arg18)) (floorT (h1T m c)) (m ((c.tc : Thread nD τ).loc main_arg19))

/-- The second layer's gene rows. -/
def outG : FVec Ideal S50000x128 .f32 :=
  addf
    (denseG (aggTG (floorT (h1T m c)) (m ((c.tc : Thread nD τ).loc main_arg2)) (m ((c.tc : Thread nD τ).loc main_arg3))) (mxTG (m ((c.tc : Thread nD τ).loc main_arg3))) (m ((c.tc : Thread nD τ).loc main_arg20)) (m ((c.tc : Thread nD τ).loc main_arg21)) (floorG (h1G m c)) (m ((c.tc : Thread nD τ).loc main_arg22)))
    (denseG (aggGG (floorG (h1G m c)) (m ((c.tc : Thread nD τ).loc main_arg4)) (m ((c.tc : Thread nD τ).loc main_arg5))) (mxGG (m ((c.tc : Thread nD τ).loc main_arg5))) (m ((c.tc : Thread nD τ).loc main_arg23)) (m ((c.tc : Thread nD τ).loc main_arg24)) (floorG (h1G m c)) (m ((c.tc : Thread nD τ).loc main_arg25)))

/-! ## The program's results are these compositions -/

set_option maxRecDepth 8192 in
/-- The program's gene result is the second layer's gene rows. -/
theorem res0 : Cert.ReferenceIdeal.Value.res_out0 (F := Ideal) m c = outG m c := by
  unfold Cert.ReferenceIdeal.Value.res_out0 Cert.ReferenceIdeal.Value.res_main_v165 outG h1G h1T floorG floorT denseG denseT
    aggGT aggTG aggGG mxGT mxTG mxGG
  rfl

set_option maxRecDepth 8192 in
/-- The program's trait result is the second layer's trait rows. -/
theorem res1 : Cert.ReferenceIdeal.Value.res_out1 (F := Ideal) m c = outT m c := by
  unfold Cert.ReferenceIdeal.Value.res_out1 Cert.ReferenceIdeal.Value.res_main_v110 outT h1G h1T floorG floorT denseG denseT
    aggGT aggTG aggGG mxGT mxTG mxGG
  rfl

end Cert.Hetero.Ref

end
-- ==== Proof.RefDense.lean ====
/-
  One relation's dense step of the reference program, read at an entry.

  Entry (r, c) of the dense step is the sum over k of (aggregate (r, k) divided by the clipped count of row r) times
  the neighbour weight (c, k), plus bias c, plus the sum over k of the destination's own entry (r, k) times the root
  weight (c, k). Both weight matrices are read transposed. The division is the ideal instance's, entry by entry.
-/
import proofs.«150412_j11682311045362_2_alg».proof.Proof.RefTerm
import proofs.«150412_j11682311045362_2_alg».proof.Proof.LibMatProduct
import proofs.«150412_j11682311045362_2_alg».proof.Proof.LibHostColumn
import proofs.«150412_j11682311045362_2_alg».proof.Proof.LibHostRow
import Idealize.ShloMosaic.Lib.ValueLayout
import Idealize.ShloMosaic.Lib.IdealHost

noncomputable section

namespace Cert.Hetero.Ref

open Cert.ReferenceIdeal Cert.ReferenceIdeal.Gen Idealize.ShloMosaic Idealize.ShloMosaic.ValueIdx
open Cert.MatProduct (rowOf colOf eq_row_col)

/-- The dense step into 50000 rows, at entry (r, c). -/
theorem denseG_ix2 (s : FVec Ideal S50000x128 .f32) (mx : FVec Ideal S50000 .f32) (wl : FVec Ideal S128x128 .f32)
    (bl : FVec Ideal S128 .f32) (xd : FVec Ideal S50000x128 .f32) (wr : FVec Ideal S128x128 .f32)
    (r : Fin 50000) (c : Fin 128) :
    denseG s mx wl bl xd wr (ix2 r c)
      = ((∑ k : Fin 128, Ideal.div (s (ix2 r k)) (mx (ix1 r)) * wl (ix2 c k)) + bl (ix1 c))
        + ∑ k : Fin 128, xd (ix2 r k) * wr (ix2 c k) := by
  have hd : dot_S50000x128_S128x128_S50000x128_1_0_0_1_n_n = DotDims.plain 50000 128 128 := rfl
  unfold denseG
  rw [addf_apply, addf_apply, hd]
  unfold Host.dotGeneral
  rw [Cert.Sage.dotGeneral_plain_apply, Cert.Sage.dotGeneral_plain_apply,
    Cert.LibHostRow.rows_apply, Cert.LibHostRow.row_apply]
  congr 1
  · congr 1
    refine Finset.sum_congr rfl fun k _ => ?_
    rw [hostDivf_apply, Cert.LibHostColumn.spread_apply, Cert.LibHostColumn.column_apply, transpose_ix2_apply]
  · refine Finset.sum_congr rfl fun k _ => ?_
    rw [transpose_ix2_apply]

/-- The dense step into 50000 rows, at an entry `y`. -/
theorem denseG_apply (s : FVec Ideal S50000x128 .f32) (mx : FVec Ideal S50000 .f32) (wl : FVec Ideal S128x128 .f32)
    (bl : FVec Ideal S128 .f32) (xd : FVec Ideal S50000x128 .f32) (wr : FVec Ideal S128x128 .f32) (y : S50000x128.Idx) :
    denseG s mx wl bl xd wr y
      = ((∑ k : Fin 128, Ideal.div (s (ix2 (rowOf y) k)) (mx (ix1 (rowOf y))) * wl (ix2 (colOf y) k)) + bl (ix1 (colOf y)))
        + ∑ k : Fin 128, xd (ix2 (rowOf y) k) * wr (ix2 (colOf y) k) :=
  (congrArg (denseG s mx wl bl xd wr) (eq_row_col y)).trans (denseG_ix2 s mx wl bl xd wr (rowOf y) (colOf y))

/-- The dense step into 20000 rows, at entry (r, c). -/
theorem denseT_ix2 (s : FVec Ideal S20000x128 .f32) (mx : FVec Ideal S20000 .f32) (wl : FVec Ideal S128x128 .f32)
    (bl : FVec Ideal S128 .f32) (xd : FVec Ideal S20000x128 .f32) (wr : FVec Ideal S128x128 .f32)
    (r : Fin 20000) (c : Fin 128) :
    denseT s mx wl bl xd wr (ix2 r c)
      = ((∑ k : Fin 128, Ideal.div (s (ix2 r k)) (mx (ix1 r)) * wl (ix2 c k)) + bl (ix1 c))
        + ∑ k : Fin 128, xd (ix2 r k) * wr (ix2 c k) := by
  have hd : dot_S20000x128_S128x128_S20000x128_1_0_0_1_n_n = DotDims.plain 20000 128 128 := rfl
  unfold denseT
  rw [addf_apply, addf_apply, hd]
  unfold Host.dotGeneral
  rw [Cert.Sage.dotGeneral_plain_apply, Cert.Sage.dotGeneral_plain_apply,
    Cert.LibHostRow.rows_apply, Cert.LibHostRow.row_apply]
  congr 1
  · congr 1
    refine Finset.sum_congr rfl fun k _ => ?_
    rw [hostDivf_apply, Cert.LibHostColumn.spread_apply, Cert.LibHostColumn.column_apply, transpose_ix2_apply]
  · refine Finset.sum_congr rfl fun k _ => ?_
    rw [transpose_ix2_apply]

/-- The dense step into 20000 rows, at an entry `y`. -/
theorem denseT_apply (s : FVec Ideal S20000x128 .f32) (mx : FVec Ideal S20000 .f32) (wl : FVec Ideal S128x128 .f32)
    (bl : FVec Ideal S128 .f32) (xd : FVec Ideal S20000x128 .f32) (wr : FVec Ideal S128x128 .f32) (y : S20000x128.Idx) :
    denseT s mx wl bl xd wr y
      = ((∑ k : Fin 128, Ideal.div (s (ix2 (rowOf y) k)) (mx (ix1 (rowOf y))) * wl (ix2 (colOf y) k)) + bl (ix1 (colOf y)))
        + ∑ k : Fin 128, xd (ix2 (rowOf y) k) * wr (ix2 (colOf y) k) :=
  (congrArg (denseT s mx wl bl xd wr) (eq_row_col y)).trans (denseT_ix2 s mx wl bl xd wr (rowOf y) (colOf y))

end Cert.Hetero.Ref

end
-- ==== Proof.RealLayer.lean ====
/-
  Real entries through one layer.

  Sums and products of real numbers are real, the reciprocal of a clipped count is real whatever the count, and a
  maximum of two reals is real. So one layer's output row is real as soon as the neighbour sums, the node's own rows,
  the weights and the biases are: the second layer may then use x (a + b) = x a + x b on the first layer's output.
-/
import proofs.«150412_j11682311045362_2_alg».proof.Proof.Algebra

noncomputable section

namespace Cert.Hetero

open Idealize.ShloMosaic Idealize.ShloMosaic.ValueIdx
open Cert.MatProduct (rowOf colOf prod eq_row_col)
open Cert.ScaledRows (scale scaledProd)

variable {R K N : ℕ}

/-- A scaled product of real arrays, the column real on its one column, has real entries. -/
theorem isReal_scaledProd (s : (⟨2, ![R, K]⟩ : Shape).Idx → EReal) (n : (⟨2, ![R, 1]⟩ : Shape).Idx → EReal)
    (w : (⟨2, ![K, N]⟩ : Shape).Idx → EReal) (hs : ∀ i, IsReal (s i)) (hn : ∀ r : Fin R, IsReal (n (ix2 r (0 : Fin 1))))
    (hw : ∀ i, IsReal (w i)) (y : (⟨2, ![R, N]⟩ : Shape).Idx) : IsReal (scaledProd s n w y) :=
  isReal_prod (scale s n) w (fun i => (hs i).mul (hn _)) hw y

/-- The two-relation row is real when all its ingredients are. -/
theorem isReal_comb3 (s0 : (⟨2, ![R, K]⟩ : Shape).Idx → EReal) (n0 : (⟨2, ![R, 1]⟩ : Shape).Idx → EReal)
    (wl0 : (⟨2, ![K, N]⟩ : Shape).Idx → EReal) (s1 : (⟨2, ![R, K]⟩ : Shape).Idx → EReal)
    (n1 : (⟨2, ![R, 1]⟩ : Shape).Idx → EReal) (wl1 : (⟨2, ![K, N]⟩ : Shape).Idx → EReal)
    (x : (⟨2, ![R, K]⟩ : Shape).Idx → EReal) (wr : (⟨2, ![K, N]⟩ : Shape).Idx → EReal)
    (b : (⟨2, ![1, N]⟩ : Shape).Idx → EReal)
    (hs0 : ∀ i, IsReal (s0 i)) (hn0 : ∀ r : Fin R, IsReal (n0 (ix2 r (0 : Fin 1)))) (hwl0 : ∀ i, IsReal (wl0 i))
    (hs1 : ∀ i, IsReal (s1 i)) (hn1 : ∀ r : Fin R, IsReal (n1 (ix2 r (0 : Fin 1)))) (hwl1 : ∀ i, IsReal (wl1 i))
    (hx : ∀ i, IsReal (x i)) (hwr : ∀ i, IsReal (wr i)) (hb : ∀ c : Fin N, IsReal (b (ix2 (0 : Fin 1) c)))
    (y : (⟨2, ![R, N]⟩ : Shape).Idx) : IsReal (comb3 s0 n0 wl0 s1 n1 wl1 x wr b y) :=
  (((isReal_scaledProd s0 n0 wl0 hs0 hn0 hwl0 y).add (isReal_scaledProd s1 n1 wl1 hs1 hn1 hwl1 y)).add
    (isReal_prod x wr hx hwr y)).add (hb _)

theorem isReal_floor0 {S : Shape} (a : S.Idx → EReal) (y : S.Idx) (h : IsReal (a y)) : IsReal (floor0 a y) :=
  h.max isReal_z0

end Cert.Hetero

end
-- ==== Proof.Join.lean ====
/-
  The kernel's layers are the reference's.

  Host side: the kernel gathers from a narrowed copy of the table and widens the gathered rows again, which changes
  nothing on the extended reals, so its neighbour sums, and its neighbour counts, are the reference's own terms. Dense
  side, per destination row: the kernel's scaled product is the reference's divided product (the reciprocal of a
  clipped count), the bias and the root term are regrouped, and for the gene rows the shared root term x (A + B) is
  split into x A + x B, which needs the node's own rows and the two root matrices real.
-/
import proofs.«150412_j11682311045362_2_alg».proof.Proof.KerPieces
import proofs.«150412_j11682311045362_2_alg».proof.Proof.RefTerm
import proofs.«150412_j11682311045362_2_alg».proof.Proof.RefDense
import proofs.«150412_j11682311045362_2_alg».proof.Proof.RealLayer

set_option maxRecDepth 8192

noncomputable section

namespace Cert.Hetero.Join

open Cert.Hetero Idealize.ShloMosaic Idealize.ShloMosaic.ValueIdx
open Cert.MatProduct (rowOf colOf prod eq_row_col)
open Cert.Hetero.Ker (F32 I32)

/-! ## The host pieces -/

theorem aggGT_eq (x : F32 Cert.KernelIdeal.S50000x128) (s d : I32 Cert.KernelIdeal.S1000000) : Ker.aggGT x s d = Ref.aggGT x s d := rfl
theorem aggTG_eq (x : F32 Cert.KernelIdeal.S20000x128) (s d : I32 Cert.KernelIdeal.S1000000) : Ker.aggTG x s d = Ref.aggTG x s d := rfl
theorem aggGG_eq (x : F32 Cert.KernelIdeal.S50000x128) (s d : I32 Cert.KernelIdeal.S600000) : Ker.aggGG x s d = Ref.aggGG x s d := rfl

theorem mxGT_eq (d : I32 Cert.KernelIdeal.S1000000) : Ref.mxGT d = fun i => max (Ker.cntT d i) one32 := by
  funext i
  unfold Ref.mxGT
  rw [maximumf_apply, Ker.ones_apply]
  rfl
theorem mxTG_eq (d : I32 Cert.KernelIdeal.S1000000) : Ref.mxTG d = fun i => max (Ker.cntG1 d i) one32 := by
  funext i
  unfold Ref.mxTG
  rw [maximumf_apply, Ker.ones_apply]
  rfl
theorem mxGG_eq (d : I32 Cert.KernelIdeal.S600000) : Ref.mxGG d = fun i => max (Ker.cntG2 d i) one32 := by
  funext i
  unfold Ref.mxGG
  rw [maximumf_apply, Ker.ones_apply]
  rfl

theorem floorT_eq (a : F32 Cert.KernelIdeal.S20000x128) : Ref.floorT a = floor0 a := by
  funext i
  unfold Ref.floorT
  rw [maximumf_apply, Ker.zeros_apply]
  rfl
theorem floorG_eq (a : F32 Cert.KernelIdeal.S50000x128) : Ref.floorG a = floor0 a := by
  funext i
  unfold Ref.floorG
  rw [maximumf_apply, Ker.zeros_apply]
  rfl

/-! ## The dense part as the per-row function -/

theorem denseT_eq (S : F32 Cert.KernelIdeal.S20000x128) (mx : F32 Cert.KernelIdeal.S20000) (Wl : F32 Cert.KernelIdeal.S128x128)
    (bl : F32 Cert.KernelIdeal.S128) (xd : F32 Cert.KernelIdeal.S20000x128) (Wr : F32 Cert.KernelIdeal.S128x128) :
    Ref.denseT S mx Wl bl xd Wr = sageRow S mx Wl bl xd Wr :=
  funext fun y => Ref.denseT_apply S mx Wl bl xd Wr y
theorem denseG_eq (S : F32 Cert.KernelIdeal.S50000x128) (mx : F32 Cert.KernelIdeal.S50000) (Wl : F32 Cert.KernelIdeal.S128x128)
    (bl : F32 Cert.KernelIdeal.S128) (xd : F32 Cert.KernelIdeal.S50000x128) (Wr : F32 Cert.KernelIdeal.S128x128) :
    Ref.denseG S mx Wl bl xd Wr = sageRow S mx Wl bl xd Wr :=
  funext fun y => Ref.denseG_apply S mx Wl bl xd Wr y

/-! ## One layer, trait rows and gene rows -/

/-- Trait rows: one incoming relation. No finiteness. -/
theorem layerT (x : F32 Cert.KernelIdeal.S50000x128) (s d : I32 Cert.KernelIdeal.S1000000) (Wl : F32 Cert.KernelIdeal.S128x128)
    (bl : F32 Cert.KernelIdeal.S128) (xd : F32 Cert.KernelIdeal.S20000x128) (Wr : F32 Cert.KernelIdeal.S128x128) :
    comb2 (Ker.aggGT x s d) (Ker.invT (Ker.cntT d)) (Ker.tr Wl) xd (Ker.tr Wr) (Ker.row bl)
      = Ref.denseT (Ref.aggGT x s d) (Ref.mxGT d) Wl bl xd Wr := by
  rw [denseT_eq, mxGT_eq, ← aggGT_eq]
  exact comb2_eq_sageRow _ _ _ _ _ _ (Ker.cntT d) Wl Wr bl (Ker.invT_apply _) (Ker.tr_apply Wl) (Ker.tr_apply Wr) (Ker.row_apply bl)

/-- Gene rows: two incoming relations sharing the root term; the node's own rows and the root matrices real. -/
theorem layerG (xa : F32 Cert.KernelIdeal.S20000x128) (sa da : I32 Cert.KernelIdeal.S1000000)
    (xb : F32 Cert.KernelIdeal.S50000x128) (sb db : I32 Cert.KernelIdeal.S600000)
    (Wla : F32 Cert.KernelIdeal.S128x128) (bla : F32 Cert.KernelIdeal.S128) (Wra : F32 Cert.KernelIdeal.S128x128)
    (Wlb : F32 Cert.KernelIdeal.S128x128) (blb : F32 Cert.KernelIdeal.S128) (Wrb : F32 Cert.KernelIdeal.S128x128)
    (xd : F32 Cert.KernelIdeal.S50000x128)
    (hxd : ∀ i, IsReal (xd i)) (hra : ∀ i, IsReal (Wra i)) (hrb : ∀ i, IsReal (Wrb i)) :
    comb3 (Ker.aggTG xa sa da) (Ker.invG (Ker.cntG1 da)) (Ker.tr Wla) (Ker.aggGG xb sb db) (Ker.invG (Ker.cntG2 db)) (Ker.tr Wlb)
        xd (addf (F := Ideal) (φ := .f32) (Ker.tr Wra) (Ker.tr Wrb)) (Ker.row (addf (F := Ideal) (φ := .f32) bla blb))
      = addf (F := Ideal) (φ := .f32) (Ref.denseG (Ref.aggTG xa sa da) (Ref.mxTG da) Wla bla xd Wra)
          (Ref.denseG (Ref.aggGG xb sb db) (Ref.mxGG db) Wlb blb xd Wrb) := by
  rw [denseG_eq, denseG_eq, mxTG_eq, mxGG_eq, ← aggTG_eq, ← aggGG_eq]
  exact comb3_eq_sageRow_add _ _ _ _ _ _ _ _ _ (Ker.cntG1 da) (Ker.cntG2 db) Wla Wra Wlb Wrb bla blb
    (Ker.invG_apply _) (Ker.invG_apply _) (Ker.tr_apply Wla) (Ker.tr_apply Wlb) (Ker.addf_tr_apply Wra Wrb)
    (Ker.row_addf_apply bla blb) hxd hra hrb

end Cert.Hetero.Join

end
-- ==== Proof.Body.lean ====
/-
  The four kernel bodies on the extended reals: what each stores, as one function of the blocks it loads.

  Each body multiplies the rows of a block of neighbour sums by a column of reciprocal counts, multiplies the result
  by a weight matrix, adds the block of own rows times the root weight matrix and a bias row, and (in the first
  layer) floors every entry at zero. On the extended reals the narrowing casts are the identity and the matrix
  unit accumulating into zero is the exact sum of products, so each stored block is `comb2` / `comb3` of the loaded
  blocks, floored or not.
-/
import proofs.«150412_j11682311045362_2_alg».proof.Proof.Layer
import proofs.«150412_j11682311045362_2_alg».proof.Proof.Gen.KernelIdeal.Skeleton

noncomputable section

namespace Cert.Hetero.Regions

open Idealize.ShloMosaic Idealize.ShloMosaic.ValueIdx
open Cert.KernelIdeal Cert.KernelIdeal.Gen Cert.Hetero
open Cert.MatProduct (rowOf colOf prod eq_row_col)
open Cert.ScaledRows (scale scaledProd)

/-- The zero offsets of a rank-2 rectangle, as the constant function. -/
theorem zeroOffsets : (![0, 0] : Fin 2 → Nat) = fun _ => 0 := funext fun a => by fin_cases a <;> rfl

/-- The scaled product on the matrix unit, at the body's extents: the rows of `x` times the column `n`, narrowed
    (the identity here), times `w`, accumulated into zero. -/
theorem mxu_scaled (x : Vec Ideal S5000x128 .f32) (n : Vec Ideal S5000x1 .f32) (w : Vec Ideal S128x128 .bf16) :
    matmul (φ₂ := .bf16) dot_S5000x128_S128x128_S5000x128_1_0_0_1_n_n none
        (truncf .bf16 (mulf (shapeCast S5000x128 x shapeCasts_S5000x128_S5000x128)
          (broadcastTo S5000x128 (shapeCast S5000x1 n shapeCasts_S5000x1_S5000x1) broadcasts_S5000x1_S5000x128)) bitsLt_bf16_f32)
        w (constant (F := Ideal) S5000x128 .f32 0x00000000#32)
      = scaledProd x n w :=
  Cert.ScaledRows.mxu_scaledProd_cast x n w _ _ _ _

/-- The plain product on the matrix unit, at the body's extents. -/
theorem mxu_plain (x : Vec Ideal S5000x128 .f32) (w : Vec Ideal S128x128 .bf16) :
    matmul (φ₂ := .bf16) dot_S5000x128_S128x128_S5000x128_1_0_0_1_n_n none (truncf .bf16 x bitsLt_bf16_f32)
        w (constant (F := Ideal) S5000x128 .f32 0x00000000#32)
      = prod x w :=
  Cert.MatProduct.matmul_zero_eq_prod none _ _

/-- One incoming relation, floored: the first layer's body for the smaller node set. -/
theorem pay0 (v0 : Vec Ideal S5000x128 .f32) (v2 : Vec Ideal S5000x1 .f32) (v7 : Vec Ideal S128x128 .bf16)
    (v10 : Vec Ideal S5000x128 .f32) (v12 : Vec Ideal S128x128 .bf16) (v16 : Vec Ideal S1x128 .f32) :
    k0_pay1 (F := Ideal) v0 v2 v7 v10 v12 v16 = floor0 (comb2 v0 v2 v7 v10 v12 v16) := by
  unfold k0_pay1
  dsimp only
  rw [shapeCast_self v7, shapeCast_self v12, shapeCast_self v16, mxu_scaled, mxu_plain]
  funext y
  rw [maximumf_apply, broadcast_apply, addf_apply, addf_apply, Cert.RowBias.spreadRow_apply]
  rfl

/-- Two incoming relations, floored: the first layer's body for the larger node set. -/
theorem pay1 (v0 : Vec Ideal S5000x128 .f32) (v2 : Vec Ideal S5000x1 .f32) (v6 : Vec Ideal S5000x128 .f32)
    (v8 : Vec Ideal S5000x1 .f32) (v13 : Vec Ideal S128x128 .bf16) (v17 : Vec Ideal S128x128 .bf16)
    (v21 : Vec Ideal S5000x128 .f32) (v23 : Vec Ideal S128x128 .bf16) (v27 : Vec Ideal S1x128 .f32) :
    k1_pay1 (F := Ideal) v0 v2 v6 v8 v13 v17 v21 v23 v27 = floor0 (comb3 v0 v2 v13 v6 v8 v17 v21 v23 v27) := by
  unfold k1_pay1
  dsimp only
  rw [shapeCast_self v13, shapeCast_self v17, shapeCast_self v23, shapeCast_self v27, mxu_scaled, mxu_scaled, mxu_plain]
  funext y
  rw [maximumf_apply, broadcast_apply, addf_apply, addf_apply, addf_apply, Cert.RowBias.spreadRow_apply]
  rfl

/-- One incoming relation, not floored: the second layer's body for the smaller node set. -/
theorem pay2 (v0 : Vec Ideal S5000x128 .f32) (v2 : Vec Ideal S5000x1 .f32) (v7 : Vec Ideal S128x128 .bf16)
    (v10 : Vec Ideal S5000x128 .f32) (v13 : Vec Ideal S128x128 .bf16) (v17 : Vec Ideal S1x128 .f32) :
    k2_pay1 (F := Ideal) v0 v2 v7 v10 v13 v17 = comb2 v0 v2 v7 v10 v13 v17 := by
  unfold k2_pay1
  dsimp only
  rw [shapeCast_self v7, shapeCast_self v10, shapeCast_self v13, shapeCast_self v17, mxu_scaled, mxu_plain]
  funext y
  rw [addf_apply, addf_apply, Cert.RowBias.spreadRow_apply]
  rfl

/-- Two incoming relations, not floored: the second layer's body for the larger node set. -/
theorem pay3 (v0 : Vec Ideal S5000x128 .f32) (v2 : Vec Ideal S5000x1 .f32) (v6 : Vec Ideal S5000x128 .f32)
    (v8 : Vec Ideal S5000x1 .f32) (v13 : Vec Ideal S128x128 .bf16) (v17 : Vec Ideal S128x128 .bf16)
    (v21 : Vec Ideal S5000x128 .f32) (v24 : Vec Ideal S128x128 .bf16) (v28 : Vec Ideal S1x128 .f32) :
    k3_pay1 (F := Ideal) v0 v2 v6 v8 v13 v17 v21 v24 v28 = comb3 v0 v2 v13 v6 v8 v17 v21 v24 v28 := by
  unfold k3_pay1
  dsimp only
  rw [shapeCast_self v13, shapeCast_self v17, shapeCast_self v21, shapeCast_self v24, shapeCast_self v28, mxu_scaled,
    mxu_scaled, mxu_plain]
  funext y
  rw [addf_apply, addf_apply, addf_apply, Cert.RowBias.spreadRow_apply]
  rfl

end Cert.Hetero.Regions

end
-- ==== Proof.Region0.lean ====
/-
  The first layer's update of the smaller node set, from row blocks to the whole array.

  The grid has 4 points; point `t` works on rows 5000·t … 5000·t + 4999. Its blocks of the neighbour sums, of the
  reciprocal counts and of the own rows are those rows of the arrays they are cut from; the weight matrices and the
  bias row are whole at every point. The body leaves `comb2` of its blocks, floored at zero; that function acts on each row by
  itself, so the block written back at `t` is rows 5000·t … of `comb2` of the whole arrays, floored. The 4 blocks tile
  the 20000 rows (row `r` is in the block of point `r / 5000`), so the array ends holding that function.
-/
import proofs.«150412_j11682311045362_2_alg».proof.Proof.Body
import proofs.«150412_j11682311045362_2_alg».proof.Proof.Gen.KernelIdeal.Frame

noncomputable section

namespace Cert.Hetero.Regions

open Idealize.ShloMosaic Idealize.ShloMosaic.ValueIdx Idealize.ShloMosaic.TcCoe Idealize.SL.Sem
open Idealize.ShloMosaic.Pipeline (Dat)
open Cert.KernelIdeal Cert.KernelIdeal.Gen Cert.Hetero
open Cert.MatProduct (rowOf colOf prod eq_row_col)
open Cert.ScaledRows (scale scaledProd)
open Cert.Bridge (RowsAt)

variable (V : (c : Dev nD) → (b : Ref sig .tc) → Buf (Elt Ideal) ((c : Thread nD τ).loc b))

/-- Window 0 is at block row `t`, block column 0, at every point (decided over the grid). -/
theorem idx0_0 : ∀ t : Fin cfg0.N, win0_0.index t (0 : Fin 2) = t.val ∧ win0_0.index t (1 : Fin 2) = 0 :=
  (by decide +kernel : ∀ t : Fin grid0.N, _)
/-- Window 1 is at block row `t`, block column 0, at every point (decided over the grid). -/
theorem idx0_1 : ∀ t : Fin cfg0.N, win0_1.index t (0 : Fin 2) = t.val ∧ win0_1.index t (1 : Fin 2) = 0 :=
  (by decide +kernel : ∀ t : Fin grid0.N, _)
/-- Window 2 is at block (0, 0), at every point (decided over the grid). -/
theorem idx0_2 : ∀ t : Fin cfg0.N, win0_2.index t (0 : Fin 2) = 0 ∧ win0_2.index t (1 : Fin 2) = 0 :=
  (by decide +kernel : ∀ t : Fin grid0.N, _)
/-- Window 3 is at block row `t`, block column 0, at every point (decided over the grid). -/
theorem idx0_3 : ∀ t : Fin cfg0.N, win0_3.index t (0 : Fin 2) = t.val ∧ win0_3.index t (1 : Fin 2) = 0 :=
  (by decide +kernel : ∀ t : Fin grid0.N, _)
/-- Window 4 is at block (0, 0), at every point (decided over the grid). -/
theorem idx0_4 : ∀ t : Fin cfg0.N, win0_4.index t (0 : Fin 2) = 0 ∧ win0_4.index t (1 : Fin 2) = 0 :=
  (by decide +kernel : ∀ t : Fin grid0.N, _)
/-- Window 5 is at block (0, 0), at every point (decided over the grid). -/
theorem idx0_5 : ∀ t : Fin cfg0.N, win0_5.index t (0 : Fin 2) = 0 ∧ win0_5.index t (1 : Fin 2) = 0 :=
  (by decide +kernel : ∀ t : Fin grid0.N, _)
/-- Window 6 is at block row `t`, block column 0, at every point (decided over the grid). -/
theorem idx0_6 : ∀ t : Fin cfg0.N, win0_6.index t (0 : Fin 2) = t.val ∧ win0_6.index t (1 : Fin 2) = 0 :=
  (by decide +kernel : ∀ t : Fin grid0.N, _)

/-- Window 0's block at point `t` is rows 5000·t … of its array. -/
theorem rows0_0 (c : Dev nD) (t : Fin cfg0.N) :
    RowsAt (5000 * t.val) (iblk0 V c 0 t : S5000x128.Idx → EReal) (V c main_v38 : S20000x128.Idx → EReal) := by
  intro p r j e
  obtain ⟨e0, e1⟩ := idx0_0 t
  unfold iblk0
  rw [View.read_apply]
  show V c main_v38 _ = V c main_v38 _
  refine congrArg (V c main_v38) ?_
  funext a
  apply Fin.ext
  match a with
  | ⟨0, _⟩ => show win0_0.index t (0 : Fin 2) * 5000 + 1 * p.val = r.val; omega
  | ⟨1, _⟩ => show win0_0.index t (1 : Fin 2) * 128 + 1 * j.val = j.val; omega

/-- Window 1's block at point `t` is rows 5000·t … of its array. -/
theorem rows0_1 (c : Dev nD) (t : Fin cfg0.N) :
    RowsAt (5000 * t.val) (iblk0 V c 1 t : S5000x1.Idx → EReal) (V c main_v8 : S20000x1.Idx → EReal) := by
  intro p r j e
  obtain ⟨e0, e1⟩ := idx0_1 t
  unfold iblk0
  rw [View.read_apply]
  show V c main_v8 _ = V c main_v8 _
  refine congrArg (V c main_v8) ?_
  funext a
  apply Fin.ext
  match a with
  | ⟨0, _⟩ => show win0_1.index t (0 : Fin 2) * 5000 + 1 * p.val = r.val; omega
  | ⟨1, _⟩ => show win0_1.index t (1 : Fin 2) * 1 + 1 * j.val = j.val; omega

/-- Window 2's block at every point is its whole array. -/
theorem whole0_2 (c : Dev nD) (t : Fin cfg0.N) :
    (iblk0 V c 2 t : S128x128.Idx → EReal) = (V c main_v40 : S128x128.Idx → EReal) := by
  obtain ⟨e0, e1⟩ := idx0_2 t
  funext y
  unfold iblk0
  rw [View.read_apply]
  show V c main_v40 _ = V c main_v40 _
  refine congrArg (V c main_v40) ?_
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block at point `t` is rows 5000·t … of its array. -/
theorem rows0_3 (c : Dev nD) (t : Fin cfg0.N) :
    RowsAt (5000 * t.val) (iblk0 V c 3 t : S5000x128.Idx → EReal) (V c main_arg7 : S20000x128.Idx → EReal) := by
  intro p r j e
  obtain ⟨e0, e1⟩ := idx0_3 t
  unfold iblk0
  rw [View.read_apply]
  show V c main_arg7 _ = V c main_arg7 _
  refine congrArg (V c main_arg7) ?_
  funext a
  apply Fin.ext
  match a with
  | ⟨0, _⟩ => show win0_3.index t (0 : Fin 2) * 5000 + 1 * p.val = r.val; omega
  | ⟨1, _⟩ => show win0_3.index t (1 : Fin 2) * 128 + 1 * j.val = j.val; omega

/-- Window 4's block at every point is its whole array. -/
theorem whole0_4 (c : Dev nD) (t : Fin cfg0.N) :
    (iblk0 V c 4 t : S128x128.Idx → EReal) = (V c main_v42 : S128x128.Idx → EReal) := by
  obtain ⟨e0, e1⟩ := idx0_4 t
  funext y
  unfold iblk0
  rw [View.read_apply]
  show V c main_v42 _ = V c main_v42 _
  refine congrArg (V c main_v42) ?_
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block at every point is its whole array. -/
theorem whole0_5 (c : Dev nD) (t : Fin cfg0.N) :
    (iblk0 V c 5 t : S1x128.Idx → EReal) = (V c main_v43 : S1x128.Idx → EReal) := by
  obtain ⟨e0, e1⟩ := idx0_5 t
  funext y
  unfold iblk0
  rw [View.read_apply]
  show V c main_v43 _ = V c main_v43 _
  refine congrArg (V c main_v43) ?_
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- What point `t` writes back is block `t` of the whole-array function. -/
theorem flushed0_eq (c : Dev nD) (t : Fin cfg0.N) :
    (dat0 (F := Ideal) V c).flushed 6 t = ((cfg0.win 6).blk t).view.read (Elt Ideal)
      (floor0 (comb2 (V c main_v38) (V c main_v8) (V c main_v40) (V c main_arg7) (V c main_v42) (V c main_v43))) := by
  show (cfg0.win 6).cut (grid0.coords t) ((dat0 V c).after 6 t) = _
  rw [after0_6]
  unfold out0_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  rw [pay0, whole0_2 V c t, whole0_4 V c t, whole0_5 V c t]
  obtain ⟨e0, e1⟩ := idx0_6 t
  funext y
  refine Cert.ScaledRows.rowsAt_read (o := 5000 * t.val)
    (rowsAt_floor0 (rowsAt_comb2 (rows0_0 V c t) (rows0_1 V c t) (rows0_3 V c t) _ _ _)) y _ ?_ ?_
  · show win0_6.index t (0 : Fin 2) * 5000 + 1 * (y 0).val = 5000 * t.val + (y 0).val; omega
  · show win0_6.index t (1 : Fin 2) * 128 + 1 * (y 1).val = (y 1).val; omega

/-- Every index of the array is in the block of the point its row names. -/
theorem cover0 (i : S20000x128.Idx) :
    ∃ t : Fin cfg0.N, (cfg0.win 6).flush t = true ∧ i ∈ ((cfg0.win 6).blk t).view.set := by
  have hi0 : (i 0).val < 20000 := (i 0).isLt
  have hi1 : (i 1).val < 128 := (i 1).isLt
  obtain ⟨t, ht⟩ : ∃ t : Fin cfg0.N, t.val = (i 0).val / 5000 :=
    ⟨⟨(i 0).val / 5000, by show (i 0).val / 5000 < 4; omega⟩, rfl⟩
  obtain ⟨e0, e1⟩ := idx0_6 t
  refine ⟨t, flush0_6 t, ?_⟩
  show i ∈ ((View.whole main_v44).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- The array after the region: the whole-array function of the arrays the region found. -/
theorem region0 (c : Dev nD) : (dat0 (F := Ideal) V c).arrAt 6 cfg0.N
    = floor0 (comb2 (V c main_v38) (V c main_v8) (V c main_v40) (V c main_arg7) (V c main_v42) (V c main_v43)) :=
  (dat0 V c).arrAt_eq_of_cover 6 _ (fun t _ => flushed0_eq V c t) cover0

end Cert.Hetero.Regions

end
-- ==== Proof.Region1.lean ====
/-
  The first layer's update of the larger node set, from row blocks to the whole array.

  The grid has 10 points; point `t` works on rows 5000·t … 5000·t + 4999. Its blocks of the neighbour sums, of the
  reciprocal counts and of the own rows are those rows of the arrays they are cut from; the weight matrices and the
  bias row are whole at every point. The body leaves `comb3` of its blocks, floored at zero; that function acts on each row by
  itself, so the block written back at `t` is rows 5000·t … of `comb3` of the whole arrays, floored. The 10 blocks tile
  the 50000 rows (row `r` is in the block of point `r / 5000`), so the array ends holding that function.
-/
import proofs.«150412_j11682311045362_2_alg».proof.Proof.Body
import proofs.«150412_j11682311045362_2_alg».proof.Proof.Gen.KernelIdeal.Frame

noncomputable section

namespace Cert.Hetero.Regions

open Idealize.ShloMosaic Idealize.ShloMosaic.ValueIdx Idealize.ShloMosaic.TcCoe Idealize.SL.Sem
open Idealize.ShloMosaic.Pipeline (Dat)
open Cert.KernelIdeal Cert.KernelIdeal.Gen Cert.Hetero
open Cert.MatProduct (rowOf colOf prod eq_row_col)
open Cert.ScaledRows (scale scaledProd)
open Cert.Bridge (RowsAt)

variable (V : (c : Dev nD) → (b : Ref sig .tc) → Buf (Elt Ideal) ((c : Thread nD τ).loc b))

/-- Window 0 is at block row `t`, block column 0, at every point (decided over the grid). -/
theorem idx1_0 : ∀ t : Fin cfg1.N, win1_0.index t (0 : Fin 2) = t.val ∧ win1_0.index t (1 : Fin 2) = 0 :=
  (by decide +kernel : ∀ t : Fin grid1.N, _)
/-- Window 1 is at block row `t`, block column 0, at every point (decided over the grid). -/
theorem idx1_1 : ∀ t : Fin cfg1.N, win1_1.index t (0 : Fin 2) = t.val ∧ win1_1.index t (1 : Fin 2) = 0 :=
  (by decide +kernel : ∀ t : Fin grid1.N, _)
/-- Window 2 is at block (0, 0), at every point (decided over the grid). -/
theorem idx1_2 : ∀ t : Fin cfg1.N, win1_2.index t (0 : Fin 2) = 0 ∧ win1_2.index t (1 : Fin 2) = 0 :=
  (by decide +kernel : ∀ t : Fin grid1.N, _)
/-- Window 3 is at block row `t`, block column 0, at every point (decided over the grid). -/
theorem idx1_3 : ∀ t : Fin cfg1.N, win1_3.index t (0 : Fin 2) = t.val ∧ win1_3.index t (1 : Fin 2) = 0 :=
  (by decide +kernel : ∀ t : Fin grid1.N, _)
/-- Window 4 is at block row `t`, block column 0, at every point (decided over the grid). -/
theorem idx1_4 : ∀ t : Fin cfg1.N, win1_4.index t (0 : Fin 2) = t.val ∧ win1_4.index t (1 : Fin 2) = 0 :=
  (by decide +kernel : ∀ t : Fin grid1.N, _)
/-- Window 5 is at block (0, 0), at every point (decided over the grid). -/
theorem idx1_5 : ∀ t : Fin cfg1.N, win1_5.index t (0 : Fin 2) = 0 ∧ win1_5.index t (1 : Fin 2) = 0 :=
  (by decide +kernel : ∀ t : Fin grid1.N, _)
/-- Window 6 is at block row `t`, block column 0, at every point (decided over the grid). -/
theorem idx1_6 : ∀ t : Fin cfg1.N, win1_6.index t (0 : Fin 2) = t.val ∧ win1_6.index t (1 : Fin 2) = 0 :=
  (by decide +kernel : ∀ t : Fin grid1.N, _)
/-- Window 7 is at block (0, 0), at every point (decided over the grid). -/
theorem idx1_7 : ∀ t : Fin cfg1.N, win1_7.index t (0 : Fin 2) = 0 ∧ win1_7.index t (1 : Fin 2) = 0 :=
  (by decide +kernel : ∀ t : Fin grid1.N, _)
/-- Window 8 is at block (0, 0), at every point (decided over the grid). -/
theorem idx1_8 : ∀ t : Fin cfg1.N, win1_8.index t (0 : Fin 2) = 0 ∧ win1_8.index t (1 : Fin 2) = 0 :=
  (by decide +kernel : ∀ t : Fin grid1.N, _)
/-- Window 9 is at block row `t`, block column 0, at every point (decided over the grid). -/
theorem idx1_9 : ∀ t : Fin cfg1.N, win1_9.index t (0 : Fin 2) = t.val ∧ win1_9.index t (1 : Fin 2) = 0 :=
  (by decide +kernel : ∀ t : Fin grid1.N, _)

/-- Window 0's block at point `t` is rows 5000·t … of its array. -/
theorem rows1_0 (c : Dev nD) (t : Fin cfg1.N) :
    RowsAt (5000 * t.val) (iblk1 V c 0 t : S5000x128.Idx → EReal) (V c main_v56 : S50000x128.Idx → EReal) := by
  intro p r j e
  obtain ⟨e0, e1⟩ := idx1_0 t
  unfold iblk1
  rw [View.read_apply]
  show V c main_v56 _ = V c main_v56 _
  refine congrArg (V c main_v56) ?_
  funext a
  apply Fin.ext
  match a with
  | ⟨0, _⟩ => show win1_0.index t (0 : Fin 2) * 5000 + 1 * p.val = r.val; omega
  | ⟨1, _⟩ => show win1_0.index t (1 : Fin 2) * 128 + 1 * j.val = j.val; omega

/-- Window 1's block at point `t` is rows 5000·t … of its array. -/
theorem rows1_1 (c : Dev nD) (t : Fin cfg1.N) :
    RowsAt (5000 * t.val) (iblk1 V c 1 t : S5000x1.Idx → EReal) (V c main_v17 : S50000x1.Idx → EReal) := by
  intro p r j e
  obtain ⟨e0, e1⟩ := idx1_1 t
  unfold iblk1
  rw [View.read_apply]
  show V c main_v17 _ = V c main_v17 _
  refine congrArg (V c main_v17) ?_
  funext a
  apply Fin.ext
  match a with
  | ⟨0, _⟩ => show win1_1.index t (0 : Fin 2) * 5000 + 1 * p.val = r.val; omega
  | ⟨1, _⟩ => show win1_1.index t (1 : Fin 2) * 1 + 1 * j.val = j.val; omega

/-- Window 2's block at every point is its whole array. -/
theorem whole1_2 (c : Dev nD) (t : Fin cfg1.N) :
    (iblk1 V c 2 t : S128x128.Idx → EReal) = (V c main_v70 : S128x128.Idx → EReal) := by
  obtain ⟨e0, e1⟩ := idx1_2 t
  funext y
  unfold iblk1
  rw [View.read_apply]
  show V c main_v70 _ = V c main_v70 _
  refine congrArg (V c main_v70) ?_
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block at point `t` is rows 5000·t … of its array. -/
theorem rows1_3 (c : Dev nD) (t : Fin cfg1.N) :
    RowsAt (5000 * t.val) (iblk1 V c 3 t : S5000x128.Idx → EReal) (V c main_v68 : S50000x128.Idx → EReal) := by
  intro p r j e
  obtain ⟨e0, e1⟩ := idx1_3 t
  unfold iblk1
  rw [View.read_apply]
  show V c main_v68 _ = V c main_v68 _
  refine congrArg (V c main_v68) ?_
  funext a
  apply Fin.ext
  match a with
  | ⟨0, _⟩ => show win1_3.index t (0 : Fin 2) * 5000 + 1 * p.val = r.val; omega
  | ⟨1, _⟩ => show win1_3.index t (1 : Fin 2) * 128 + 1 * j.val = j.val; omega

/-- Window 4's block at point `t` is rows 5000·t … of its array. -/
theorem rows1_4 (c : Dev nD) (t : Fin cfg1.N) :
    RowsAt (5000 * t.val) (iblk1 V c 4 t : S5000x1.Idx → EReal) (V c main_v26 : S50000x1.Idx → EReal) := by
  intro p r j e
  obtain ⟨e0, e1⟩ := idx1_4 t
  unfold iblk1
  rw [View.read_apply]
  show V c main_v26 _ = V c main_v26 _
  refine congrArg (V c main_v26) ?_
  funext a
  apply Fin.ext
  match a with
  | ⟨0, _⟩ => show win1_4.index t (0 : Fin 2) * 5000 + 1 * p.val = r.val; omega
  | ⟨1, _⟩ => show win1_4.index t (1 : Fin 2) * 1 + 1 * j.val = j.val; omega

/-- Window 5's block at every point is its whole array. -/
theorem whole1_5 (c : Dev nD) (t : Fin cfg1.N) :
    (iblk1 V c 5 t : S128x128.Idx → EReal) = (V c main_v72 : S128x128.Idx → EReal) := by
  obtain ⟨e0, e1⟩ := idx1_5 t
  funext y
  unfold iblk1
  rw [View.read_apply]
  show V c main_v72 _ = V c main_v72 _
  refine congrArg (V c main_v72) ?_
  funext a
  apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block at point `t` is rows 5000·t … of its array. -/
theorem rows1_6 (c : Dev nD) (t : Fin cfg1.N) :
    RowsAt (5000 * t.val) (iblk1 V c 6 t : S5000x128.Idx → EReal) (V c main_arg6 : S50000x128.Idx → EReal) := by
  intro p r j e
  obtain ⟨e0, e1⟩ := idx1_6 t
  unfold iblk1
  rw [View.read_apply]
  show V c main_arg6 _ = V c main_arg6 _
  refine congrArg (V c main_arg6) ?_
  funext a
  apply Fin.ext
  match a with
  | ⟨0, _⟩ => show win1_6.index t (0 : Fin 2) * 5000 + 1 * p.val = r.val; omega
  | ⟨1, _⟩ => show win1_6.index t (1 : Fin 2) * 128 + 1 * j.val = j.val; omega

/-- Window 7's block at every point is its whole array. -/
theorem whole1_7 (c : Dev nD) (t : Fin cfg1.N) :
    (iblk1 V c 7 t : S128x128.Idx → EReal) = (V c main_v76 : S128x128.Idx → EReal) := by
  obtain ⟨e0, e1⟩ := idx1_7 t
  funext y
  unfold iblk1
  rw [View.read_apply]
  show V c main_v76 _ = V c main_v76 _
  refine congrArg (V c main_v76) ?_
  funext a
  apply Fin.ext
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Window 8's block at every point is its whole array. -/
theorem whole1_8 (c : Dev nD) (t : Fin cfg1.N) :
    (iblk1 V c 8 t : S1x128.Idx → EReal) = (V c main_v78 : S1x128.Idx → EReal) := by
  obtain ⟨e0, e1⟩ := idx1_8 t
  funext y
  unfold iblk1
  rw [View.read_apply]
  show V c main_v78 _ = V c main_v78 _
  refine congrArg (V c main_v78) ?_
  funext a
  apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- What point `t` writes back is block `t` of the whole-array function. -/
theorem flushed1_eq (c : Dev nD) (t : Fin cfg1.N) :
    (dat1 (F := Ideal) V c).flushed 9 t = ((cfg1.win 9).blk t).view.read (Elt Ideal)
      (floor0 (comb3 (V c main_v56) (V c main_v17) (V c main_v70) (V c main_v68) (V c main_v26) (V c main_v72) (V c main_arg6) (V c main_v76) (V c main_v78))) := by
  show (cfg1.win 9).cut (grid1.coords t) ((dat1 V c).after 9 t) = _
  rw [after1_9]
  unfold out1_9
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  rw [pay1, whole1_2 V c t, whole1_5 V c t, whole1_7 V c t, whole1_8 V c t]
  obtain ⟨e0, e1⟩ := idx1_9 t
  funext y
  refine Cert.ScaledRows.rowsAt_read (o := 5000 * t.val)
    (rowsAt_floor0 (rowsAt_comb3 (rows1_0 V c t) (rows1_1 V c t) (rows1_3 V c t) (rows1_4 V c t) (rows1_6 V c t) _ _ _ _)) y _ ?_ ?_
  · show win1_9.index t (0 : Fin 2) * 5000 + 1 * (y 0).val = 5000 * t.val + (y 0).val; omega
  · show win1_9.index t (1 : Fin 2) * 128 + 1 * (y 1).val = (y 1).val; omega

/-- Every index of the array is in the block of the point its row names. -/
theorem cover1 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < 10; omega⟩, rfl⟩
  obtain ⟨e0, e1⟩ := idx1_9 t
  refine ⟨t, flush1_9 t, ?_⟩
  show i ∈ ((View.whole main_v79).slice (win1_9.rect t)).set
  rw [View.set_slice_whole, Rect.mem_set_unit]
  intro a
  match a with
  | ⟨0, _⟩ =>
    show win1_9.index t (0 : Fin 2) * 5000 ≤ (i 0).val ∧ (i 0).val < win1_9.index t (0 : Fin 2) * 5000 + 5000
    omega
  | ⟨1, _⟩ =>
    show win1_9.index t (1 : Fin 2) * 128 ≤ (i 1).val ∧ (i 1).val < win1_9.index t (1 : Fin 2) * 128 + 128
    omega

/-- The array after the region: the whole-array function of the arrays the region found. -/
theorem region1 (c : Dev nD) : (dat1 (F := Ideal) V c).arrAt 9 cfg1.N
    = floor0 (comb3 (V c main_v56) (V c main_v17) (V c main_v70) (V c main_v68) (V c main_v26) (V c main_v72) (V c main_arg6) (V c main_v76) (V c main_v78)) :=
  (dat1 V c).arrAt_eq_of_cover 9 _ (fun t _ => flushed1_eq V c t) cover1

end Cert.Hetero.Regions

end
-- ==== Proof.Region2.lean ====
/-
  The second layer's update of the smaller node set, from row blocks to the whole array.

  The grid has 4 points; point `t` works on rows 5000·t … 5000·t + 4999. Its blocks of the neighbour sums, of the
  reciprocal counts and of the own rows are those rows of the arrays they are cut from; the weight matrices and the
  bias row are whole at every point. The body leaves `comb2` of its blocks; that function acts on each row by
  itself, so the block written back at `t` is rows 5000·t … of `comb2` of the whole arrays. The 4 blocks tile
  the 20000 rows (row `r` is in the block of point `r / 5000`), so the array ends holding that function.
-/
import proofs.«150412_j11682311045362_2_alg».proof.Proof.Body
import proofs.«150412_j11682311045362_2_alg».proof.Proof.Gen.KernelIdeal.Frame

noncomputable section

namespace Cert.Hetero.Regions

open Idealize.ShloMosaic Idealize.ShloMosaic.ValueIdx Idealize.ShloMosaic.TcCoe Idealize.SL.Sem
open Idealize.ShloMosaic.Pipeline (Dat)
open Cert.KernelIdeal Cert.KernelIdeal.Gen Cert.Hetero
open Cert.MatProduct (rowOf colOf prod eq_row_col)
open Cert.ScaledRows (scale scaledProd)
open Cert.Bridge (RowsAt)

variable (V : (c : Dev nD) → (b : Ref sig .tc) → Buf (Elt Ideal) ((c : Thread nD τ).loc b))

/-- Window 0 is at block row `t`, block column 0, at every point (decided over the grid). -/
theorem idx2_0 : ∀ t : Fin cfg2.N, win2_0.index t (0 : Fin 2) = t.val ∧ win2_0.index t (1 : Fin 2) = 0 :=
  (by decide +kernel : ∀ t : Fin grid2.N, _)
/-- Window 1 is at block row `t`, block column 0, at every point (decided over the grid). -/
theorem idx2_1 : ∀ t : Fin cfg2.N, win2_1.index t (0 : Fin 2) = t.val ∧ win2_1.index t (1 : Fin 2) = 0 :=
  (by decide +kernel : ∀ t : Fin grid2.N, _)
/-- Window 2 is at block (0, 0), at every point (decided over the grid). -/
theorem idx2_2 : ∀ t : Fin cfg2.N, win2_2.index t (0 : Fin 2) = 0 ∧ win2_2.index t (1 : Fin 2) = 0 :=
  (by decide +kernel : ∀ t : Fin grid2.N, _)
/-- Window 3 is at block row `t`, block column 0, at every point (decided over the grid). -/
theorem idx2_3 : ∀ t : Fin cfg2.N, win2_3.index t (0 : Fin 2) = t.val ∧ win2_3.index t (1 : Fin 2) = 0 :=
  (by decide +kernel : ∀ t : Fin grid2.N, _)
/-- Window 4 is at block (0, 0), at every point (decided over the grid). -/
theorem idx2_4 : ∀ t : Fin cfg2.N, win2_4.index t (0 : Fin 2) = 0 ∧ win2_4.index t (1 : Fin 2) = 0 :=
  (by decide +kernel : ∀ t : Fin grid2.N, _)
/-- Window 5 is at block (0, 0), at every point (decided over the grid). -/
theorem idx2_5 : ∀ t : Fin cfg2.N, win2_5.index t (0 : Fin 2) = 0 ∧ win2_5.index t (1 : Fin 2) = 0 :=
  (by decide +kernel : ∀ t : Fin grid2.N, _)
/-- Window 6 is at block row `t`, block column 0, at every point (decided over the grid). -/
theorem idx2_6 : ∀ t : Fin cfg2.N, win2_6.index t (0 : Fin 2) = t.val ∧ win2_6.index t (1 : Fin 2) = 0 :=
  (by decide +kernel : ∀ t : Fin grid2.N, _)

/-- Window 0's block at point `t` is rows 5000·t … of its array. -/
theorem rows2_0 (c : Dev nD) (t : Fin cfg2.N) :
    RowsAt (5000 * t.val) (iblk2 V c 0 t : S5000x128.Idx → EReal) (V c main_v91 : S20000x128.Idx → EReal) := by
  intro p r j e
  obtain ⟨e0, e1⟩ := idx2_0 t
  unfold iblk2
  rw [View.read_apply]
  show V c main_v91 _ = V c main_v91 _
  refine congrArg (V c main_v91) ?_
  funext a
  apply Fin.ext
  match a with
  | ⟨0, _⟩ => show win2_0.index t (0 : Fin 2) * 5000 + 1 * p.val = r.val; omega
  | ⟨1, _⟩ => show win2_0.index t (1 : Fin 2) * 128 + 1 * j.val = j.val; omega

/-- Window 1's block at point `t` is rows 5000·t … of its array. -/
theorem rows2_1 (c : Dev nD) (t : Fin cfg2.N) :
    RowsAt (5000 * t.val) (iblk2 V c 1 t : S5000x1.Idx → EReal) (V c main_v8 : S20000x1.Idx → EReal) := by
  intro p r j e
  obtain ⟨e0, e1⟩ := idx2_1 t
  unfold iblk2
  rw [View.read_apply]
  show V c main_v8 _ = V c main_v8 _
  refine congrArg (V c main_v8) ?_
  funext a
  apply Fin.ext
  match a with
  | ⟨0, _⟩ => show win2_1.index t (0 : Fin 2) * 5000 + 1 * p.val = r.val; omega
  | ⟨1, _⟩ => show win2_1.index t (1 : Fin 2) * 1 + 1 * j.val = j.val; omega

/-- Window 2's block at every point is its whole array. -/
theorem whole2_2 (c : Dev nD) (t : Fin cfg2.N) :
    (iblk2 V c 2 t : S128x128.Idx → EReal) = (V c main_v93 : S128x128.Idx → EReal) := by
  obtain ⟨e0, e1⟩ := idx2_2 t
  funext y
  unfold iblk2
  rw [View.read_apply]
  show V c main_v93 _ = V c main_v93 _
  refine congrArg (V c main_v93) ?_
  funext a
  apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block at point `t` is rows 5000·t … of its array. -/
theorem rows2_3 (c : Dev nD) (t : Fin cfg2.N) :
    RowsAt (5000 * t.val) (iblk2 V c 3 t : S5000x128.Idx → EReal) (V c main_v44 : S20000x128.Idx → EReal) := by
  intro p r j e
  obtain ⟨e0, e1⟩ := idx2_3 t
  unfold iblk2
  rw [View.read_apply]
  show V c main_v44 _ = V c main_v44 _
  refine congrArg (V c main_v44) ?_
  funext a
  apply Fin.ext
  match a with
  | ⟨0, _⟩ => show win2_3.index t (0 : Fin 2) * 5000 + 1 * p.val = r.val; omega
  | ⟨1, _⟩ => show win2_3.index t (1 : Fin 2) * 128 + 1 * j.val = j.val; omega

/-- Window 4's block at every point is its whole array. -/
theorem whole2_4 (c : Dev nD) (t : Fin cfg2.N) :
    (iblk2 V c 4 t : S128x128.Idx → EReal) = (V c main_v95 : S128x128.Idx → EReal) := by
  obtain ⟨e0, e1⟩ := idx2_4 t
  funext y
  unfold iblk2
  rw [View.read_apply]
  show V c main_v95 _ = V c main_v95 _
  refine congrArg (V c main_v95) ?_
  funext a
  apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block at every point is its whole array. -/
theorem whole2_5 (c : Dev nD) (t : Fin cfg2.N) :
    (iblk2 V c 5 t : S1x128.Idx → EReal) = (V c main_v96 : S1x128.Idx → EReal) := by
  obtain ⟨e0, e1⟩ := idx2_5 t
  funext y
  unfold iblk2
  rw [View.read_apply]
  show V c main_v96 _ = V c main_v96 _
  refine congrArg (V c main_v96) ?_
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- What point `t` writes back is block `t` of the whole-array function. -/
theorem flushed2_eq (c : Dev nD) (t : Fin cfg2.N) :
    (dat2 (F := Ideal) V c).flushed 6 t = ((cfg2.win 6).blk t).view.read (Elt Ideal)
      (comb2 (V c main_v91) (V c main_v8) (V c main_v93) (V c main_v44) (V c main_v95) (V c main_v96)) := by
  show (cfg2.win 6).cut (grid2.coords t) ((dat2 V c).after 6 t) = _
  rw [after2_6]
  unfold out2_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  rw [pay2, whole2_2 V c t, whole2_4 V c t, whole2_5 V c t]
  obtain ⟨e0, e1⟩ := idx2_6 t
  funext y
  refine Cert.ScaledRows.rowsAt_read (o := 5000 * t.val)
    (rowsAt_comb2 (rows2_0 V c t) (rows2_1 V c t) (rows2_3 V c t) _ _ _) y _ ?_ ?_
  · show win2_6.index t (0 : Fin 2) * 5000 + 1 * (y 0).val = 5000 * t.val + (y 0).val; omega
  · show win2_6.index t (1 : Fin 2) * 128 + 1 * (y 1).val = (y 1).val; omega

/-- Every index of the array is in the block of the point its row names. -/
theorem cover2 (i : S20000x128.Idx) :
    ∃ t : Fin cfg2.N, (cfg2.win 6).flush t = true ∧ i ∈ ((cfg2.win 6).blk t).view.set := by
  have hi0 : (i 0).val < 20000 := (i 0).isLt
  have hi1 : (i 1).val < 128 := (i 1).isLt
  obtain ⟨t, ht⟩ : ∃ t : Fin cfg2.N, t.val = (i 0).val / 5000 :=
    ⟨⟨(i 0).val / 5000, by show (i 0).val / 5000 < 4; omega⟩, rfl⟩
  obtain ⟨e0, e1⟩ := idx2_6 t
  refine ⟨t, flush2_6 t, ?_⟩
  show i ∈ ((View.whole main_v97).slice (win2_6.rect t)).set
  rw [View.set_slice_whole, Rect.mem_set_unit]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- The array after the region: the whole-array function of the arrays the region found. -/
theorem region2 (c : Dev nD) : (dat2 (F := Ideal) V c).arrAt 6 cfg2.N
    = comb2 (V c main_v91) (V c main_v8) (V c main_v93) (V c main_v44) (V c main_v95) (V c main_v96) :=
  (dat2 V c).arrAt_eq_of_cover 6 _ (fun t _ => flushed2_eq V c t) cover2

end Cert.Hetero.Regions

end
-- ==== Proof.Region3.lean ====
/-
  The second layer's update of the larger node set, from row blocks to the whole array.

  The grid has 10 points; point `t` works on rows 5000·t … 5000·t + 4999. Its blocks of the neighbour sums, of the
  reciprocal counts and of the own rows are those rows of the arrays they are cut from; the weight matrices and the
  bias row are whole at every point. The body leaves `comb3` of its blocks; that function acts on each row by
  itself, so the block written back at `t` is rows 5000·t … of `comb3` of the whole arrays. The 10 blocks tile
  the 50000 rows (row `r` is in the block of point `r / 5000`), so the array ends holding that function.
-/
import proofs.«150412_j11682311045362_2_alg».proof.Proof.Body
import proofs.«150412_j11682311045362_2_alg».proof.Proof.Gen.KernelIdeal.Frame

noncomputable section

namespace Cert.Hetero.Regions

open Idealize.ShloMosaic Idealize.ShloMosaic.ValueIdx Idealize.ShloMosaic.TcCoe Idealize.SL.Sem
open Idealize.ShloMosaic.Pipeline (Dat)
open Cert.KernelIdeal Cert.KernelIdeal.Gen Cert.Hetero
open Cert.MatProduct (rowOf colOf prod eq_row_col)
open Cert.ScaledRows (scale scaledProd)
open Cert.Bridge (RowsAt)

variable (V : (c : Dev nD) → (b : Ref sig .tc) → Buf (Elt Ideal) ((c : Thread nD τ).loc b))

/-- Window 0 is at block row `t`, block column 0, at every point (decided over the grid). -/
theorem idx3_0 : ∀ t : Fin cfg3.N, win3_0.index t (0 : Fin 2) = t.val ∧ win3_0.index t (1 : Fin 2) = 0 :=
  (by decide +kernel : ∀ t : Fin grid3.N, _)
/-- Window 1 is at block row `t`, block column 0, at every point (decided over the grid). -/
theorem idx3_1 : ∀ t : Fin cfg3.N, win3_1.index t (0 : Fin 2) = t.val ∧ win3_1.index t (1 : Fin 2) = 0 :=
  (by decide +kernel : ∀ t : Fin grid3.N, _)
/-- Window 2 is at block (0, 0), at every point (decided over the grid). -/
theorem idx3_2 : ∀ t : Fin cfg3.N, win3_2.index t (0 : Fin 2) = 0 ∧ win3_2.index t (1 : Fin 2) = 0 :=
  (by decide +kernel : ∀ t : Fin grid3.N, _)
/-- Window 3 is at block row `t`, block column 0, at every point (decided over the grid). -/
theorem idx3_3 : ∀ t : Fin cfg3.N, win3_3.index t (0 : Fin 2) = t.val ∧ win3_3.index t (1 : Fin 2) = 0 :=
  (by decide +kernel : ∀ t : Fin grid3.N, _)
/-- Window 4 is at block row `t`, block column 0, at every point (decided over the grid). -/
theorem idx3_4 : ∀ t : Fin cfg3.N, win3_4.index t (0 : Fin 2) = t.val ∧ win3_4.index t (1 : Fin 2) = 0 :=
  (by decide +kernel : ∀ t : Fin grid3.N, _)
/-- Window 5 is at block (0, 0), at every point (decided over the grid). -/
theorem idx3_5 : ∀ t : Fin cfg3.N, win3_5.index t (0 : Fin 2) = 0 ∧ win3_5.index t (1 : Fin 2) = 0 :=
  (by decide +kernel : ∀ t : Fin grid3.N, _)
/-- Window 6 is at block row `t`, block column 0, at every point (decided over the grid). -/
theorem idx3_6 : ∀ t : Fin cfg3.N, win3_6.index t (0 : Fin 2) = t.val ∧ win3_6.index t (1 : Fin 2) = 0 :=
  (by decide +kernel : ∀ t : Fin grid3.N, _)
/-- Window 7 is at block (0, 0), at every point (decided over the grid). -/
theorem idx3_7 : ∀ t : Fin cfg3.N, win3_7.index t (0 : Fin 2) = 0 ∧ win3_7.index t (1 : Fin 2) = 0 :=
  (by decide +kernel : ∀ t : Fin grid3.N, _)
/-- Window 8 is at block (0, 0), at every point (decided over the grid). -/
theorem idx3_8 : ∀ t : Fin cfg3.N, win3_8.index t (0 : Fin 2) = 0 ∧ win3_8.index t (1 : Fin 2) = 0 :=
  (by decide +kernel : ∀ t : Fin grid3.N, _)
/-- Window 9 is at block row `t`, block column 0, at every point (decided over the grid). -/
theorem idx3_9 : ∀ t : Fin cfg3.N, win3_9.index t (0 : Fin 2) = t.val ∧ win3_9.index t (1 : Fin 2) = 0 :=
  (by decide +kernel : ∀ t : Fin grid3.N, _)

/-- Window 0's block at point `t` is rows 5000·t … of its array. -/
theorem rows3_0 (c : Dev nD) (t : Fin cfg3.N) :
    RowsAt (5000 * t.val) (iblk3 V c 0 t : S5000x128.Idx → EReal) (V c main_v109 : S50000x128.Idx → EReal) := by
  intro p r j e
  obtain ⟨e0, e1⟩ := idx3_0 t
  unfold iblk3
  rw [View.read_apply]
  show V c main_v109 _ = V c main_v109 _
  refine congrArg (V c main_v109) ?_
  funext a
  apply Fin.ext
  match a with
  | ⟨0, _⟩ => show win3_0.index t (0 : Fin 2) * 5000 + 1 * p.val = r.val; omega
  | ⟨1, _⟩ => show win3_0.index t (1 : Fin 2) * 128 + 1 * j.val = j.val; omega

/-- Window 1's block at point `t` is rows 5000·t … of its array. -/
theorem rows3_1 (c : Dev nD) (t : Fin cfg3.N) :
    RowsAt (5000 * t.val) (iblk3 V c 1 t : S5000x1.Idx → EReal) (V c main_v17 : S50000x1.Idx → EReal) := by
  intro p r j e
  obtain ⟨e0, e1⟩ := idx3_1 t
  unfold iblk3
  rw [View.read_apply]
  show V c main_v17 _ = V c main_v17 _
  refine congrArg (V c main_v17) ?_
  funext a
  apply Fin.ext
  match a with
  | ⟨0, _⟩ => show win3_1.index t (0 : Fin 2) * 5000 + 1 * p.val = r.val; omega
  | ⟨1, _⟩ => show win3_1.index t (1 : Fin 2) * 1 + 1 * j.val = j.val; omega

/-- Window 2's block at every point is its whole array. -/
theorem whole3_2 (c : Dev nD) (t : Fin cfg3.N) :
    (iblk3 V c 2 t : S128x128.Idx → EReal) = (V c main_v123 : S128x128.Idx → EReal) := by
  obtain ⟨e0, e1⟩ := idx3_2 t
  funext y
  unfold iblk3
  rw [View.read_apply]
  show V c main_v123 _ = V c main_v123 _
  refine congrArg (V c main_v123) ?_
  funext a
  apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Window 3's block at point `t` is rows 5000·t … of its array. -/
theorem rows3_3 (c : Dev nD) (t : Fin cfg3.N) :
    RowsAt (5000 * t.val) (iblk3 V c 3 t : S5000x128.Idx → EReal) (V c main_v121 : S50000x128.Idx → EReal) := by
  intro p r j e
  obtain ⟨e0, e1⟩ := idx3_3 t
  unfold iblk3
  rw [View.read_apply]
  show V c main_v121 _ = V c main_v121 _
  refine congrArg (V c main_v121) ?_
  funext a
  apply Fin.ext
  match a with
  | ⟨0, _⟩ => show win3_3.index t (0 : Fin 2) * 5000 + 1 * p.val = r.val; omega
  | ⟨1, _⟩ => show win3_3.index t (1 : Fin 2) * 128 + 1 * j.val = j.val; omega

/-- Window 4's block at point `t` is rows 5000·t … of its array. -/
theorem rows3_4 (c : Dev nD) (t : Fin cfg3.N) :
    RowsAt (5000 * t.val) (iblk3 V c 4 t : S5000x1.Idx → EReal) (V c main_v26 : S50000x1.Idx → EReal) := by
  intro p r j e
  obtain ⟨e0, e1⟩ := idx3_4 t
  unfold iblk3
  rw [View.read_apply]
  show V c main_v26 _ = V c main_v26 _
  refine congrArg (V c main_v26) ?_
  funext a
  apply Fin.ext
  match a with
  | ⟨0, _⟩ => show win3_4.index t (0 : Fin 2) * 5000 + 1 * p.val = r.val; omega
  | ⟨1, _⟩ => show win3_4.index t (1 : Fin 2) * 1 + 1 * j.val = j.val; omega

/-- Window 5's block at every point is its whole array. -/
theorem whole3_5 (c : Dev nD) (t : Fin cfg3.N) :
    (iblk3 V c 5 t : S128x128.Idx → EReal) = (V c main_v125 : S128x128.Idx → EReal) := by
  obtain ⟨e0, e1⟩ := idx3_5 t
  funext y
  unfold iblk3
  rw [View.read_apply]
  show V c main_v125 _ = V c main_v125 _
  refine congrArg (V c main_v125) ?_
  funext a
  apply Fin.ext
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- Window 6's block at point `t` is rows 5000·t … of its array. -/
theorem rows3_6 (c : Dev nD) (t : Fin cfg3.N) :
    RowsAt (5000 * t.val) (iblk3 V c 6 t : S5000x128.Idx → EReal) (V c main_v79 : S50000x128.Idx → EReal) := by
  intro p r j e
  obtain ⟨e0, e1⟩ := idx3_6 t
  unfold iblk3
  rw [View.read_apply]
  show V c main_v79 _ = V c main_v79 _
  refine congrArg (V c main_v79) ?_
  funext a
  apply Fin.ext
  match a with
  | ⟨0, _⟩ => show win3_6.index t (0 : Fin 2) * 5000 + 1 * p.val = r.val; omega
  | ⟨1, _⟩ => show win3_6.index t (1 : Fin 2) * 128 + 1 * j.val = j.val; omega

/-- Window 7's block at every point is its whole array. -/
theorem whole3_7 (c : Dev nD) (t : Fin cfg3.N) :
    (iblk3 V c 7 t : S128x128.Idx → EReal) = (V c main_v129 : S128x128.Idx → EReal) := by
  obtain ⟨e0, e1⟩ := idx3_7 t
  funext y
  unfold iblk3
  rw [View.read_apply]
  show V c main_v129 _ = V c main_v129 _
  refine congrArg (V c main_v129) ?_
  funext a
  apply Fin.ext
  match a with
  | ⟨0, _⟩ => show win3_7.index t (0 : Fin 2) * 128 + 1 * (y 0).val = (y 0).val; omega
  | ⟨1, _⟩ => show win3_7.index t (1 : Fin 2) * 128 + 1 * (y 1).val = (y 1).val; omega

/-- Window 8's block at every point is its whole array. -/
theorem whole3_8 (c : Dev nD) (t : Fin cfg3.N) :
    (iblk3 V c 8 t : S1x128.Idx → EReal) = (V c main_v131 : S1x128.Idx → EReal) := by
  obtain ⟨e0, e1⟩ := idx3_8 t
  funext y
  unfold iblk3
  rw [View.read_apply]
  show V c main_v131 _ = V c main_v131 _
  refine congrArg (V c main_v131) ?_
  funext a
  apply Fin.ext
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- What point `t` writes back is block `t` of the whole-array function. -/
theorem flushed3_eq (c : Dev nD) (t : Fin cfg3.N) :
    (dat3 (F := Ideal) V c).flushed 9 t = ((cfg3.win 9).blk t).view.read (Elt Ideal)
      (comb3 (V c main_v109) (V c main_v17) (V c main_v123) (V c main_v121) (V c main_v26) (V c main_v125) (V c main_v79) (V c main_v129) (V c main_v131)) := by
  show (cfg3.win 9).cut (grid3.coords t) ((dat3 V c).after 9 t) = _
  rw [after3_9]
  unfold out3_9
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  rw [pay3, whole3_2 V c t, whole3_5 V c t, whole3_7 V c t, whole3_8 V c t]
  obtain ⟨e0, e1⟩ := idx3_9 t
  funext y
  refine Cert.ScaledRows.rowsAt_read (o := 5000 * t.val)
    (rowsAt_comb3 (rows3_0 V c t) (rows3_1 V c t) (rows3_3 V c t) (rows3_4 V c t) (rows3_6 V c t) _ _ _ _) y _ ?_ ?_
  · show win3_9.index t (0 : Fin 2) * 5000 + 1 * (y 0).val = 5000 * t.val + (y 0).val; omega
  · show win3_9.index t (1 : Fin 2) * 128 + 1 * (y 1).val = (y 1).val; omega

/-- Every index of the array is in the block of the point its row names. -/
theorem cover3 (i : S50000x128.Idx) :
    ∃ t : Fin cfg3.N, (cfg3.win 9).flush t = true ∧ i ∈ ((cfg3.win 9).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show (i 0).val / 5000 < 10; omega⟩, rfl⟩
  obtain ⟨e0, e1⟩ := idx3_9 t
  refine ⟨t, flush3_9 t, ?_⟩
  show i ∈ ((View.whole main_v132).slice (win3_9.rect t)).set
  rw [View.set_slice_whole, Rect.mem_set_unit]
  intro a
  match a with
  | ⟨0, _⟩ =>
    show win3_9.index t (0 : Fin 2) * 5000 ≤ (i 0).val ∧ (i 0).val < win3_9.index t (0 : Fin 2) * 5000 + 5000
    omega
  | ⟨1, _⟩ =>
    show win3_9.index t (1 : Fin 2) * 128 ≤ (i 1).val ∧ (i 1).val < win3_9.index t (1 : Fin 2) * 128 + 128
    omega

/-- The array after the region: the whole-array function of the arrays the region found. -/
theorem region3 (c : Dev nD) : (dat3 (F := Ideal) V c).arrAt 9 cfg3.N
    = comb3 (V c main_v109) (V c main_v17) (V c main_v123) (V c main_v121) (V c main_v26) (V c main_v125) (V c main_v79) (V c main_v129) (V c main_v131) :=
  (dat3 V c).arrAt_eq_of_cover 9 _ (fun t _ => flushed3_eq V c t) cover3

end Cert.Hetero.Regions

end
-- ==== Proof.RegionFinals.lean ====
/-
  The four regions' output arrays after their grids, each as one whole-array function of the arrays the region
  finds: the first layer's two updates floored at zero, the second layer's two not.
-/
import proofs.«150412_j11682311045362_2_alg».proof.Proof.Region0
import proofs.«150412_j11682311045362_2_alg».proof.Proof.Region1
import proofs.«150412_j11682311045362_2_alg».proof.Proof.Region2
import proofs.«150412_j11682311045362_2_alg».proof.Proof.Region3

noncomputable section

namespace Cert.Hetero.Regions

open Cert.KernelIdeal Cert.KernelIdeal.Gen Cert.Hetero Idealize.ShloMosaic Idealize.ShloMosaic.TcCoe Idealize.SL.Sem

variable (V : (c : Dev nD) → (b : Ref sig .tc) → Buf (Elt Ideal) ((c : Thread nD τ).loc b))

/-- The first layer's update of the smaller node set. -/
theorem final0 (c : Dev nD) : (dat0 (F := Ideal) V c).arrAt 6 cfg0.N = floor0 (comb2 (V c main_v38) (V c main_v8) (V c main_v40) (V c main_arg7) (V c main_v42) (V c main_v43)) :=
  region0 V c

/-- The first layer's update of the larger node set. -/
theorem final1 (c : Dev nD) : (dat1 (F := Ideal) V c).arrAt 9 cfg1.N = floor0 (comb3 (V c main_v56) (V c main_v17) (V c main_v70) (V c main_v68) (V c main_v26) (V c main_v72) (V c main_arg6) (V c main_v76) (V c main_v78)) :=
  region1 V c

/-- The second layer's update of the smaller node set. -/
theorem final2 (c : Dev nD) : (dat2 (F := Ideal) V c).arrAt 6 cfg2.N = comb2 (V c main_v91) (V c main_v8) (V c main_v93) (V c main_v44) (V c main_v95) (V c main_v96) :=
  region2 V c

/-- The second layer's update of the larger node set. -/
theorem final3 (c : Dev nD) : (dat3 (F := Ideal) V c).arrAt 9 cfg3.N = comb3 (V c main_v109) (V c main_v17) (V c main_v123) (V c main_v121) (V c main_v26) (V c main_v125) (V c main_v79) (V c main_v129) (V c main_v131) :=
  region3 V c

end Cert.Hetero.Regions

end
-- ==== Proof.Boundary0.lean ====
/-
  The kernel program's buffers at the boundaries between its segments, as functions of the launch memory: the first
  stretch of host operations and the first region (trait rows, layer 1).

  A buffer that a segment does not write keeps its contents across it: a host stretch writes only its operations'
  result buffers, a pipelined region only its output array (an input window's array ends as it was entered). Each
  region's input arrays are read off the stretch before it; its output array is the layer function of those.
-/
import proofs.«150412_j11682311045362_2_alg».proof.Proof.Gen.KernelIdeal.Frame
import proofs.«150412_j11682311045362_2_alg».proof.Proof.RegionFinals
import proofs.«150412_j11682311045362_2_alg».proof.Proof.KerPieces

set_option maxRecDepth 16384

noncomputable section

namespace Cert.Hetero.Ker

open Cert.KernelIdeal Cert.KernelIdeal.Facts₀ Cert.KernelIdeal.Gen Cert.Hetero Cert.Hetero.Regions
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer no operation of the stretch writes keeps its contents. -/
local macro "hpass " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Narrowing a float array is the identity on the extended reals. -/
theorem truncf_id {S : Shape} (x : F32 S) (h : FTy.bf16.bits < FTy.f32.bits) :
    (truncf (F := Ideal) .bf16 x h : (⟨S, .bf16⟩ : BufTy).Contents (Elt Ideal)) = x := rfl
/-- Widening it back is the identity too. -/
theorem extf_id {S : Shape} (x : (⟨S, .bf16⟩ : BufTy).Contents (Elt Ideal)) (h : FTy.bf16.bits < FTy.f32.bits) :
    (extf (F := Ideal) .f32 x h : F32 S) = x := rfl

/-! ## The first stretch and the first region (trait rows, layer 1) -/

theorem in0_0 : V1 m ρ c main_v38 = aggGT (m ((c : Thread nD τ).loc main_arg6)) (m ((c : Thread nD τ).loc main_arg0)) (m ((c : Thread nD τ).loc main_arg1)) := by
  show StableHlo.after (hostOps0 (F := Ideal)) (W0 m ρ c) (Proc.devRef .tc main_v38) = _
  after_results_simp
  all_goals (try simp only [extf_id, truncf_id])
  all_goals rfl

theorem in0_1 : V1 m ρ c main_v8 = invT (cntT (m ((c : Thread nD τ).loc main_arg1))) := by
  show StableHlo.after (hostOps0 (F := Ideal)) (W0 m ρ c) (Proc.devRef .tc main_v8) = _
  after_results_simp
  all_goals (try simp only [extf_id, truncf_id])
  all_goals rfl

theorem in0_2 : V1 m ρ c main_v40 = tr (m ((c : Thread nD τ).loc main_arg8)) := by
  show StableHlo.after (hostOps0 (F := Ideal)) (W0 m ρ c) (Proc.devRef .tc main_v40) = _
  after_results_simp
  all_goals (try simp only [extf_id, truncf_id])
  all_goals rfl

theorem in0_3 : V1 m ρ c main_arg7 = (m ((c : Thread nD τ).loc main_arg7)) := by
  show StableHlo.after (hostOps0 (F := Ideal)) (W0 m ρ c) (Proc.devRef .tc main_arg7) = _
  after_results_simp
  all_goals (try simp only [extf_id, truncf_id])
  all_goals rfl

theorem in0_4 : V1 m ρ c main_v42 = tr (m ((c : Thread nD τ).loc main_arg10)) := by
  show StableHlo.after (hostOps0 (F := Ideal)) (W0 m ρ c) (Proc.devRef .tc main_v42) = _
  after_results_simp
  all_goals (try simp only [extf_id, truncf_id])
  all_goals rfl

theorem in0_5 : V1 m ρ c main_v43 = row (m ((c : Thread nD τ).loc main_arg9)) := by
  show StableHlo.after (hostOps0 (F := Ideal)) (W0 m ρ c) (Proc.devRef .tc main_v43) = _
  after_results_simp
  all_goals (try simp only [extf_id, truncf_id])
  all_goals rfl

/-- Layer 1, trait rows, as the kernel computes it. -/
def h1T : F32 S20000x128 :=
  floor0 (comb2 (aggGT (m ((c : Thread nD τ).loc main_arg6)) (m ((c : Thread nD τ).loc main_arg0)) (m ((c : Thread nD τ).loc main_arg1))) (invT (cntT (m ((c : Thread nD τ).loc main_arg1)))) (tr (m ((c : Thread nD τ).loc main_arg8))) (m ((c : Thread nD τ).loc main_arg7)) (tr (m ((c : Thread nD τ).loc main_arg10))) (row (m ((c : Thread nD τ).loc main_arg9))))

theorem W2_v44 : W2 m ρ c (Proc.devRef .tc main_v44) = h1T m c := by
  refine (W2_arr m ρ c 6).trans ((final0 (V1 m ρ) c).trans ?_)
  rw [in0_0 m ρ c, in0_1 m ρ c, in0_2 m ρ c, in0_3 m ρ c, in0_4 m ρ c, in0_5 m ρ c]
  all_goals (try simp only [extf_id, truncf_id])
  all_goals rfl

end Cert.Hetero.Ker

end
-- ==== Proof.Boundary1.lean ====
/- The second stretch and the second region (gene rows, layer 1): the argument arrays are still as launched, the
   reciprocal-count columns computed in the first stretch are still there. -/
import proofs.«150412_j11682311045362_2_alg».proof.Proof.Gen.KernelIdeal.Frame
import proofs.«150412_j11682311045362_2_alg».proof.Proof.RegionFinals
import proofs.«150412_j11682311045362_2_alg».proof.Proof.KerPieces
import proofs.«150412_j11682311045362_2_alg».proof.Proof.Boundary0

set_option maxRecDepth 16384

noncomputable section

namespace Cert.Hetero.Ker

open Cert.KernelIdeal Cert.KernelIdeal.Facts₀ Cert.KernelIdeal.Gen Cert.Hetero Cert.Hetero.Regions
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer no operation of the stretch writes keeps its contents. -/
local macro "hpass " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The second stretch and the second region (gene rows, layer 1) -/

theorem W2_a2 : W2 m ρ c (Proc.devRef .tc main_arg2) = (m ((c : Thread nD τ).loc main_arg2)) :=
  calc W2 m ρ c (Proc.devRef .tc main_arg2)
    _ = W1 m ρ c (Proc.devRef .tc main_arg2) := W2_of_ne m ρ c main_arg2 (by decide)
    _ = W0 m ρ c (Proc.devRef .tc main_arg2) := by hpass hostOps0
    _ = (m ((c : Thread nD τ).loc main_arg2)) := rfl

theorem W2_a3 : W2 m ρ c (Proc.devRef .tc main_arg3) = (m ((c : Thread nD τ).loc main_arg3)) :=
  calc W2 m ρ c (Proc.devRef .tc main_arg3)
    _ = W1 m ρ c (Proc.devRef .tc main_arg3) := W2_of_ne m ρ c main_arg3 (by decide)
    _ = W0 m ρ c (Proc.devRef .tc main_arg3) := by hpass hostOps0
    _ = (m ((c : Thread nD τ).loc main_arg3)) := rfl

theorem W2_a4 : W2 m ρ c (Proc.devRef .tc main_arg4) = (m ((c : Thread nD τ).loc main_arg4)) :=
  calc W2 m ρ c (Proc.devRef .tc main_arg4)
    _ = W1 m ρ c (Proc.devRef .tc main_arg4) := W2_of_ne m ρ c main_arg4 (by decide)
    _ = W0 m ρ c (Proc.devRef .tc main_arg4) := by hpass hostOps0
    _ = (m ((c : Thread nD τ).loc main_arg4)) := rfl

theorem W2_a5 : W2 m ρ c (Proc.devRef .tc main_arg5) = (m ((c : Thread nD τ).loc main_arg5)) :=
  calc W2 m ρ c (Proc.devRef .tc main_arg5)
    _ = W1 m ρ c (Proc.devRef .tc main_arg5) := W2_of_ne m ρ c main_arg5 (by decide)
    _ = W0 m ρ c (Proc.devRef .tc main_arg5) := by hpass hostOps0
    _ = (m ((c : Thread nD τ).loc main_arg5)) := rfl

theorem W2_a6 : W2 m ρ c (Proc.devRef .tc main_arg6) = (m ((c : Thread nD τ).loc main_arg6)) :=
  calc W2 m ρ c (Proc.devRef .tc main_arg6)
    _ = W1 m ρ c (Proc.devRef .tc main_arg6) := W2_of_ne m ρ c main_arg6 (by decide)
    _ = W0 m ρ c (Proc.devRef .tc main_arg6) := by hpass hostOps0
    _ = (m ((c : Thread nD τ).loc main_arg6)) := rfl

theorem W2_a7 : W2 m ρ c (Proc.devRef .tc main_arg7) = (m ((c : Thread nD τ).loc main_arg7)) :=
  calc W2 m ρ c (Proc.devRef .tc main_arg7)
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := by hpass hostOps0
    _ = (m ((c : Thread nD τ).loc main_arg7)) := rfl

theorem W2_a11 : W2 m ρ c (Proc.devRef .tc main_arg11) = (m ((c : Thread nD τ).loc main_arg11)) :=
  calc W2 m ρ c (Proc.devRef .tc main_arg11)
    _ = W1 m ρ c (Proc.devRef .tc main_arg11) := W2_of_ne m ρ c main_arg11 (by decide)
    _ = W0 m ρ c (Proc.devRef .tc main_arg11) := by hpass hostOps0
    _ = (m ((c : Thread nD τ).loc main_arg11)) := rfl

theorem W2_a12 : W2 m ρ c (Proc.devRef .tc main_arg12) = (m ((c : Thread nD τ).loc main_arg12)) :=
  calc W2 m ρ c (Proc.devRef .tc main_arg12)
    _ = W1 m ρ c (Proc.devRef .tc main_arg12) := W2_of_ne m ρ c main_arg12 (by decide)
    _ = W0 m ρ c (Proc.devRef .tc main_arg12) := by hpass hostOps0
    _ = (m ((c : Thread nD τ).loc main_arg12)) := rfl

theorem W2_a13 : W2 m ρ c (Proc.devRef .tc main_arg13) = (m ((c : Thread nD τ).loc main_arg13)) :=
  calc W2 m ρ c (Proc.devRef .tc main_arg13)
    _ = W1 m ρ c (Proc.devRef .tc main_arg13) := W2_of_ne m ρ c main_arg13 (by decide)
    _ = W0 m ρ c (Proc.devRef .tc main_arg13) := by hpass hostOps0
    _ = (m ((c : Thread nD τ).loc main_arg13)) := rfl

theorem W2_a14 : W2 m ρ c (Proc.devRef .tc main_arg14) = (m ((c : Thread nD τ).loc main_arg14)) :=
  calc W2 m ρ c (Proc.devRef .tc main_arg14)
    _ = W1 m ρ c (Proc.devRef .tc main_arg14) := W2_of_ne m ρ c main_arg14 (by decide)
    _ = W0 m ρ c (Proc.devRef .tc main_arg14) := by hpass hostOps0
    _ = (m ((c : Thread nD τ).loc main_arg14)) := rfl

theorem W2_a15 : W2 m ρ c (Proc.devRef .tc main_arg15) = (m ((c : Thread nD τ).loc main_arg15)) :=
  calc W2 m ρ c (Proc.devRef .tc main_arg15)
    _ = W1 m ρ c (Proc.devRef .tc main_arg15) := W2_of_ne m ρ c main_arg15 (by decide)
    _ = W0 m ρ c (Proc.devRef .tc main_arg15) := by hpass hostOps0
    _ = (m ((c : Thread nD τ).loc main_arg15)) := rfl

theorem W2_a16 : W2 m ρ c (Proc.devRef .tc main_arg16) = (m ((c : Thread nD τ).loc main_arg16)) :=
  calc W2 m ρ c (Proc.devRef .tc main_arg16)
    _ = W1 m ρ c (Proc.devRef .tc main_arg16) := W2_of_ne m ρ c main_arg16 (by decide)
    _ = W0 m ρ c (Proc.devRef .tc main_arg16) := by hpass hostOps0
    _ = (m ((c : Thread nD τ).loc main_arg16)) := rfl

theorem W2_v17 : W2 m ρ c (Proc.devRef .tc main_v17) = invG (cntG1 (m ((c : Thread nD τ).loc main_arg3))) :=
  calc W2 m ρ c (Proc.devRef .tc main_v17)
    _ = W1 m ρ c (Proc.devRef .tc main_v17) := W2_of_ne m ρ c main_v17 (by decide)
    _ = invG (cntG1 (m ((c : Thread nD τ).loc main_arg3))) := by
          show StableHlo.after (hostOps0 (F := Ideal)) (W0 m ρ c) (Proc.devRef .tc main_v17) = _
          after_results_simp
          try simp only [extf_id, truncf_id]
          rfl

theorem W2_v26 : W2 m ρ c (Proc.devRef .tc main_v26) = invG (cntG2 (m ((c : Thread nD τ).loc main_arg5))) :=
  calc W2 m ρ c (Proc.devRef .tc main_v26)
    _ = W1 m ρ c (Proc.devRef .tc main_v26) := W2_of_ne m ρ c main_v26 (by decide)
    _ = invG (cntG2 (m ((c : Thread nD τ).loc main_arg5))) := by
          show StableHlo.after (hostOps0 (F := Ideal)) (W0 m ρ c) (Proc.devRef .tc main_v26) = _
          after_results_simp
          try simp only [extf_id, truncf_id]
          rfl

theorem in1_0 : V3 m ρ c main_v56 = aggTG (m ((c : Thread nD τ).loc main_arg7)) (m ((c : Thread nD τ).loc main_arg2)) (m ((c : Thread nD τ).loc main_arg3)) := by
  show StableHlo.after (hostOps1 (F := Ideal)) (W2 m ρ c) (Proc.devRef .tc main_v56) = _
  after_results_simp
  rw [W2_a7 m ρ c, W2_a2 m ρ c, W2_a3 m ρ c]
  all_goals (try simp only [extf_id, truncf_id])
  all_goals rfl

theorem in1_1 : V3 m ρ c main_v17 = invG (cntG1 (m ((c : Thread nD τ).loc main_arg3))) := by
  show StableHlo.after (hostOps1 (F := Ideal)) (W2 m ρ c) (Proc.devRef .tc main_v17) = _
  after_results_simp
  rw [W2_v17 m ρ c]
  all_goals (try simp only [extf_id, truncf_id])
  all_goals rfl

theorem in1_2 : V3 m ρ c main_v70 = tr (m ((c : Thread nD τ).loc main_arg11)) := by
  show StableHlo.after (hostOps1 (F := Ideal)) (W2 m ρ c) (Proc.devRef .tc main_v70) = _
  after_results_simp
  rw [W2_a11 m ρ c]
  all_goals (try simp only [extf_id, truncf_id])
  all_goals rfl

theorem in1_3 : V3 m ρ c main_v68 = aggGG (m ((c : Thread nD τ).loc main_arg6)) (m ((c : Thread nD τ).loc main_arg4)) (m ((c : Thread nD τ).loc main_arg5)) := by
  show StableHlo.after (hostOps1 (F := Ideal)) (W2 m ρ c) (Proc.devRef .tc main_v68) = _
  after_results_simp
  rw [W2_a6 m ρ c, W2_a4 m ρ c, W2_a5 m ρ c]
  all_goals (try simp only [extf_id, truncf_id])
  all_goals rfl

theorem in1_4 : V3 m ρ c main_v26 = invG (cntG2 (m ((c : Thread nD τ).loc main_arg5))) := by
  show StableHlo.after (hostOps1 (F := Ideal)) (W2 m ρ c) (Proc.devRef .tc main_v26) = _
  after_results_simp
  rw [W2_v26 m ρ c]
  all_goals (try simp only [extf_id, truncf_id])
  all_goals rfl

theorem in1_5 : V3 m ρ c main_v72 = tr (m ((c : Thread nD τ).loc main_arg14)) := by
  show StableHlo.after (hostOps1 (F := Ideal)) (W2 m ρ c) (Proc.devRef .tc main_v72) = _
  after_results_simp
  rw [W2_a14 m ρ c]
  all_goals (try simp only [extf_id, truncf_id])
  all_goals rfl

theorem in1_6 : V3 m ρ c main_arg6 = (m ((c : Thread nD τ).loc main_arg6)) := by
  show StableHlo.after (hostOps1 (F := Ideal)) (W2 m ρ c) (Proc.devRef .tc main_arg6) = _
  after_results_simp
  rw [W2_a6 m ρ c]
  all_goals (try simp only [extf_id, truncf_id])
  all_goals rfl

theorem in1_7 : V3 m ρ c main_v76 = addf (F := Ideal) (φ := .f32) (tr (m ((c : Thread nD τ).loc main_arg13))) (tr (m ((c : Thread nD τ).loc main_arg16))) := by
  show StableHlo.after (hostOps1 (F := Ideal)) (W2 m ρ c) (Proc.devRef .tc main_v76) = _
  after_results_simp
  rw [W2_a13 m ρ c, W2_a16 m ρ c]
  all_goals (try simp only [extf_id, truncf_id])
  all_goals rfl

theorem in1_8 : V3 m ρ c main_v78 = row (addf (F := Ideal) (φ := .f32) (m ((c : Thread nD τ).loc main_arg12)) (m ((c : Thread nD τ).loc main_arg15))) := by
  show StableHlo.after (hostOps1 (F := Ideal)) (W2 m ρ c) (Proc.devRef .tc main_v78) = _
  after_results_simp
  rw [W2_a12 m ρ c, W2_a15 m ρ c]
  all_goals (try simp only [extf_id, truncf_id])
  all_goals rfl

/-- Layer 1, gene rows, as the kernel computes it. -/
def h1G : F32 S50000x128 :=
  floor0 (comb3 (aggTG (m ((c : Thread nD τ).loc main_arg7)) (m ((c : Thread nD τ).loc main_arg2)) (m ((c : Thread nD τ).loc main_arg3))) (invG (cntG1 (m ((c : Thread nD τ).loc main_arg3)))) (tr (m ((c : Thread nD τ).loc main_arg11))) (aggGG (m ((c : Thread nD τ).loc main_arg6)) (m ((c : Thread nD τ).loc main_arg4)) (m ((c : Thread nD τ).loc main_arg5))) (invG (cntG2 (m ((c : Thread nD τ).loc main_arg5)))) (tr (m ((c : Thread nD τ).loc main_arg14))) (m ((c : Thread nD τ).loc main_arg6)) (addf (F := Ideal) (φ := .f32) (tr (m ((c : Thread nD τ).loc main_arg13))) (tr (m ((c : Thread nD τ).loc main_arg16)))) (row (addf (F := Ideal) (φ := .f32) (m ((c : Thread nD τ).loc main_arg12)) (m ((c : Thread nD τ).loc main_arg15)))))

theorem W4_v79 : W4 m ρ c (Proc.devRef .tc main_v79) = h1G m c := by
  refine (W4_arr m ρ c 9).trans ((final1 (V3 m ρ) c).trans ?_)
  rw [in1_0 m ρ c, in1_1 m ρ c, in1_2 m ρ c, in1_3 m ρ c, in1_4 m ρ c, in1_5 m ρ c, in1_6 m ρ c, in1_7 m ρ c, in1_8 m ρ c]
  all_goals (try simp only [extf_id, truncf_id])
  all_goals rfl

end Cert.Hetero.Ker

end
-- ==== Proof.Boundary2.lean ====
/- The third stretch and the third region (trait rows, layer 2): the first layer's two outputs are still there when
   the second layer gathers from them. -/
import proofs.«150412_j11682311045362_2_alg».proof.Proof.Gen.KernelIdeal.Frame
import proofs.«150412_j11682311045362_2_alg».proof.Proof.RegionFinals
import proofs.«150412_j11682311045362_2_alg».proof.Proof.KerPieces
import proofs.«150412_j11682311045362_2_alg».proof.Proof.Boundary1

set_option maxRecDepth 16384

noncomputable section

namespace Cert.Hetero.Ker

open Cert.KernelIdeal Cert.KernelIdeal.Facts₀ Cert.KernelIdeal.Gen Cert.Hetero Cert.Hetero.Regions
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer no operation of the stretch writes keeps its contents. -/
local macro "hpass " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The third stretch and the third region (trait rows, layer 2) -/

theorem W4_a0 : W4 m ρ c (Proc.devRef .tc main_arg0) = (m ((c : Thread nD τ).loc main_arg0)) :=
  calc W4 m ρ c (Proc.devRef .tc main_arg0)
    _ = W3 m ρ c (Proc.devRef .tc main_arg0) := W4_of_ne m ρ c main_arg0 (by decide)
    _ = W2 m ρ c (Proc.devRef .tc main_arg0) := by hpass hostOps1
    _ = W1 m ρ c (Proc.devRef .tc main_arg0) := W2_of_ne m ρ c main_arg0 (by decide)
    _ = W0 m ρ c (Proc.devRef .tc main_arg0) := by hpass hostOps0
    _ = (m ((c : Thread nD τ).loc main_arg0)) := rfl

theorem W4_a1 : W4 m ρ c (Proc.devRef .tc main_arg1) = (m ((c : Thread nD τ).loc main_arg1)) :=
  calc W4 m ρ c (Proc.devRef .tc main_arg1)
    _ = W3 m ρ c (Proc.devRef .tc main_arg1) := W4_of_ne m ρ c main_arg1 (by decide)
    _ = W2 m ρ c (Proc.devRef .tc main_arg1) := by hpass hostOps1
    _ = W1 m ρ c (Proc.devRef .tc main_arg1) := W2_of_ne m ρ c main_arg1 (by decide)
    _ = W0 m ρ c (Proc.devRef .tc main_arg1) := by hpass hostOps0
    _ = (m ((c : Thread nD τ).loc main_arg1)) := rfl

theorem W4_a17 : W4 m ρ c (Proc.devRef .tc main_arg17) = (m ((c : Thread nD τ).loc main_arg17)) :=
  calc W4 m ρ c (Proc.devRef .tc main_arg17)
    _ = W3 m ρ c (Proc.devRef .tc main_arg17) := W4_of_ne m ρ c main_arg17 (by decide)
    _ = W2 m ρ c (Proc.devRef .tc main_arg17) := by hpass hostOps1
    _ = W1 m ρ c (Proc.devRef .tc main_arg17) := W2_of_ne m ρ c main_arg17 (by decide)
    _ = W0 m ρ c (Proc.devRef .tc main_arg17) := by hpass hostOps0
    _ = (m ((c : Thread nD τ).loc main_arg17)) := rfl

theorem W4_a18 : W4 m ρ c (Proc.devRef .tc main_arg18) = (m ((c : Thread nD τ).loc main_arg18)) :=
  calc W4 m ρ c (Proc.devRef .tc main_arg18)
    _ = W3 m ρ c (Proc.devRef .tc main_arg18) := W4_of_ne m ρ c main_arg18 (by decide)
    _ = W2 m ρ c (Proc.devRef .tc main_arg18) := by hpass hostOps1
    _ = W1 m ρ c (Proc.devRef .tc main_arg18) := W2_of_ne m ρ c main_arg18 (by decide)
    _ = W0 m ρ c (Proc.devRef .tc main_arg18) := by hpass hostOps0
    _ = (m ((c : Thread nD τ).loc main_arg18)) := rfl

theorem W4_a19 : W4 m ρ c (Proc.devRef .tc main_arg19) = (m ((c : Thread nD τ).loc main_arg19)) :=
  calc W4 m ρ c (Proc.devRef .tc main_arg19)
    _ = W3 m ρ c (Proc.devRef .tc main_arg19) := W4_of_ne m ρ c main_arg19 (by decide)
    _ = W2 m ρ c (Proc.devRef .tc main_arg19) := by hpass hostOps1
    _ = W1 m ρ c (Proc.devRef .tc main_arg19) := W2_of_ne m ρ c main_arg19 (by decide)
    _ = W0 m ρ c (Proc.devRef .tc main_arg19) := by hpass hostOps0
    _ = (m ((c : Thread nD τ).loc main_arg19)) := rfl

theorem W4_v8 : W4 m ρ c (Proc.devRef .tc main_v8) = invT (cntT (m ((c : Thread nD τ).loc main_arg1))) :=
  calc W4 m ρ c (Proc.devRef .tc main_v8)
    _ = W3 m ρ c (Proc.devRef .tc main_v8) := W4_of_ne m ρ c main_v8 (by decide)
    _ = W2 m ρ c (Proc.devRef .tc main_v8) := by hpass hostOps1
    _ = W1 m ρ c (Proc.devRef .tc main_v8) := (W2_arr m ρ c 1).trans (((dat0 (V1 m ρ) c).arrAt_in 1 rfl _).trans (A_eq0 (V1 m ρ) c 1))
    _ = invT (cntT (m ((c : Thread nD τ).loc main_arg1))) := by
          show StableHlo.after (hostOps0 (F := Ideal)) (W0 m ρ c) (Proc.devRef .tc main_v8) = _
          after_results_simp
          try simp only [extf_id, truncf_id]
          rfl

theorem W4_v44 : W4 m ρ c (Proc.devRef .tc main_v44) = h1T m c :=
  calc W4 m ρ c (Proc.devRef .tc main_v44)
    _ = W3 m ρ c (Proc.devRef .tc main_v44) := W4_of_ne m ρ c main_v44 (by decide)
    _ = W2 m ρ c (Proc.devRef .tc main_v44) := by hpass hostOps1
    _ = h1T m c := W2_v44 m ρ c

theorem in2_0 : V5 m ρ c main_v91 = aggGT (h1G m c) (m ((c : Thread nD τ).loc main_arg0)) (m ((c : Thread nD τ).loc main_arg1)) := by
  show StableHlo.after (hostOps2 (F := Ideal)) (W4 m ρ c) (Proc.devRef .tc main_v91) = _
  after_results_simp
  rw [W4_v79 m ρ c, W4_a0 m ρ c, W4_a1 m ρ c]
  all_goals (try simp only [extf_id, truncf_id])
  all_goals rfl

theorem in2_1 : V5 m ρ c main_v8 = invT (cntT (m ((c : Thread nD τ).loc main_arg1))) := by
  show StableHlo.after (hostOps2 (F := Ideal)) (W4 m ρ c) (Proc.devRef .tc main_v8) = _
  after_results_simp
  rw [W4_v8 m ρ c]
  all_goals (try simp only [extf_id, truncf_id])
  all_goals rfl

theorem in2_2 : V5 m ρ c main_v93 = tr (m ((c : Thread nD τ).loc main_arg17)) := by
  show StableHlo.after (hostOps2 (F := Ideal)) (W4 m ρ c) (Proc.devRef .tc main_v93) = _
  after_results_simp
  rw [W4_a17 m ρ c]
  all_goals (try simp only [extf_id, truncf_id])
  all_goals rfl

theorem in2_3 : V5 m ρ c main_v44 = h1T m c := by
  show StableHlo.after (hostOps2 (F := Ideal)) (W4 m ρ c) (Proc.devRef .tc main_v44) = _
  after_results_simp
  rw [W4_v44 m ρ c]
  all_goals (try simp only [extf_id, truncf_id])
  all_goals rfl

theorem in2_4 : V5 m ρ c main_v95 = tr (m ((c : Thread nD τ).loc main_arg19)) := by
  show StableHlo.after (hostOps2 (F := Ideal)) (W4 m ρ c) (Proc.devRef .tc main_v95) = _
  after_results_simp
  rw [W4_a19 m ρ c]
  all_goals (try simp only [extf_id, truncf_id])
  all_goals rfl

theorem in2_5 : V5 m ρ c main_v96 = row (m ((c : Thread nD τ).loc main_arg18)) := by
  show StableHlo.after (hostOps2 (F := Ideal)) (W4 m ρ c) (Proc.devRef .tc main_v96) = _
  after_results_simp
  rw [W4_a18 m ρ c]
  all_goals (try simp only [extf_id, truncf_id])
  all_goals rfl

/-- Layer 2, trait rows, as the kernel computes it. -/
def outT : F32 S20000x128 :=
  comb2 (aggGT (h1G m c) (m ((c : Thread nD τ).loc main_arg0)) (m ((c : Thread nD τ).loc main_arg1))) (invT (cntT (m ((c : Thread nD τ).loc main_arg1)))) (tr (m ((c : Thread nD τ).loc main_arg17))) (h1T m c) (tr (m ((c : Thread nD τ).loc main_arg19))) (row (m ((c : Thread nD τ).loc main_arg18)))

theorem W6_v97 : W6 m ρ c (Proc.devRef .tc main_v97) = outT m c := by
  refine (W6_arr m ρ c 6).trans ((final2 (V5 m ρ) c).trans ?_)
  rw [in2_0 m ρ c, in2_1 m ρ c, in2_2 m ρ c, in2_3 m ρ c, in2_4 m ρ c, in2_5 m ρ c]
  all_goals (try simp only [extf_id, truncf_id])
  all_goals rfl

end Cert.Hetero.Ker

end
-- ==== Proof.Boundary3.lean ====
/- The fourth stretch and the fourth region (gene rows, layer 2), and the two results at the last boundary. -/
import proofs.«150412_j11682311045362_2_alg».proof.Proof.Gen.KernelIdeal.Frame
import proofs.«150412_j11682311045362_2_alg».proof.Proof.RegionFinals
import proofs.«150412_j11682311045362_2_alg».proof.Proof.KerPieces
import proofs.«150412_j11682311045362_2_alg».proof.Proof.Boundary2

set_option maxRecDepth 16384

noncomputable section

namespace Cert.Hetero.Ker

open Cert.KernelIdeal Cert.KernelIdeal.Facts₀ Cert.KernelIdeal.Gen Cert.Hetero Cert.Hetero.Regions
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer no operation of the stretch writes keeps its contents. -/
local macro "hpass " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The fourth stretch and the fourth region (gene rows, layer 2) -/

theorem W6_a2 : W6 m ρ c (Proc.devRef .tc main_arg2) = (m ((c : Thread nD τ).loc main_arg2)) :=
  calc W6 m ρ c (Proc.devRef .tc main_arg2)
    _ = W5 m ρ c (Proc.devRef .tc main_arg2) := W6_of_ne m ρ c main_arg2 (by decide)
    _ = W4 m ρ c (Proc.devRef .tc main_arg2) := by hpass hostOps2
    _ = W3 m ρ c (Proc.devRef .tc main_arg2) := W4_of_ne m ρ c main_arg2 (by decide)
    _ = W2 m ρ c (Proc.devRef .tc main_arg2) := by hpass hostOps1
    _ = W1 m ρ c (Proc.devRef .tc main_arg2) := W2_of_ne m ρ c main_arg2 (by decide)
    _ = W0 m ρ c (Proc.devRef .tc main_arg2) := by hpass hostOps0
    _ = (m ((c : Thread nD τ).loc main_arg2)) := rfl

theorem W6_a3 : W6 m ρ c (Proc.devRef .tc main_arg3) = (m ((c : Thread nD τ).loc main_arg3)) :=
  calc W6 m ρ c (Proc.devRef .tc main_arg3)
    _ = W5 m ρ c (Proc.devRef .tc main_arg3) := W6_of_ne m ρ c main_arg3 (by decide)
    _ = W4 m ρ c (Proc.devRef .tc main_arg3) := by hpass hostOps2
    _ = W3 m ρ c (Proc.devRef .tc main_arg3) := W4_of_ne m ρ c main_arg3 (by decide)
    _ = W2 m ρ c (Proc.devRef .tc main_arg3) := by hpass hostOps1
    _ = W1 m ρ c (Proc.devRef .tc main_arg3) := W2_of_ne m ρ c main_arg3 (by decide)
    _ = W0 m ρ c (Proc.devRef .tc main_arg3) := by hpass hostOps0
    _ = (m ((c : Thread nD τ).loc main_arg3)) := rfl

theorem W6_a4 : W6 m ρ c (Proc.devRef .tc main_arg4) = (m ((c : Thread nD τ).loc main_arg4)) :=
  calc W6 m ρ c (Proc.devRef .tc main_arg4)
    _ = W5 m ρ c (Proc.devRef .tc main_arg4) := W6_of_ne m ρ c main_arg4 (by decide)
    _ = W4 m ρ c (Proc.devRef .tc main_arg4) := by hpass hostOps2
    _ = W3 m ρ c (Proc.devRef .tc main_arg4) := W4_of_ne m ρ c main_arg4 (by decide)
    _ = W2 m ρ c (Proc.devRef .tc main_arg4) := by hpass hostOps1
    _ = W1 m ρ c (Proc.devRef .tc main_arg4) := W2_of_ne m ρ c main_arg4 (by decide)
    _ = W0 m ρ c (Proc.devRef .tc main_arg4) := by hpass hostOps0
    _ = (m ((c : Thread nD τ).loc main_arg4)) := rfl

theorem W6_a5 : W6 m ρ c (Proc.devRef .tc main_arg5) = (m ((c : Thread nD τ).loc main_arg5)) :=
  calc W6 m ρ c (Proc.devRef .tc main_arg5)
    _ = W5 m ρ c (Proc.devRef .tc main_arg5) := W6_of_ne m ρ c main_arg5 (by decide)
    _ = W4 m ρ c (Proc.devRef .tc main_arg5) := by hpass hostOps2
    _ = W3 m ρ c (Proc.devRef .tc main_arg5) := W4_of_ne m ρ c main_arg5 (by decide)
    _ = W2 m ρ c (Proc.devRef .tc main_arg5) := by hpass hostOps1
    _ = W1 m ρ c (Proc.devRef .tc main_arg5) := W2_of_ne m ρ c main_arg5 (by decide)
    _ = W0 m ρ c (Proc.devRef .tc main_arg5) := by hpass hostOps0
    _ = (m ((c : Thread nD τ).loc main_arg5)) := rfl

theorem W6_a20 : W6 m ρ c (Proc.devRef .tc main_arg20) = (m ((c : Thread nD τ).loc main_arg20)) :=
  calc W6 m ρ c (Proc.devRef .tc main_arg20)
    _ = W5 m ρ c (Proc.devRef .tc main_arg20) := W6_of_ne m ρ c main_arg20 (by decide)
    _ = W4 m ρ c (Proc.devRef .tc main_arg20) := by hpass hostOps2
    _ = W3 m ρ c (Proc.devRef .tc main_arg20) := W4_of_ne m ρ c main_arg20 (by decide)
    _ = W2 m ρ c (Proc.devRef .tc main_arg20) := by hpass hostOps1
    _ = W1 m ρ c (Proc.devRef .tc main_arg20) := W2_of_ne m ρ c main_arg20 (by decide)
    _ = W0 m ρ c (Proc.devRef .tc main_arg20) := by hpass hostOps0
    _ = (m ((c : Thread nD τ).loc main_arg20)) := rfl

theorem W6_a21 : W6 m ρ c (Proc.devRef .tc main_arg21) = (m ((c : Thread nD τ).loc main_arg21)) :=
  calc W6 m ρ c (Proc.devRef .tc main_arg21)
    _ = W5 m ρ c (Proc.devRef .tc main_arg21) := W6_of_ne m ρ c main_arg21 (by decide)
    _ = W4 m ρ c (Proc.devRef .tc main_arg21) := by hpass hostOps2
    _ = W3 m ρ c (Proc.devRef .tc main_arg21) := W4_of_ne m ρ c main_arg21 (by decide)
    _ = W2 m ρ c (Proc.devRef .tc main_arg21) := by hpass hostOps1
    _ = W1 m ρ c (Proc.devRef .tc main_arg21) := W2_of_ne m ρ c main_arg21 (by decide)
    _ = W0 m ρ c (Proc.devRef .tc main_arg21) := by hpass hostOps0
    _ = (m ((c : Thread nD τ).loc main_arg21)) := rfl

theorem W6_a22 : W6 m ρ c (Proc.devRef .tc main_arg22) = (m ((c : Thread nD τ).loc main_arg22)) :=
  calc W6 m ρ c (Proc.devRef .tc main_arg22)
    _ = W5 m ρ c (Proc.devRef .tc main_arg22) := W6_of_ne m ρ c main_arg22 (by decide)
    _ = W4 m ρ c (Proc.devRef .tc main_arg22) := by hpass hostOps2
    _ = W3 m ρ c (Proc.devRef .tc main_arg22) := W4_of_ne m ρ c main_arg22 (by decide)
    _ = W2 m ρ c (Proc.devRef .tc main_arg22) := by hpass hostOps1
    _ = W1 m ρ c (Proc.devRef .tc main_arg22) := W2_of_ne m ρ c main_arg22 (by decide)
    _ = W0 m ρ c (Proc.devRef .tc main_arg22) := by hpass hostOps0
    _ = (m ((c : Thread nD τ).loc main_arg22)) := rfl

theorem W6_a23 : W6 m ρ c (Proc.devRef .tc main_arg23) = (m ((c : Thread nD τ).loc main_arg23)) :=
  calc W6 m ρ c (Proc.devRef .tc main_arg23)
    _ = W5 m ρ c (Proc.devRef .tc main_arg23) := W6_of_ne m ρ c main_arg23 (by decide)
    _ = W4 m ρ c (Proc.devRef .tc main_arg23) := by hpass hostOps2
    _ = W3 m ρ c (Proc.devRef .tc main_arg23) := W4_of_ne m ρ c main_arg23 (by decide)
    _ = W2 m ρ c (Proc.devRef .tc main_arg23) := by hpass hostOps1
    _ = W1 m ρ c (Proc.devRef .tc main_arg23) := W2_of_ne m ρ c main_arg23 (by decide)
    _ = W0 m ρ c (Proc.devRef .tc main_arg23) := by hpass hostOps0
    _ = (m ((c : Thread nD τ).loc main_arg23)) := rfl

theorem W6_a24 : W6 m ρ c (Proc.devRef .tc main_arg24) = (m ((c : Thread nD τ).loc main_arg24)) :=
  calc W6 m ρ c (Proc.devRef .tc main_arg24)
    _ = W5 m ρ c (Proc.devRef .tc main_arg24) := W6_of_ne m ρ c main_arg24 (by decide)
    _ = W4 m ρ c (Proc.devRef .tc main_arg24) := by hpass hostOps2
    _ = W3 m ρ c (Proc.devRef .tc main_arg24) := W4_of_ne m ρ c main_arg24 (by decide)
    _ = W2 m ρ c (Proc.devRef .tc main_arg24) := by hpass hostOps1
    _ = W1 m ρ c (Proc.devRef .tc main_arg24) := W2_of_ne m ρ c main_arg24 (by decide)
    _ = W0 m ρ c (Proc.devRef .tc main_arg24) := by hpass hostOps0
    _ = (m ((c : Thread nD τ).loc main_arg24)) := rfl

theorem W6_a25 : W6 m ρ c (Proc.devRef .tc main_arg25) = (m ((c : Thread nD τ).loc main_arg25)) :=
  calc W6 m ρ c (Proc.devRef .tc main_arg25)
    _ = W5 m ρ c (Proc.devRef .tc main_arg25) := W6_of_ne m ρ c main_arg25 (by decide)
    _ = W4 m ρ c (Proc.devRef .tc main_arg25) := by hpass hostOps2
    _ = W3 m ρ c (Proc.devRef .tc main_arg25) := W4_of_ne m ρ c main_arg25 (by decide)
    _ = W2 m ρ c (Proc.devRef .tc main_arg25) := by hpass hostOps1
    _ = W1 m ρ c (Proc.devRef .tc main_arg25) := W2_of_ne m ρ c main_arg25 (by decide)
    _ = W0 m ρ c (Proc.devRef .tc main_arg25) := by hpass hostOps0
    _ = (m ((c : Thread nD τ).loc main_arg25)) := rfl

theorem W6_v44 : W6 m ρ c (Proc.devRef .tc main_v44) = h1T m c :=
  calc W6 m ρ c (Proc.devRef .tc main_v44)
    _ = W5 m ρ c (Proc.devRef .tc main_v44) := (W6_arr m ρ c 3).trans (((dat2 (V5 m ρ) c).arrAt_in 3 rfl _).trans (A_eq2 (V5 m ρ) c 3))
    _ = W4 m ρ c (Proc.devRef .tc main_v44) := by hpass hostOps2
    _ = h1T m c := W4_v44 m ρ c

theorem W6_v79 : W6 m ρ c (Proc.devRef .tc main_v79) = h1G m c :=
  calc W6 m ρ c (Proc.devRef .tc main_v79)
    _ = W5 m ρ c (Proc.devRef .tc main_v79) := W6_of_ne m ρ c main_v79 (by decide)
    _ = W4 m ρ c (Proc.devRef .tc main_v79) := by hpass hostOps2
    _ = h1G m c := W4_v79 m ρ c

theorem W6_v17 : W6 m ρ c (Proc.devRef .tc main_v17) = invG (cntG1 (m ((c : Thread nD τ).loc main_arg3))) :=
  calc W6 m ρ c (Proc.devRef .tc main_v17)
    _ = W5 m ρ c (Proc.devRef .tc main_v17) := W6_of_ne m ρ c main_v17 (by decide)
    _ = W4 m ρ c (Proc.devRef .tc main_v17) := by hpass hostOps2
    _ = W3 m ρ c (Proc.devRef .tc main_v17) := (W4_arr m ρ c 1).trans (((dat1 (V3 m ρ) c).arrAt_in 1 rfl _).trans (A_eq1 (V3 m ρ) c 1))
    _ = W2 m ρ c (Proc.devRef .tc main_v17) := by hpass hostOps1
    _ = invG (cntG1 (m ((c : Thread nD τ).loc main_arg3))) := W2_v17 m ρ c

theorem W6_v26 : W6 m ρ c (Proc.devRef .tc main_v26) = invG (cntG2 (m ((c : Thread nD τ).loc main_arg5))) :=
  calc W6 m ρ c (Proc.devRef .tc main_v26)
    _ = W5 m ρ c (Proc.devRef .tc main_v26) := W6_of_ne m ρ c main_v26 (by decide)
    _ = W4 m ρ c (Proc.devRef .tc main_v26) := by hpass hostOps2
    _ = W3 m ρ c (Proc.devRef .tc main_v26) := (W4_arr m ρ c 4).trans (((dat1 (V3 m ρ) c).arrAt_in 4 rfl _).trans (A_eq1 (V3 m ρ) c 4))
    _ = W2 m ρ c (Proc.devRef .tc main_v26) := by hpass hostOps1
    _ = invG (cntG2 (m ((c : Thread nD τ).loc main_arg5))) := W2_v26 m ρ c

theorem in3_0 : V7 m ρ c main_v109 = aggTG (h1T m c) (m ((c : Thread nD τ).loc main_arg2)) (m ((c : Thread nD τ).loc main_arg3)) := by
  show StableHlo.after (hostOps3 (F := Ideal)) (W6 m ρ c) (Proc.devRef .tc main_v109) = _
  after_results_simp
  rw [W6_v44 m ρ c, W6_a2 m ρ c, W6_a3 m ρ c]
  all_goals (try simp only [extf_id, truncf_id])
  all_goals rfl

theorem in3_1 : V7 m ρ c main_v17 = invG (cntG1 (m ((c : Thread nD τ).loc main_arg3))) := by
  show StableHlo.after (hostOps3 (F := Ideal)) (W6 m ρ c) (Proc.devRef .tc main_v17) = _
  after_results_simp
  rw [W6_v17 m ρ c]
  all_goals (try simp only [extf_id, truncf_id])
  all_goals rfl

theorem in3_2 : V7 m ρ c main_v123 = tr (m ((c : Thread nD τ).loc main_arg20)) := by
  show StableHlo.after (hostOps3 (F := Ideal)) (W6 m ρ c) (Proc.devRef .tc main_v123) = _
  after_results_simp
  rw [W6_a20 m ρ c]
  all_goals (try simp only [extf_id, truncf_id])
  all_goals rfl

theorem in3_3 : V7 m ρ c main_v121 = aggGG (h1G m c) (m ((c : Thread nD τ).loc main_arg4)) (m ((c : Thread nD τ).loc main_arg5)) := by
  show StableHlo.after (hostOps3 (F := Ideal)) (W6 m ρ c) (Proc.devRef .tc main_v121) = _
  after_results_simp
  rw [W6_v79 m ρ c, W6_a4 m ρ c, W6_a5 m ρ c]
  all_goals (try simp only [extf_id, truncf_id])
  all_goals rfl

theorem in3_4 : V7 m ρ c main_v26 = invG (cntG2 (m ((c : Thread nD τ).loc main_arg5))) := by
  show StableHlo.after (hostOps3 (F := Ideal)) (W6 m ρ c) (Proc.devRef .tc main_v26) = _
  after_results_simp
  rw [W6_v26 m ρ c]
  all_goals (try simp only [extf_id, truncf_id])
  all_goals rfl

theorem in3_5 : V7 m ρ c main_v125 = tr (m ((c : Thread nD τ).loc main_arg23)) := by
  show StableHlo.after (hostOps3 (F := Ideal)) (W6 m ρ c) (Proc.devRef .tc main_v125) = _
  after_results_simp
  rw [W6_a23 m ρ c]
  all_goals (try simp only [extf_id, truncf_id])
  all_goals rfl

theorem in3_6 : V7 m ρ c main_v79 = h1G m c := by
  show StableHlo.after (hostOps3 (F := Ideal)) (W6 m ρ c) (Proc.devRef .tc main_v79) = _
  after_results_simp
  rw [W6_v79 m ρ c]
  all_goals (try simp only [extf_id, truncf_id])
  all_goals rfl

theorem in3_7 : V7 m ρ c main_v129 = addf (F := Ideal) (φ := .f32) (tr (m ((c : Thread nD τ).loc main_arg22))) (tr (m ((c : Thread nD τ).loc main_arg25))) := by
  show StableHlo.after (hostOps3 (F := Ideal)) (W6 m ρ c) (Proc.devRef .tc main_v129) = _
  after_results_simp
  rw [W6_a22 m ρ c, W6_a25 m ρ c]
  all_goals (try simp only [extf_id, truncf_id])
  all_goals rfl

theorem in3_8 : V7 m ρ c main_v131 = row (addf (F := Ideal) (φ := .f32) (m ((c : Thread nD τ).loc main_arg21)) (m ((c : Thread nD τ).loc main_arg24))) := by
  show StableHlo.after (hostOps3 (F := Ideal)) (W6 m ρ c) (Proc.devRef .tc main_v131) = _
  after_results_simp
  rw [W6_a21 m ρ c, W6_a24 m ρ c]
  all_goals (try simp only [extf_id, truncf_id])
  all_goals rfl

/-- Layer 2, gene rows, as the kernel computes it. -/
def outG : F32 S50000x128 :=
  comb3 (aggTG (h1T m c) (m ((c : Thread nD τ).loc main_arg2)) (m ((c : Thread nD τ).loc main_arg3))) (invG (cntG1 (m ((c : Thread nD τ).loc main_arg3)))) (tr (m ((c : Thread nD τ).loc main_arg20))) (aggGG (h1G m c) (m ((c : Thread nD τ).loc main_arg4)) (m ((c : Thread nD τ).loc main_arg5))) (invG (cntG2 (m ((c : Thread nD τ).loc main_arg5)))) (tr (m ((c : Thread nD τ).loc main_arg23))) (h1G m c) (addf (F := Ideal) (φ := .f32) (tr (m ((c : Thread nD τ).loc main_arg22))) (tr (m ((c : Thread nD τ).loc main_arg25)))) (row (addf (F := Ideal) (φ := .f32) (m ((c : Thread nD τ).loc main_arg21)) (m ((c : Thread nD τ).loc main_arg24))))

/-- The gene result at the last boundary. -/
theorem W8_v132 : W8 m ρ c (Proc.devRef .tc main_v132) = outG m c := by
  refine (W8_arr m ρ c 9).trans ((final3 (V7 m ρ) c).trans ?_)
  rw [in3_0 m ρ c, in3_1 m ρ c, in3_2 m ρ c, in3_3 m ρ c, in3_4 m ρ c, in3_5 m ρ c, in3_6 m ρ c, in3_7 m ρ c, in3_8 m ρ c]
  all_goals (try simp only [extf_id, truncf_id])
  all_goals rfl

/-- The trait result at the last boundary: the third region's output, untouched by the last two segments. -/
theorem W8_v97 : W8 m ρ c (Proc.devRef .tc main_v97) = outT m c :=
  calc W8 m ρ c (Proc.devRef .tc main_v97)
    _ = W7 m ρ c (Proc.devRef .tc main_v97) := W8_of_ne m ρ c main_v97 (by decide)
    _ = W6 m ρ c (Proc.devRef .tc main_v97) := by hpass hostOps3
    _ = outT m c := W6_v97 m ρ c

end Cert.Hetero.Ker

end
-- ==== Proof.LibScatterAddRows.lean ====
/-
  Rows of updates added into a table at a column of row numbers, at the extended reals, read at an index.

  What `table.at[rows].add(updates)` lowers to for a table `[N, C]`, row numbers `[E]` held as an `[E, 1]` array and
  updates `[E, C]`: a scatter whose one window axis is the columns, the row axis inserted, the one start component the
  row. Update entry `(e, k)` lands at row `rows (e, 0)`, read as a signed integer and NOT clamped, column `k`; an update
  whose row number is negative or at least `N` is dropped. So entry `(n, c)` of the result is the table's entry plus the
  sum of `updates (e, c)` over the `e` whose row number is `n`.
-/
import Idealize.ShloMosaic.Lib.ValueIdx
import Idealize.ShloMosaic.PureOps.Ideal.Laws

noncomputable section

namespace Cert.LibScatterAddRows

open Idealize.ShloMosaic Idealize.ShloMosaic.ValueIdx

/-- The dimension numbers of that scatter; their conditions are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the row number of the update's row, read signed. -/
theorem start_row (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no start component names, the window starts at `0`. -/
theorem start_col (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    fun h => Nat.one_ne_zero (congrArg Fin.val (List.mem_singleton.mp h)))]

/-- The row axis is inserted: its window coordinate is `0`. -/
theorem window_row (j : (⟨2, ![E, C]⟩ : Shape).Idx) : (rowDims N E C wf).window j 0 = 0 := by
  unfold ScatterDims.window
  rw [dif_neg (show (0 : Fin 2) ∉ (rowDims N E C wf).sKept from fun h => by
    simp [ScatterDims.sKept, Shape.kept] at h)]

/-- The column axis is the window axis: its window coordinate is the update's column. -/
theorem window_col (j : (⟨2, ![E, C]⟩ : Shape).Idx) : (rowDims N E C wf).window j 1 = (j 1).val := by
  unfold ScatterDims.window
  rw [dif_pos (show (1 : Fin 2) ∈ (rowDims N E C wf).sKept from by
    simp [ScatterDims.sKept, Shape.kept])]
  rfl

/-- Where an update lands: update index `j` lands at `(n, c)` exactly when its row's number, read signed, is `n` and
    its column is `c`. A row number that is negative or at least `N` equals no `n`: the update is dropped. -/
theorem resultIdx?_eq_some_iff (idx : IVec ⟨2, ![E, 1]⟩ w) (j : (⟨2, ![E, C]⟩ : Shape).Idx) (n : Fin N) (c : Fin C) :
    (rowDims N E C wf).resultIdx? j idx = some (ix2 n c)
      ↔ (idx (ix2 (j 0) (0 : Fin 1))).toInt = (n.val : Int) ∧ j 1 = c := by
  have h0 := start_row wf j idx
  have h1 := start_col wf j idx
  have w0 := window_row wf j
  have w1 := window_col wf j
  have hj1 : (j 1).val < C := idx2_lt1 j
  have hn : n.val < N := n.isLt
  have hc : c.val < C := c.isLt
  unfold ScatterDims.resultIdx?
  by_cases hall : ∀ a, 0 ≤ (rowDims N E C wf).start j idx a + (rowDims N E C wf).window j a
      ∧ (rowDims N E C wf).start j idx a + (rowDims N E C wf).window j a < (⟨2, ![N, C]⟩ : Shape).size a
  · rw [dif_pos hall]
    constructor
    · intro h
      have h' := Option.some.inj h
      have a0 := (hall 0).1
      have e0 : ((rowDims N E C wf).start j idx 0 + (rowDims N E C wf).window j 0).toNat = n.val :=
        congrArg Fin.val (congrFun h' 0)
      have e1 : ((rowDims N E C wf).start j idx 1 + (rowDims N E C wf).window j 1).toNat = c.val :=
        congrArg Fin.val (congrFun h' 1)
      rw [h0, w0] at a0 e0
      rw [h1, w1] at e1
      exact ⟨by omega, Fin.ext (by omega)⟩
    · rintro ⟨hs, hk⟩
      refine congrArg some (funext fun a => Fin.ext ?_)
      match a with
      | ⟨0, _⟩ =>
        show ((rowDims N E C wf).start j idx 0 + (rowDims N E C wf).window j 0).toNat = n.val
        rw [h0, w0]; omega
      | ⟨1, _⟩ =>
        show ((rowDims N E C wf).start j idx 1 + (rowDims N E C wf).window j 1).toNat = c.val
        rw [h1, w1, hk]; omega
  · rw [dif_neg hall]
    constructor
    · intro h; cases h
    · rintro ⟨hs, hk⟩
      refine absurd (fun a => ?_) hall
      match a with
      | ⟨0, _⟩ =>
        show 0 ≤ (rowDims N E C wf).start j idx 0 + (rowDims N E C wf).window j 0
          ∧ (rowDims N E C wf).start j idx 0 + (rowDims N E C wf).window j 0 < (N : Int)
        rw [h0, w0]; omega
      | ⟨1, _⟩ =>
        show 0 ≤ (rowDims N E C wf).start j idx 1 + (rowDims N E C wf).window j 1
          ∧ (rowDims N E C wf).start j idx 1 + (rowDims N E C wf).window j 1 < (C : Int)
        rw [h1, w1]; omega

/-- The same at an update index given by its coordinates `(e, k)`. -/
theorem resultIdx?_ix2_eq_some_iff (idx : IVec ⟨2, ![E, 1]⟩ w) (e : Fin E) (k : Fin C) (n : Fin N) (c : Fin C) :
    (rowDims N E C wf).resultIdx? (ix2 e k) idx = some (ix2 n c)
      ↔ (idx (ix2 e (0 : Fin 1))).toInt = (n.val : Int) ∧ k = c :=
  resultIdx?_eq_some_iff wf idx (ix2 e k) n c

/-- THE ACCUMULATING SCATTER READ AT `(n, c)`: the table's entry plus the sum of column `c` of the update rows whose row
    number, read signed, is `n`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx?_eq_some_iff wf idx j n c).mp hj').1⟩
  · intro e he
    have he' := (Finset.mem_filter.mp he).2
    exact Finset.mem_filter.mpr ⟨Finset.mem_univ _, (resultIdx?_ix2_eq_some_iff wf idx e c n c).mpr ⟨he', rfl⟩⟩
  · intro j hj
    rw [Finset.mem_filter] at hj
    have hk := ((resultIdx?_eq_some_iff wf idx j n c).mp hj.2).2
    rw [← hk]
    exact (eq_ix2 j).symm
  · intro e _
    rfl
  · intro j hj
    rw [Finset.mem_filter] at hj
    have hk := ((resultIdx?_eq_some_iff wf idx j n c).mp hj.2).2
    rw [← hk]
    exact congrArg upd (eq_ix2 j)

/-- The same with the host's accumulating scatter at the ideal instance on the left. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N E C wf) x idx upd (ix2 n c)
      = x (ix2 n c) + ∑ e ∈ Finset.univ.filter (fun e : Fin E => (idx (ix2 e (0 : Fin 1))).toInt = (n.val : Int)),
          upd (ix2 e c) :=
  scatterAdd_rows_apply wf x idx upd n c

end Cert.LibScatterAddRows

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.RefAgg.lean ====
/-
  The aggregates of the reference program are finite when the source rows are.

  Entry (n, c) of a relation's aggregate is zero plus the sum, over the edges whose destination number is n, of the
  source table's entry at column c of the edge's (wrapped, then clamped) source row. A finite sum of reals is a real, so
  when every entry of the source table is a real number every entry of the aggregate is.
-/
import proofs.«150412_j11682311045362_2_alg».proof.Proof.RefTerm
import proofs.«150412_j11682311045362_2_alg».proof.Proof.LibMatProduct
import proofs.«150412_j11682311045362_2_alg».proof.Proof.LibScatterAddRows
import proofs.«150412_j11682311045362_2_alg».proof.Proof.LibGatherRows
import proofs.«150412_j11682311045362_2_alg».proof.Proof.LibHostRow
import proofs.«150412_j11682311045362_2_alg».proof.Proof.LibIndicator
import Idealize.ShloMosaic.Lib.ValueLayout
import Idealize.ShloMosaic.Lib.IdealHost

noncomputable section

namespace Cert.Hetero.Ref

open Cert.ReferenceIdeal Cert.ReferenceIdeal.Gen Idealize.ShloMosaic Idealize.ShloMosaic.ValueIdx
open Cert.MatProduct (rowOf colOf eq_row_col)

/-- Rows of a real table gathered at any row numbers and added into a zero table at any row numbers: every entry is a
    real number. For any extents. -/
theorem gather_scatter_real {N M E C : ℕ} (hM : 0 < M)
    (wfs : ScatterDims.WF ⟨2, ![N, C]⟩ ⟨2, ![E, 1]⟩ ⟨2, ![E, C]⟩ [1] [0] [0] 1)
    (wfg : GatherDims.WF ⟨2, ![M, C]⟩ ⟨2, ![E, 1]⟩ ⟨2, ![E, C]⟩ [1] [0] [] [0] [] 1 ![1, C])
    (hz : (⟨0, ![]⟩ : Shape).BroadcastsInDim ⟨2, ![N, C]⟩ (![] : Fin 0 → Fin 2))
    (x : FVec Ideal ⟨2, ![M, C]⟩ .f32) (di si : IVec ⟨2, ![E, 1]⟩ 32)
    (hx : ∀ i, ∃ v : ℝ, x i = (v : EReal)) (y : (⟨2, ![N, C]⟩ : Shape).Idx) :
    ∃ v : ℝ, Host.scatterAdd (Cert.LibScatterAddRows.rowDims N E C wfs)
        (broadcastInDim ⟨2, ![N, C]⟩ ![] hz (constant (F := Ideal) ⟨0, ![]⟩ .f32 0x00000000#32)) di
        (Host.gather (Cert.LibGatherRows.rowDims M E C wfg) x si) y = (v : EReal) := by
  rw [eq_row_col y, Cert.LibScatterAddRows.host_scatterAdd_rows_apply, Cert.LibHostRow.scalar_apply, constant_apply,
    Ideal.ofBits_zero_f32, zero_add]
  refine Cert.LibBlocks.exists_real_sum _ _ fun e _ => ?_
  rw [Cert.LibGatherRows.gather_rows_apply hM]
  exact hx _

/-- Relation GT's aggregate of a real table is real. -/
theorem aggGT_real (x : FVec Ideal S50000x128 .f32) (src dst : IVec S1000000 32) (hx : ∀ i, ∃ v : ℝ, x i = (v : EReal)) :
    ∀ y, ∃ v : ℝ, aggGT x src dst y = (v : EReal) := fun y =>
  gather_scatter_real (N := 20000) (M := 50000) (E := 1000000) (C := 128) (by decide) scatter_S20000x128_S1000000x1_S1000000x128_1_0_0_1_wf gather_S50000x128_S1000000x1_S1000000x128_1_0_n_n_0_1_1128_wf
    bcast_S_S20000x128 x _ _ hx y

/-- Relation TG's aggregate of a real table is real. -/
theorem aggTG_real (x : FVec Ideal S20000x128 .f32) (src dst : IVec S1000000 32) (hx : ∀ i, ∃ v : ℝ, x i = (v : EReal)) :
    ∀ y, ∃ v : ℝ, aggTG x src dst y = (v : EReal) := fun y =>
  gather_scatter_real (N := 50000) (M := 20000) (E := 1000000) (C := 128) (by decide) scatter_S50000x128_S1000000x1_S1000000x128_1_0_0_1_wf gather_S20000x128_S1000000x1_S1000000x128_1_0_n_n_0_1_1128_wf
    bcast_S_S50000x128 x _ _ hx y

/-- Relation GG's aggregate of a real table is real. -/
theorem aggGG_real (x : FVec Ideal S50000x128 .f32) (src dst : IVec S600000 32) (hx : ∀ i, ∃ v : ℝ, x i = (v : EReal)) :
    ∀ y, ∃ v : ℝ, aggGG x src dst y = (v : EReal) := fun y =>
  gather_scatter_real (N := 50000) (M := 50000) (E := 600000) (C := 128) (by decide) scatter_S50000x128_S600000x1_S600000x128_1_0_0_1_wf gather_S50000x128_S600000x1_S600000x128_1_0_n_n_0_1_1128_wf
    bcast_S_S50000x128 x _ _ hx y

end Cert.Hetero.Ref

end
-- ==== Proof.Result.lean ====
/-
  The kernel's two results are the reference's two result terms.

  Layer by layer: the first layer's trait rows and gene rows are the reference's (floored at zero on both sides); the
  first layer's gene rows are real because the embeddings, the weights and the biases are, the neighbour sums of real
  rows are real and the reciprocal of a clipped count is real; so the second layer's gene rows, whose shared root term
  multiplies the first layer's gene rows by a sum of two matrices, are the reference's as well.
-/
import proofs.«150412_j11682311045362_2_alg».proof.Proof.Join
import proofs.«150412_j11682311045362_2_alg».proof.Proof.Boundary3
import proofs.«150412_j11682311045362_2_alg».proof.Proof.RefAgg

set_option maxRecDepth 8192

noncomputable section

namespace Cert.Hetero.Join

open Cert.KernelIdeal Cert.Hetero Idealize.ShloMosaic Idealize.ShloMosaic.ValueIdx Idealize.ShloMosaic.TcCoe Idealize.SL.Sem
open Cert.MatProduct (rowOf colOf prod eq_row_col)

variable (m : (ℓ : Loc nD τ sig) → Buf (Elt Ideal) ℓ) (c : Dev nD)

/-- Layer 1, trait rows. -/
theorem h1T_eq : Ker.h1T m c = Ref.floorT (Ref.denseT (Ref.aggGT (m ((c : Thread nD τ).loc main_arg6)) (m ((c : Thread nD τ).loc main_arg0)) (m ((c : Thread nD τ).loc main_arg1))) (Ref.mxGT (m ((c : Thread nD τ).loc main_arg1))) (m ((c : Thread nD τ).loc main_arg8)) (m ((c : Thread nD τ).loc main_arg9)) (m ((c : Thread nD τ).loc main_arg7)) (m ((c : Thread nD τ).loc main_arg10))) := by
  unfold Ker.h1T
  rw [layerT, floorT_eq]

/-- Layer 1, gene rows: the embeddings and the two root matrices real. -/
theorem h1G_eq (h6 : ∀ i, IsReal ((m ((c : Thread nD τ).loc main_arg6)) i)) (h13 : ∀ i, IsReal ((m ((c : Thread nD τ).loc main_arg13)) i)) (h16 : ∀ i, IsReal ((m ((c : Thread nD τ).loc main_arg16)) i)) : Ker.h1G m c = Ref.floorG (addf (F := Ideal) (φ := .f32) (Ref.denseG (Ref.aggTG (m ((c : Thread nD τ).loc main_arg7)) (m ((c : Thread nD τ).loc main_arg2)) (m ((c : Thread nD τ).loc main_arg3))) (Ref.mxTG (m ((c : Thread nD τ).loc main_arg3))) (m ((c : Thread nD τ).loc main_arg11)) (m ((c : Thread nD τ).loc main_arg12)) (m ((c : Thread nD τ).loc main_arg6)) (m ((c : Thread nD τ).loc main_arg13))) (Ref.denseG (Ref.aggGG (m ((c : Thread nD τ).loc main_arg6)) (m ((c : Thread nD τ).loc main_arg4)) (m ((c : Thread nD τ).loc main_arg5))) (Ref.mxGG (m ((c : Thread nD τ).loc main_arg5))) (m ((c : Thread nD τ).loc main_arg14)) (m ((c : Thread nD τ).loc main_arg15)) (m ((c : Thread nD τ).loc main_arg6)) (m ((c : Thread nD τ).loc main_arg16)))) := by
  unfold Ker.h1G
  rw [layerG _ _ _ _ _ _ _ _ _ _ _ _ _ h6 h13 h16, floorG_eq]

/-- Layer 1's gene rows are real. -/
theorem h1G_real (h6 : ∀ i, IsReal ((m ((c : Thread nD τ).loc main_arg6)) i)) (h7 : ∀ i, IsReal ((m ((c : Thread nD τ).loc main_arg7)) i)) (h11 : ∀ i, IsReal ((m ((c : Thread nD τ).loc main_arg11)) i)) (h12 : ∀ i, IsReal ((m ((c : Thread nD τ).loc main_arg12)) i)) (h13 : ∀ i, IsReal ((m ((c : Thread nD τ).loc main_arg13)) i)) (h14 : ∀ i, IsReal ((m ((c : Thread nD τ).loc main_arg14)) i)) (h15 : ∀ i, IsReal ((m ((c : Thread nD τ).loc main_arg15)) i)) (h16 : ∀ i, IsReal ((m ((c : Thread nD τ).loc main_arg16)) i)) : ∀ y, IsReal (Ker.h1G m c y) := by
  intro y
  unfold Ker.h1G
  refine isReal_floor0 _ y (isReal_comb3 _ _ _ _ _ _ _ _ _ ?_ ?_ ?_ ?_ ?_ ?_ h6 ?_ ?_ y)
  · intro i; rw [aggTG_eq]; exact Ref.aggTG_real _ _ _ h7 i
  · intro r; rw [Ker.invG_apply]; exact isReal_recip_clip _
  · intro i; rw [eq_row_col i, Ker.tr_apply]; exact h11 _
  · intro i; rw [aggGG_eq]; exact Ref.aggGG_real _ _ _ h6 i
  · intro r; rw [Ker.invG_apply]; exact isReal_recip_clip _
  · intro i; rw [eq_row_col i, Ker.tr_apply]; exact h14 _
  · intro i; rw [eq_row_col i, Ker.addf_tr_apply]; exact (h13 _).add (h16 _)
  · intro j; rw [Ker.row_addf_apply]; exact (h12 _).add (h15 _)

/-- Layer 2, trait rows. -/
theorem outT_eq (h6 : ∀ i, IsReal ((m ((c : Thread nD τ).loc main_arg6)) i)) (h13 : ∀ i, IsReal ((m ((c : Thread nD τ).loc main_arg13)) i)) (h16 : ∀ i, IsReal ((m ((c : Thread nD τ).loc main_arg16)) i)) :
    Ker.outT m c = Ref.denseT (Ref.aggGT (Ref.floorG (addf (F := Ideal) (φ := .f32) (Ref.denseG (Ref.aggTG (m ((c : Thread nD τ).loc main_arg7)) (m ((c : Thread nD τ).loc main_arg2)) (m ((c : Thread nD τ).loc main_arg3))) (Ref.mxTG (m ((c : Thread nD τ).loc main_arg3))) (m ((c : Thread nD τ).loc main_arg11)) (m ((c : Thread nD τ).loc main_arg12)) (m ((c : Thread nD τ).loc main_arg6)) (m ((c : Thread nD τ).loc main_arg13))) (Ref.denseG (Ref.aggGG (m ((c : Thread nD τ).loc main_arg6)) (m ((c : Thread nD τ).loc main_arg4)) (m ((c : Thread nD τ).loc main_arg5))) (Ref.mxGG (m ((c : Thread nD τ).loc main_arg5))) (m ((c : Thread nD τ).loc main_arg14)) (m ((c : Thread nD τ).loc main_arg15)) (m ((c : Thread nD τ).loc main_arg6)) (m ((c : Thread nD τ).loc main_arg16))))) (m ((c : Thread nD τ).loc main_arg0)) (m ((c : Thread nD τ).loc main_arg1))) (Ref.mxGT (m ((c : Thread nD τ).loc main_arg1))) (m ((c : Thread nD τ).loc main_arg17)) (m ((c : Thread nD τ).loc main_arg18)) (Ref.floorT (Ref.denseT (Ref.aggGT (m ((c : Thread nD τ).loc main_arg6)) (m ((c : Thread nD τ).loc main_arg0)) (m ((c : Thread nD τ).loc main_arg1))) (Ref.mxGT (m ((c : Thread nD τ).loc main_arg1))) (m ((c : Thread nD τ).loc main_arg8)) (m ((c : Thread nD τ).loc main_arg9)) (m ((c : Thread nD τ).loc main_arg7)) (m ((c : Thread nD τ).loc main_arg10)))) (m ((c : Thread nD τ).loc main_arg19)) := by
  unfold Ker.outT
  rw [layerT, h1T_eq, h1G_eq m c h6 h13 h16]

/-- Layer 2, gene rows: layer 1's gene rows real, and the second layer's two root matrices. -/
theorem outG_eq (h6 : ∀ i, IsReal ((m ((c : Thread nD τ).loc main_arg6)) i)) (h7 : ∀ i, IsReal ((m ((c : Thread nD τ).loc main_arg7)) i)) (h11 : ∀ i, IsReal ((m ((c : Thread nD τ).loc main_arg11)) i)) (h12 : ∀ i, IsReal ((m ((c : Thread nD τ).loc main_arg12)) i)) (h13 : ∀ i, IsReal ((m ((c : Thread nD τ).loc main_arg13)) i)) (h14 : ∀ i, IsReal ((m ((c : Thread nD τ).loc main_arg14)) i)) (h15 : ∀ i, IsReal ((m ((c : Thread nD τ).loc main_arg15)) i)) (h16 : ∀ i, IsReal ((m ((c : Thread nD τ).loc main_arg16)) i)) (h22 : ∀ i, IsReal ((m ((c : Thread nD τ).loc main_arg22)) i)) (h25 : ∀ i, IsReal ((m ((c : Thread nD τ).loc main_arg25)) i)) :
    Ker.outG m c = addf (F := Ideal) (φ := .f32)
      (Ref.denseG (Ref.aggTG (Ref.floorT (Ref.denseT (Ref.aggGT (m ((c : Thread nD τ).loc main_arg6)) (m ((c : Thread nD τ).loc main_arg0)) (m ((c : Thread nD τ).loc main_arg1))) (Ref.mxGT (m ((c : Thread nD τ).loc main_arg1))) (m ((c : Thread nD τ).loc main_arg8)) (m ((c : Thread nD τ).loc main_arg9)) (m ((c : Thread nD τ).loc main_arg7)) (m ((c : Thread nD τ).loc main_arg10)))) (m ((c : Thread nD τ).loc main_arg2)) (m ((c : Thread nD τ).loc main_arg3))) (Ref.mxTG (m ((c : Thread nD τ).loc main_arg3))) (m ((c : Thread nD τ).loc main_arg20)) (m ((c : Thread nD τ).loc main_arg21)) (Ref.floorG (addf (F := Ideal) (φ := .f32) (Ref.denseG (Ref.aggTG (m ((c : Thread nD τ).loc main_arg7)) (m ((c : Thread nD τ).loc main_arg2)) (m ((c : Thread nD τ).loc main_arg3))) (Ref.mxTG (m ((c : Thread nD τ).loc main_arg3))) (m ((c : Thread nD τ).loc main_arg11)) (m ((c : Thread nD τ).loc main_arg12)) (m ((c : Thread nD τ).loc main_arg6)) (m ((c : Thread nD τ).loc main_arg13))) (Ref.denseG (Ref.aggGG (m ((c : Thread nD τ).loc main_arg6)) (m ((c : Thread nD τ).loc main_arg4)) (m ((c : Thread nD τ).loc main_arg5))) (Ref.mxGG (m ((c : Thread nD τ).loc main_arg5))) (m ((c : Thread nD τ).loc main_arg14)) (m ((c : Thread nD τ).loc main_arg15)) (m ((c : Thread nD τ).loc main_arg6)) (m ((c : Thread nD τ).loc main_arg16))))) (m ((c : Thread nD τ).loc main_arg22)))
      (Ref.denseG (Ref.aggGG (Ref.floorG (addf (F := Ideal) (φ := .f32) (Ref.denseG (Ref.aggTG (m ((c : Thread nD τ).loc main_arg7)) (m ((c : Thread nD τ).loc main_arg2)) (m ((c : Thread nD τ).loc main_arg3))) (Ref.mxTG (m ((c : Thread nD τ).loc main_arg3))) (m ((c : Thread nD τ).loc main_arg11)) (m ((c : Thread nD τ).loc main_arg12)) (m ((c : Thread nD τ).loc main_arg6)) (m ((c : Thread nD τ).loc main_arg13))) (Ref.denseG (Ref.aggGG (m ((c : Thread nD τ).loc main_arg6)) (m ((c : Thread nD τ).loc main_arg4)) (m ((c : Thread nD τ).loc main_arg5))) (Ref.mxGG (m ((c : Thread nD τ).loc main_arg5))) (m ((c : Thread nD τ).loc main_arg14)) (m ((c : Thread nD τ).loc main_arg15)) (m ((c : Thread nD τ).loc main_arg6)) (m ((c : Thread nD τ).loc main_arg16))))) (m ((c : Thread nD τ).loc main_arg4)) (m ((c : Thread nD τ).loc main_arg5))) (Ref.mxGG (m ((c : Thread nD τ).loc main_arg5))) (m ((c : Thread nD τ).loc main_arg23)) (m ((c : Thread nD τ).loc main_arg24)) (Ref.floorG (addf (F := Ideal) (φ := .f32) (Ref.denseG (Ref.aggTG (m ((c : Thread nD τ).loc main_arg7)) (m ((c : Thread nD τ).loc main_arg2)) (m ((c : Thread nD τ).loc main_arg3))) (Ref.mxTG (m ((c : Thread nD τ).loc main_arg3))) (m ((c : Thread nD τ).loc main_arg11)) (m ((c : Thread nD τ).loc main_arg12)) (m ((c : Thread nD τ).loc main_arg6)) (m ((c : Thread nD τ).loc main_arg13))) (Ref.denseG (Ref.aggGG (m ((c : Thread nD τ).loc main_arg6)) (m ((c : Thread nD τ).loc main_arg4)) (m ((c : Thread nD τ).loc main_arg5))) (Ref.mxGG (m ((c : Thread nD τ).loc main_arg5))) (m ((c : Thread nD τ).loc main_arg14)) (m ((c : Thread nD τ).loc main_arg15)) (m ((c : Thread nD τ).loc main_arg6)) (m ((c : Thread nD τ).loc main_arg16))))) (m ((c : Thread nD τ).loc main_arg25))) := by
  unfold Ker.outG
  rw [layerG _ _ _ _ _ _ _ _ _ _ _ _ _ (h1G_real m c h6 h7 h11 h12 h13 h14 h15 h16) h22 h25, h1T_eq, h1G_eq m c h6 h13 h16]

/-- The reference's gene result, from a memory agreeing with the kernel's on the arguments, is the kernel's. -/
theorem ref_outG (m' : (ℓ : Loc Cert.ReferenceIdeal.nD Cert.ReferenceIdeal.τ Cert.ReferenceIdeal.sig) → Buf (Elt Ideal) ℓ)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (e23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (e24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (e25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h6 : ∀ i, IsReal ((m ((c : Thread nD τ).loc main_arg6)) i)) (h7 : ∀ i, IsReal ((m ((c : Thread nD τ).loc main_arg7)) i)) (h11 : ∀ i, IsReal ((m ((c : Thread nD τ).loc main_arg11)) i)) (h12 : ∀ i, IsReal ((m ((c : Thread nD τ).loc main_arg12)) i)) (h13 : ∀ i, IsReal ((m ((c : Thread nD τ).loc main_arg13)) i)) (h14 : ∀ i, IsReal ((m ((c : Thread nD τ).loc main_arg14)) i)) (h15 : ∀ i, IsReal ((m ((c : Thread nD τ).loc main_arg15)) i)) (h16 : ∀ i, IsReal ((m ((c : Thread nD τ).loc main_arg16)) i)) (h22 : ∀ i, IsReal ((m ((c : Thread nD τ).loc main_arg22)) i)) (h25 : ∀ i, IsReal ((m ((c : Thread nD τ).loc main_arg25)) i)) :
    Ref.outG m' c = Ker.outG m c := by
  rw [outG_eq m c h6 h7 h11 h12 h13 h14 h15 h16 h22 h25]
  unfold Ref.outG Ref.h1G Ref.h1T
  simp only [e0, e1, e2, e3, e4, e5, e6, e7, e8, e9, e10, e11, e12, e13, e14, e15, e16, e20, e21, e22, e23, e24, e25]

/-- The reference's trait result likewise. -/
theorem ref_outT (m' : (ℓ : Loc Cert.ReferenceIdeal.nD Cert.ReferenceIdeal.τ Cert.ReferenceIdeal.sig) → Buf (Elt Ideal) ℓ)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h6 : ∀ i, IsReal ((m ((c : Thread nD τ).loc main_arg6)) i)) (h13 : ∀ i, IsReal ((m ((c : Thread nD τ).loc main_arg13)) i)) (h16 : ∀ i, IsReal ((m ((c : Thread nD τ).loc main_arg16)) i)) :
    Ref.outT m' c = Ker.outT m c := by
  rw [outT_eq m c h6 h13 h16]
  unfold Ref.outT Ref.h1G Ref.h1T
  simp only [e0, e1, e2, e3, e4, e5, e6, e7, e8, e9, e10, e11, e12, e13, e14, e15, e16, e17, e18, e19]

end Cert.Hetero.Join

end
-- ==== Proof.FiniteElem.lean ====
/-
  One array's finiteness test, read back.

  The precondition tests an array x of 32-bit floats by "every |x i| is below +inf": the comparison of max (x i) (-(x i))
  with the word 0x7F800000, which denotes +inf, conjoined over every index by a reduction with "and" from the
  constant 1. On the extended reals |a| < +inf excludes a = +inf (then |a| = +inf) and a = -inf (then -a = +inf, so
  |a| = +inf again): what is left is a real number. A conjunction over all indices that is 1 has a 1 at each index.
-/
import proofs.«150412_j11682311045362_2_alg».proof.Pre_finite_inputs
import Idealize.ShloMosaic.PureOps.Ideal
import Idealize.ShloMosaic.Lib.ReduceAll

noncomputable section

namespace Cert.Hetero.Fin

open Idealize.ShloMosaic
open Cert.Pre_finite_inputs (S_)

/-- The result of a reduction over all axes has one index. -/
instance subsingleton_scalar_idx : Subsingleton S_.Idx := ⟨fun a b => funext fun d => d.elim0⟩

/-- The word 0x7F800000 denotes +inf. -/
theorem ofBits_inf : Ideal.ofBits .f32 0x7F800000#32 = (⊤ : EReal) := by simp [Ideal.ofBits, Ideal.ieee]

/-- An extended real whose absolute value max a (-a) compares below +inf is a real number. -/
theorem real_of_abs_lt_inf (a : EReal)
    (h : Ideal.cmp .olt (max a (-a)) (Ideal.ofBits .f32 0x7F800000#32) = 1#1) : ∃ v : ℝ, a = (v : EReal) := by
  rw [ofBits_inf] at h
  unfold Ideal.cmp at h
  induction a using EReal.rec with
  | bot => simp at h
  | coe r => exact ⟨r, rfl⟩
  | top => simp at h

/-- The test of one array: if "all |x i| < +inf" came out 1, every entry of x is a real number. Stated for any
    shape s and any axes that reduce it to the scalar shape, so no index set is ever enumerated. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi (cmpf .olt (Host.absf x) (broadcastInDim s ![] hb (constant S_ .f32 0x7F800000#32)))
          (constantI S_ 1 1#1) hr hu j = 1#1)
    (i : s.Idx) : ∃ v : ℝ, x i = (v : EReal) :=
  real_of_abs_lt_inf (x i) (Host.reduce_andi_all _ _ hr hu j e i)

end Cert.Hetero.Fin

end
-- ==== Proof.FiniteArgs.lean ====
/-
  The precondition "every float input is finite", decoded: every entry of each of the twenty float argument arrays is a
  real number.

  The printed predicate tests the float arguments one after another, each by "all |x i| < +inf", and conjoins the twenty
  one-bit results with "and" in a left-nested chain ((t6 and t7) and t8) and ... and t25; the integer arguments do not
  occur. The chain is 1 exactly when every test is 1, and a test that is 1 makes every entry of its array real.
-/
import proofs.«150412_j11682311045362_2_alg».proof.Defs
import proofs.«150412_j11682311045362_2_alg».proof.Proof.Gen.Pre_finite_inputs
import proofs.«150412_j11682311045362_2_alg».proof.Proof.FiniteElem
import Idealize.ShloMosaic.Lib.ValueIdx

noncomputable section

namespace Cert.Hetero.Fin

open Idealize.ShloMosaic Idealize.SL.Sem
open Cert.Pre_finite_inputs (S1000000 S600000 S50000x128 S20000x128 S128x128 S128)

/-- The predicate over any twenty-six arrays: if it is all ones, every entry of each float array is a real number. -/
theorem fn_real [hP : Cert.Pre_finite_inputs.Facts] (a0 a1 a2 a3 : IVec S1000000 32) (a4 a5 : IVec S600000 32)
    (a6 : FVec Ideal S50000x128 .f32) (a7 : FVec Ideal S20000x128 .f32) (a8 : FVec Ideal S128x128 .f32) (a9 : FVec Ideal S128 .f32) (a10 : FVec Ideal S128x128 .f32) (a11 : FVec Ideal S128x128 .f32) (a12 : FVec Ideal S128 .f32) (a13 : FVec Ideal S128x128 .f32) (a14 : FVec Ideal S128x128 .f32) (a15 : FVec Ideal S128 .f32) (a16 : FVec Ideal S128x128 .f32) (a17 : FVec Ideal S128x128 .f32) (a18 : FVec Ideal S128 .f32) (a19 : FVec Ideal S128x128 .f32) (a20 : FVec Ideal S128x128 .f32) (a21 : FVec Ideal S128 .f32) (a22 : FVec Ideal S128x128 .f32) (a23 : FVec Ideal S128x128 .f32) (a24 : FVec Ideal S128 .f32) (a25 : FVec Ideal S128x128 .f32)
    (h : Cert.Pre_finite_inputs.fn (F := Ideal) a0 a1 a2 a3 a4 a5 a6 a7 a8 a9 a10 a11 a12 a13 a14 a15 a16 a17 a18 a19 a20 a21 a22 a23 a24 a25 = fun _ => 1#1) :
    (∀ i, ∃ v : ℝ, a6 i = (v : EReal))
      ∧ (∀ i, ∃ v : ℝ, a7 i = (v : EReal))
      ∧ (∀ i, ∃ v : ℝ, a8 i = (v : EReal))
      ∧ (∀ i, ∃ v : ℝ, a9 i = (v : EReal))
      ∧ (∀ i, ∃ v : ℝ, a10 i = (v : EReal))
      ∧ (∀ i, ∃ v : ℝ, a11 i = (v : EReal))
      ∧ (∀ i, ∃ v : ℝ, a12 i = (v : EReal))
      ∧ (∀ i, ∃ v : ℝ, a13 i = (v : EReal))
      ∧ (∀ i, ∃ v : ℝ, a14 i = (v : EReal))
      ∧ (∀ i, ∃ v : ℝ, a15 i = (v : EReal))
      ∧ (∀ i, ∃ v : ℝ, a16 i = (v : EReal))
      ∧ (∀ i, ∃ v : ℝ, a17 i = (v : EReal))
      ∧ (∀ i, ∃ v : ℝ, a18 i = (v : EReal))
      ∧ (∀ i, ∃ v : ℝ, a19 i = (v : EReal))
      ∧ (∀ i, ∃ v : ℝ, a20 i = (v : EReal))
      ∧ (∀ i, ∃ v : ℝ, a21 i = (v : EReal))
      ∧ (∀ i, ∃ v : ℝ, a22 i = (v : EReal))
      ∧ (∀ i, ∃ v : ℝ, a23 i = (v : EReal))
      ∧ (∀ i, ∃ v : ℝ, a24 i = (v : EReal))
      ∧ (∀ i, ∃ v : ℝ, a25 i = (v : EReal)) := by
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5 at e
  dsimp only at e
  simp only [Idealize.ShloMosaic.andi, IntOp.andi_eq_one] at e
  obtain ⟨⟨⟨⟨⟨⟨⟨⟨⟨⟨⟨⟨⟨⟨⟨⟨⟨⟨⟨h6, h7⟩, h8⟩, h9⟩, h10⟩, h11⟩, h12⟩, h13⟩, h14⟩, h15⟩, h16⟩, h17⟩, h18⟩, h19⟩, h20⟩, h21⟩, h22⟩, h23⟩, h24⟩, h25⟩ := e
  exact ⟨real_of_all a6 _ _ _ _ h6,
    real_of_all a7 _ _ _ _ h7,
    real_of_all a8 _ _ _ _ h8,
    real_of_all a9 _ _ _ _ h9,
    real_of_all a10 _ _ _ _ h10,
    real_of_all a11 _ _ _ _ h11,
    real_of_all a12 _ _ _ _ h12,
    real_of_all a13 _ _ _ _ h13,
    real_of_all a14 _ _ _ _ h14,
    real_of_all a15 _ _ _ _ h15,
    real_of_all a16 _ _ _ _ h16,
    real_of_all a17 _ _ _ _ h17,
    real_of_all a18 _ _ _ _ h18,
    real_of_all a19 _ _ _ _ h19,
    real_of_all a20 _ _ _ _ h20,
    real_of_all a21 _ _ _ _ h21,
    real_of_all a22 _ _ _ _ h22,
    real_of_all a23 _ _ _ _ h23,
    real_of_all a24 _ _ _ _ h24,
    real_of_all a25 _ _ _ _ h25⟩

/-- The precondition of the idealized kernel, decoded on every device: each float argument array holds real numbers. -/
theorem real_args_exists [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ v : ℝ, m ((c.tc : Thread Cert.KernelIdeal.nD Cert.KernelIdeal.τ).loc Cert.KernelIdeal.main_arg6) i = (v : EReal))
      ∧ (∀ i, ∃ v : ℝ, m ((c.tc : Thread Cert.KernelIdeal.nD Cert.KernelIdeal.τ).loc Cert.KernelIdeal.main_arg7) i = (v : EReal))
      ∧ (∀ i, ∃ v : ℝ, m ((c.tc : Thread Cert.KernelIdeal.nD Cert.KernelIdeal.τ).loc Cert.KernelIdeal.main_arg8) i = (v : EReal))
      ∧ (∀ i, ∃ v : ℝ, m ((c.tc : Thread Cert.KernelIdeal.nD Cert.KernelIdeal.τ).loc Cert.KernelIdeal.main_arg9) i = (v : EReal))
      ∧ (∀ i, ∃ v : ℝ, m ((c.tc : Thread Cert.KernelIdeal.nD Cert.KernelIdeal.τ).loc Cert.KernelIdeal.main_arg10) i = (v : EReal))
      ∧ (∀ i, ∃ v : ℝ, m ((c.tc : Thread Cert.KernelIdeal.nD Cert.KernelIdeal.τ).loc Cert.KernelIdeal.main_arg11) i = (v : EReal))
      ∧ (∀ i, ∃ v : ℝ, m ((c.tc : Thread Cert.KernelIdeal.nD Cert.KernelIdeal.τ).loc Cert.KernelIdeal.main_arg12) i = (v : EReal))
      ∧ (∀ i, ∃ v : ℝ, m ((c.tc : Thread Cert.KernelIdeal.nD Cert.KernelIdeal.τ).loc Cert.KernelIdeal.main_arg13) i = (v : EReal))
      ∧ (∀ i, ∃ v : ℝ, m ((c.tc : Thread Cert.KernelIdeal.nD Cert.KernelIdeal.τ).loc Cert.KernelIdeal.main_arg14) i = (v : EReal))
      ∧ (∀ i, ∃ v : ℝ, m ((c.tc : Thread Cert.KernelIdeal.nD Cert.KernelIdeal.τ).loc Cert.KernelIdeal.main_arg15) i = (v : EReal))
      ∧ (∀ i, ∃ v : ℝ, m ((c.tc : Thread Cert.KernelIdeal.nD Cert.KernelIdeal.τ).loc Cert.KernelIdeal.main_arg16) i = (v : EReal))
      ∧ (∀ i, ∃ v : ℝ, m ((c.tc : Thread Cert.KernelIdeal.nD Cert.KernelIdeal.τ).loc Cert.KernelIdeal.main_arg17) i = (v : EReal))
      ∧ (∀ i, ∃ v : ℝ, m ((c.tc : Thread Cert.KernelIdeal.nD Cert.KernelIdeal.τ).loc Cert.KernelIdeal.main_arg18) i = (v : EReal))
      ∧ (∀ i, ∃ v : ℝ, m ((c.tc : Thread Cert.KernelIdeal.nD Cert.KernelIdeal.τ).loc Cert.KernelIdeal.main_arg19) i = (v : EReal))
      ∧ (∀ i, ∃ v : ℝ, m ((c.tc : Thread Cert.KernelIdeal.nD Cert.KernelIdeal.τ).loc Cert.KernelIdeal.main_arg20) i = (v : EReal))
      ∧ (∀ i, ∃ v : ℝ, m ((c.tc : Thread Cert.KernelIdeal.nD Cert.KernelIdeal.τ).loc Cert.KernelIdeal.main_arg21) i = (v : EReal))
      ∧ (∀ i, ∃ v : ℝ, m ((c.tc : Thread Cert.KernelIdeal.nD Cert.KernelIdeal.τ).loc Cert.KernelIdeal.main_arg22) i = (v : EReal))
      ∧ (∀ i, ∃ v : ℝ, m ((c.tc : Thread Cert.KernelIdeal.nD Cert.KernelIdeal.τ).loc Cert.KernelIdeal.main_arg23) i = (v : EReal))
      ∧ (∀ i, ∃ v : ℝ, m ((c.tc : Thread Cert.KernelIdeal.nD Cert.KernelIdeal.τ).loc Cert.KernelIdeal.main_arg24) i = (v : EReal))
      ∧ (∀ i, ∃ v : ℝ, m ((c.tc : Thread Cert.KernelIdeal.nD Cert.KernelIdeal.τ).loc Cert.KernelIdeal.main_arg25) i = (v : EReal)) :=
  fn_real _ _ _ _ _ _ _ _ _ _ _ _ _ _ _ _ _ _ _ _ _ _ _ _ _ _ (h c)

end Cert.Hetero.Fin

end
-- ==== Proof.Finite.lean ====
/-
  The precondition "every float input is finite" in the form the algebra uses: on every device, every entry of each of
  the twenty float argument arrays (arguments 6 to 25, in order) is a real number.
-/
import proofs.«150412_j11682311045362_2_alg».proof.Defs
import proofs.«150412_j11682311045362_2_alg».proof.Proof.Gen.Pre_finite_inputs
import proofs.«150412_j11682311045362_2_alg».proof.Proof.Algebra
import proofs.«150412_j11682311045362_2_alg».proof.Proof.FiniteArgs

noncomputable section

namespace Cert.Hetero.Fin

open Idealize.ShloMosaic Idealize.SL.Sem

/-- Under the idealized kernel's precondition every entry of every float argument array is a real number. -/
theorem real_args [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Hetero.IsReal (m ((c.tc : Thread Cert.KernelIdeal.nD Cert.KernelIdeal.τ).loc Cert.KernelIdeal.main_arg6) i))
      ∧ (∀ i, Cert.Hetero.IsReal (m ((c.tc : Thread Cert.KernelIdeal.nD Cert.KernelIdeal.τ).loc Cert.KernelIdeal.main_arg7) i))
      ∧ (∀ i, Cert.Hetero.IsReal (m ((c.tc : Thread Cert.KernelIdeal.nD Cert.KernelIdeal.τ).loc Cert.KernelIdeal.main_arg8) i))
      ∧ (∀ i, Cert.Hetero.IsReal (m ((c.tc : Thread Cert.KernelIdeal.nD Cert.KernelIdeal.τ).loc Cert.KernelIdeal.main_arg9) i))
      ∧ (∀ i, Cert.Hetero.IsReal (m ((c.tc : Thread Cert.KernelIdeal.nD Cert.KernelIdeal.τ).loc Cert.KernelIdeal.main_arg10) i))
      ∧ (∀ i, Cert.Hetero.IsReal (m ((c.tc : Thread Cert.KernelIdeal.nD Cert.KernelIdeal.τ).loc Cert.KernelIdeal.main_arg11) i))
      ∧ (∀ i, Cert.Hetero.IsReal (m ((c.tc : Thread Cert.KernelIdeal.nD Cert.KernelIdeal.τ).loc Cert.KernelIdeal.main_arg12) i))
      ∧ (∀ i, Cert.Hetero.IsReal (m ((c.tc : Thread Cert.KernelIdeal.nD Cert.KernelIdeal.τ).loc Cert.KernelIdeal.main_arg13) i))
      ∧ (∀ i, Cert.Hetero.IsReal (m ((c.tc : Thread Cert.KernelIdeal.nD Cert.KernelIdeal.τ).loc Cert.KernelIdeal.main_arg14) i))
      ∧ (∀ i, Cert.Hetero.IsReal (m ((c.tc : Thread Cert.KernelIdeal.nD Cert.KernelIdeal.τ).loc Cert.KernelIdeal.main_arg15) i))
      ∧ (∀ i, Cert.Hetero.IsReal (m ((c.tc : Thread Cert.KernelIdeal.nD Cert.KernelIdeal.τ).loc Cert.KernelIdeal.main_arg16) i))
      ∧ (∀ i, Cert.Hetero.IsReal (m ((c.tc : Thread Cert.KernelIdeal.nD Cert.KernelIdeal.τ).loc Cert.KernelIdeal.main_arg17) i))
      ∧ (∀ i, Cert.Hetero.IsReal (m ((c.tc : Thread Cert.KernelIdeal.nD Cert.KernelIdeal.τ).loc Cert.KernelIdeal.main_arg18) i))
      ∧ (∀ i, Cert.Hetero.IsReal (m ((c.tc : Thread Cert.KernelIdeal.nD Cert.KernelIdeal.τ).loc Cert.KernelIdeal.main_arg19) i))
      ∧ (∀ i, Cert.Hetero.IsReal (m ((c.tc : Thread Cert.KernelIdeal.nD Cert.KernelIdeal.τ).loc Cert.KernelIdeal.main_arg20) i))
      ∧ (∀ i, Cert.Hetero.IsReal (m ((c.tc : Thread Cert.KernelIdeal.nD Cert.KernelIdeal.τ).loc Cert.KernelIdeal.main_arg21) i))
      ∧ (∀ i, Cert.Hetero.IsReal (m ((c.tc : Thread Cert.KernelIdeal.nD Cert.KernelIdeal.τ).loc Cert.KernelIdeal.main_arg22) i))
      ∧ (∀ i, Cert.Hetero.IsReal (m ((c.tc : Thread Cert.KernelIdeal.nD Cert.KernelIdeal.τ).loc Cert.KernelIdeal.main_arg23) i))
      ∧ (∀ i, Cert.Hetero.IsReal (m ((c.tc : Thread Cert.KernelIdeal.nD Cert.KernelIdeal.τ).loc Cert.KernelIdeal.main_arg24) i))
      ∧ (∀ i, Cert.Hetero.IsReal (m ((c.tc : Thread Cert.KernelIdeal.nD Cert.KernelIdeal.τ).loc Cert.KernelIdeal.main_arg25) i)) :=
  real_args_exists m h c

end Cert.Hetero.Fin

end
-- ==== Proof.lean ====
/-
  The certificate of a two-layer graph network over two node types and three relations, computed by four
  pipelined kernels among host gathers and scatter-adds, against its plain reference.

  Each destination row's update is: per incoming relation, the mean of its neighbours' rows times that relation's
  weight matrix plus a bias, plus the row itself times a root matrix. The kernel takes the mean as the neighbour sum
  times the reciprocal of the clipped count, 1 / max(cnt, 1), computed once per relation, where the reference divides
  by max(cnt, 1); for the node type with two incoming relations it adds the two root matrices and the two biases
  first and multiplies the node's own row once. On the extended reals the first difference costs nothing; the second
  is the law x (a + b) = x a + x b, which holds for real x, a, b: the inputs are finite by the precondition, and the
  first layer's output is real because sums and products of reals, and the reciprocal of a clipped count, are real.
  The narrowing and widening of the gathered rows is the identity at the ideal instance.

  The three frames are the generated frame certificates (the reference's is its generated run with the results
  dropped); the idealization rewrote nothing, so its claim is trivial; the equality of results joins the kernel's
  run, read boundary by boundary, with the reference's run.
-/
import proofs.«150412_j11682311045362_2_alg».proof.Defs
import proofs.«150412_j11682311045362_2_alg».proof.Proof.Gen.Kernel
import proofs.«150412_j11682311045362_2_alg».proof.Proof.Gen.Kernel.Frame
import proofs.«150412_j11682311045362_2_alg».proof.Proof.Gen.KernelIdeal
import proofs.«150412_j11682311045362_2_alg».proof.Proof.Gen.KernelIdeal.Frame
import proofs.«150412_j11682311045362_2_alg».proof.Proof.Gen.ReferenceIdeal
import proofs.«150412_j11682311045362_2_alg».proof.Proof.Gen.Pre_finite_inputs
import proofs.«150412_j11682311045362_2_alg».proof.Proof.Gen.ReferenceIdeal.Run
import proofs.«150412_j11682311045362_2_alg».proof.Proof.KernelRun
import proofs.«150412_j11682311045362_2_alg».proof.Proof.Result
import proofs.«150412_j11682311045362_2_alg».proof.Proof.Finite
import Idealize.ShloMosaic.Adequacy
import Idealize.ShloMosaic.Init

set_option maxRecDepth 8192

noncomputable section

namespace Cert.Proof

open Idealize.ShloMosaic Idealize.SL.Sem Cert.Hetero

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the gene result at the kernel's layer-2 gene rows and the trait result at its
    layer-2 trait rows. -/
theorem algebraic : Cert.algebraic_KernelIdeal_ReferenceIdeal := by
  intro m ρ m' ρ' hpre hagree
  refine ⟨fun c => Ker.outG m c, fun c => Ker.outT m c, ?_, ?_⟩
  · refine (θ_run Cert.KernelIdeal.defs _ _).mono (fun r h c => ?_) (Cert.KernelIdeal.RunValue.run_named (F := Ideal) m ρ)
    exact ⟨(h c).1.trans (Ker.W8_v132 m ρ c), (h c).2.1.trans (Ker.W8_v97 m ρ c), (h c).2.2⟩
  · refine (θ_run Cert.ReferenceIdeal.defs _ _).mono (fun r h c => ?_) (Cert.ReferenceIdeal.Value.run (F := Ideal) m' ρ')
    have hr := Cert.Hetero.Fin.real_args m hpre c
    refine ⟨(h c).1.trans ((Ref.res0 m' c).trans ?_), (h c).2.1.trans ((Ref.res1 m' c).trans ?_), (h c).2.2⟩
    · exact Join.ref_outG m c m' ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2.1) ((hagree c).2.2.2.2.2.2.2.2.2.1) ((hagree c).2.2.2.2.2.2.2.2.2.2.1) ((hagree c).2.2.2.2.2.2.2.2.2.2.2.1) ((hagree c).2.2.2.2.2.2.2.2.2.2.2.2.1) ((hagree c).2.2.2.2.2.2.2.2.2.2.2.2.2.1) ((hagree c).2.2.2.2.2.2.2.2.2.2.2.2.2.2.1) ((hagree c).2.2.2.2.2.2.2.2.2.2.2.2.2.2.2.1) ((hagree c).2.2.2.2.2.2.2.2.2.2.2.2.2.2.2.2.1) ((hagree c).2.2.2.2.2.2.2.2.2.2.2.2.2.2.2.2.2.2.2.2.1) ((hagree c).2.2.2.2.2.2.2.2.2.2.2.2.2.2.2.2.2.2.2.2.2.1) ((hagree c).2.2.2.2.2.2.2.2.2.2.2.2.2.2.2.2.2.2.2.2.2.2.1) ((hagree c).2.2.2.2.2.2.2.2.2.2.2.2.2.2.2.2.2.2.2.2.2.2.2.1) ((hagree c).2.2.2.2.2.2.2.2.2.2.2.2.2.2.2.2.2.2.2.2.2.2.2.2.1) ((hagree c).2.2.2.2.2.2.2.2.2.2.2.2.2.2.2.2.2.2.2.2.2.2.2.2.2) (hr.1) (hr.2.1) (hr.2.2.2.2.2.1) (hr.2.2.2.2.2.2.1) (hr.2.2.2.2.2.2.2.1) (hr.2.2.2.2.2.2.2.2.1) (hr.2.2.2.2.2.2.2.2.2.1) (hr.2.2.2.2.2.2.2.2.2.2.1) (hr.2.2.2.2.2.2.2.2.2.2.2.2.2.2.2.2.1) (hr.2.2.2.2.2.2.2.2.2.2.2.2.2.2.2.2.2.2.2)
    · exact Join.ref_outT m c m' ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2.1) ((hagree c).2.2.2.2.2.2.2.2.2.1) ((hagree c).2.2.2.2.2.2.2.2.2.2.1) ((hagree c).2.2.2.2.2.2.2.2.2.2.2.1) ((hagree c).2.2.2.2.2.2.2.2.2.2.2.2.1) ((hagree c).2.2.2.2.2.2.2.2.2.2.2.2.2.1) ((hagree c).2.2.2.2.2.2.2.2.2.2.2.2.2.2.1) ((hagree c).2.2.2.2.2.2.2.2.2.2.2.2.2.2.2.1) ((hagree c).2.2.2.2.2.2.2.2.2.2.2.2.2.2.2.2.1) ((hagree c).2.2.2.2.2.2.2.2.2.2.2.2.2.2.2.2.2.1) ((hagree c).2.2.2.2.2.2.2.2.2.2.2.2.2.2.2.2.2.2.1) ((hagree c).2.2.2.2.2.2.2.2.2.2.2.2.2.2.2.2.2.2.2.1) (hr.1) (hr.2.2.2.2.2.2.2.1) (hr.2.2.2.2.2.2.2.2.2.2.1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
